-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096x4096 : Shape := ⟨2, ![4096, 4096]⟩
abbrev S4096 : Shape := ⟨1, ![4096]⟩
abbrev S32000x2048 : Shape := ⟨2, ![32000, 2048]⟩
abbrev S32000x4096 : Shape := ⟨2, ![32000, 4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S32000x2048 : S_.BroadcastsInDim S32000x2048 (![] : Fin 0 → Fin S32000x2048.rank)
  reducesTo_S32000x2048_S_d0_1 : S32000x2048.ReducesTo [0, 1] S_
  bcast_S_S32000x4096 : S_.BroadcastsInDim S32000x4096 (![] : Fin 0 → Fin S32000x4096.rank)
  reducesTo_S32000x4096_S_d0_1 : S32000x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg2 : IVec S4096 32) (main_v13 : IVec S_ 1) (main_v16 : IVec S32000x4096 1) : IVec S_ 1 :=
  let main_c_5 : IVec S_ 1 := constantI S_ 1 1#1
  let main_v17 : IVec S_ 1 := (fun x v => Host.reduce IntOp.andi x v reducesTo_S32000x4096_S_d0_1 h_S_) main_v16 main_c_5
  let main_v18 : IVec S_ 1 := andi main_v13 main_v17
  let main_c_6 : IVec S_ 32 := constantI S_ 32 4294935296#32
  let main_v19 : IVec S4096 32 := broadcastInDim S4096 ![] bcast_S_S4096 main_c_6
  let main_v20 : IVec S4096 1 := cmpi .sge main_arg2 main_v19
  let main_c_7 : IVec S_ 32 := constantI S_ 32 32000#32
  let main_v21 : IVec S4096 32 := broadcastInDim S4096 ![] bcast_S_S4096 main_c_7
  let main_v22 : IVec S4096 1 := cmpi .slt main_arg2 main_v21
  let main_v23 : IVec S4096 1 := andi main_v20 main_v22
  let main_c_8 : IVec S_ 1 := constantI S_ 1 1#1
  let main_v24 : IVec S_ 1 := (fun x v => Host.reduce IntOp.andi x v reducesTo_S4096_S_d0 h_S_) main_v23 main_c_8
  let main_v25 : IVec S_ 1 := andi main_v18 main_v24
  main_v25

def fn {F : FTy → Type} [FloatOps F] (main_arg0 : FVec F S4096x2048 .f32) (main_arg1 : FVec F S4096x4096 .f32) (main_arg2 : IVec S4096 32) (main_arg3 : FVec F S32000x2048 .f32) (main_arg4 : FVec F S32000x4096 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S32000x2048 .f32 := Host.absf main_arg3
  let main_cst_2 : FVec F S_ .f32 := constant S_ .f32 0x7F800000#32
  let main_v10 : FVec F S32000x2048 .f32 := broadcastInDim S32000x2048 ![] bcast_S_S32000x2048 main_cst_2
  let main_v11 : IVec S32000x2048 1 := cmpf .olt main_v9 main_v10
  let main_c_3 : IVec S_ 1 := constantI S_ 1 1#1
  let main_v12 : IVec S_ 1 := (fun x v => Host.reduce IntOp.andi x v reducesTo_S32000x2048_S_d0_1 h_S_) main_v11 main_c_3
  let main_v13 : IVec S_ 1 := andi main_v8 main_v12
  let main_v14 : FVec F S32000x4096 .f32 := Host.absf main_arg4
  let main_cst_4 : FVec F S_ .f32 := constant S_ .f32 0x7F800000#32
  let main_v15 : FVec F S32000x4096 .f32 := broadcastInDim S32000x4096 ![] bcast_S_S32000x4096 main_cst_4
  let main_v16 : IVec S32000x4096 1 := cmpf .olt main_v14 main_v15
  fn_part1 (F := F) main_arg2 main_v13 main_v16
-- ==== Kernel.lean ====
abbrev S4096x2048 : Shape := ⟨2, ![4096, 2048]⟩
abbrev S4096x4096 : Shape := ⟨2, ![4096, 4096]⟩
abbrev S4096 : Shape := ⟨1, ![4096]⟩
abbrev S32000x2048 : Shape := ⟨2, ![32000, 2048]⟩
abbrev S32000x4096 : Shape := ⟨2, ![32000, 4096]⟩
abbrev S4096x1 : Shape := ⟨2, ![4096, 1]⟩
abbrev S4096x32000 : Shape := ⟨2, ![4096, 32000]⟩
abbrev S1024x2048 : Shape := ⟨2, ![1024, 2048]⟩
abbrev S640x2048 : Shape := ⟨2, ![640, 2048]⟩
abbrev S1024x4096 : Shape := ⟨2, ![1024, 4096]⟩
abbrev S640x4096 : Shape := ⟨2, ![640, 4096]⟩
abbrev S1024x1 : Shape := ⟨2, ![1024, 1]⟩
abbrev S1024x640 : Shape := ⟨2, ![1024, 640]⟩
abbrev S1024 : Shape := ⟨1, ![1024]⟩
abbrev S_ : Shape := ⟨0, ![]⟩
abbrev S1 : Shape := ⟨1, ![1]⟩
abbrev S1x1 : Shape := ⟨2, ![1, 1]⟩

abbrev nBuf : Space → Nat
  | .hbm => 74
  | .vmem => 30
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S4096, .i32⟩
  | .hbm, ⟨3, _⟩ => ⟨S32000x2048, .f32⟩
  | .hbm, ⟨4, _⟩ => ⟨S32000x4096, .f32⟩
  | .hbm, ⟨5, _⟩ => ⟨S4096x2048, .bf16⟩
  | .hbm, ⟨6, _⟩ => ⟨S4096x4096, .bf16⟩
  | .hbm, ⟨7, _⟩ => ⟨S32000x2048, .bf16⟩
  | .hbm, ⟨8, _⟩ => ⟨S32000x4096, .bf16⟩
  | .hbm, ⟨9, _⟩ => ⟨S4096x1, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x32000, .bf16⟩
  | .hbm, ⟨14, _⟩ => ⟨S4096x32000, .bf16⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S1, .i32⟩
  | .hbm, ⟨36, _⟩ => ⟨S_, .i32⟩
  | .hbm, ⟨37, _⟩ => ⟨S4096x1, .i32⟩
  | .hbm, ⟨38, _⟩ => ⟨S4096x1, .i1⟩
  | .hbm, ⟨39, _⟩ => ⟨S1x1, .i32⟩
  | .hbm, ⟨40, _⟩ => ⟨S4096x1, .i32⟩
  | .hbm, ⟨41, _⟩ => ⟨S4096x1, .i1⟩
  | .hbm, ⟨42, _⟩ => ⟨S4096x1, .i1⟩
  | .hbm, ⟨43, _⟩ => ⟨S_, .i1⟩
  | .hbm, ⟨44, _⟩ => ⟨S4096, .i1⟩
  | .hbm, ⟨45, _⟩ => ⟨S4096x2048, .f32⟩
  | .hbm, ⟨46, _⟩ => ⟨S4096x2048, .i1⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x1, .f32⟩
  | .hbm, ⟨55, _⟩ => ⟨S4096, .f32⟩
  | .hbm, ⟨56, _⟩ => ⟨S4096x1, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S4096x1, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .local _ .vmem, ⟨0, _⟩ => ⟨S1024x2048, .bf16⟩
  | .local _ .vmem, ⟨1, _⟩ => ⟨S1024x2048, .bf16⟩
  | .local _ .vmem, ⟨2, _⟩ => ⟨S640x2048, .bf16⟩
  | .local _ .vmem, ⟨3, _⟩ => ⟨S640x2048, .bf16⟩
  | .local _ .vmem, ⟨4, _⟩ => ⟨S1024x4096, .bf16⟩
  | .local _ .vmem, ⟨5, _⟩ => ⟨S1024x4096, .bf16⟩
  | .local _ .vmem, ⟨6, _⟩ => ⟨S640x4096, .bf16⟩
  | .local _ .vmem, ⟨7, _⟩ => ⟨S640x4096, .bf16⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x640, .bf16⟩
  | .local _ .vmem, ⟨17, _⟩ => ⟨S1024x640, .bf16⟩
  | .local _ .vmem, ⟨18, _⟩ => ⟨S1024x640, .bf16⟩
  | .local _ .vmem, ⟨19, _⟩ => ⟨S1024x640, .bf16⟩
  | .local _ .vmem, ⟨20, _⟩ => ⟨S1024x640, .bf16⟩
  | .local _ .vmem, ⟨21, _⟩ => ⟨S1024x640, .bf16⟩
  | .local _ .vmem, ⟨22, _⟩ => ⟨S1024x640, .bf16⟩
  | .local _ .vmem, ⟨23, _⟩ => ⟨S1024x640, .bf16⟩
  | .local _ .vmem, ⟨24, _⟩ => ⟨S1024x1, .f32⟩
  | .local _ .vmem, ⟨25, _⟩ => ⟨S1024x1, .f32⟩
  | .local _ .vmem, ⟨26, _⟩ => ⟨S1024x1, .f32⟩
  | .local _ .vmem, ⟨27, _⟩ => ⟨S1024x1, .f32⟩
  | .local _ .vmem, ⟨28, _⟩ => ⟨S1024x1, .f32⟩
  | .local _ .vmem, ⟨29, _⟩ => ⟨S1024x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v4_5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_call0_v0 : Ref sig .tc := ⟨.hbm, 24, rfl⟩
abbrev main_call0_v1 : Ref sig .tc := ⟨.hbm, 25, rfl⟩
abbrev main_v12 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v13 : Ref sig .tc := ⟨.hbm, 49, rfl⟩
abbrev main_v14 : Ref sig .tc := ⟨.hbm, 50, rfl⟩
abbrev main_cst : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_cst_1 : Ref sig .tc := ⟨.hbm, 57, rfl⟩
abbrev main_v20 : Ref sig .tc := ⟨.hbm, 58, rfl⟩
abbrev main_cst_2 : Ref sig .tc := ⟨.hbm, 59, rfl⟩
abbrev main_v21 : Ref sig .tc := ⟨.hbm, 60, rfl⟩
abbrev main_v22 : Ref sig .tc := ⟨.hbm, 61, rfl⟩
abbrev main_cst_3 : Ref sig .tc := ⟨.hbm, 62, rfl⟩
abbrev main_v23 : Ref sig .tc := ⟨.hbm, 63, rfl⟩
abbrev main_v24 : Ref sig .tc := ⟨.hbm, 64, rfl⟩
abbrev main_cst_4 : Ref sig .tc := ⟨.hbm, 65, rfl⟩
abbrev main_v25 : Ref sig .tc := ⟨.hbm, 66, rfl⟩
abbrev main_cst_5 : Ref sig .tc := ⟨.hbm, 67, rfl⟩
abbrev main_v26 : Ref sig .tc := ⟨.hbm, 68, rfl⟩
abbrev main_cst_6 : Ref sig .tc := ⟨.hbm, 69, rfl⟩
abbrev main_v27 : Ref sig .tc := ⟨.hbm, 70, rfl⟩
abbrev main_cst_7 : Ref sig .tc := ⟨.hbm, 71, rfl⟩
abbrev main_v28 : Ref sig .tc := ⟨.hbm, 72, rfl⟩
abbrev main_v29 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29

abbrev nD : Nat := 1
abbrev τ : Topo := Topo.v7x

variable {F : FTy → Type} [FloatOps F]

abbrev grid0 : Pipeline.Grid := ⟨2, ![4, 50], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x640 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x640 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![4, 50], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x640 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x640 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S640x2048_S640x2048_0_0 : ∀ a, (![0, 0] : Fin 2 → Nat) a + S640x2048.size a ≤ S640x2048.size a
  h_S640x2048 : 0 < S640x2048.numel
  shapeCasts_S640x2048_S640x2048 : S640x2048.ShapeCasts S640x2048
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S640x4096_S640x4096_0_0 : ∀ a, (![0, 0] : Fin 2 → Nat) a + S640x4096.size a ≤ S640x4096.size a
  h_S640x4096 : 0 < S640x4096.numel
  shapeCasts_S640x4096_S640x4096 : S640x4096.ShapeCasts S640x4096
  shapeCasts_S1024x1_S1024x1 : S1024x1.ShapeCasts S1024x1
  reduces_S1024x640_S1024 : S1024x640.Reduces [1] S1024
  shapeCasts_S1024_S1024x1 : S1024.ShapeCasts S1024x1
  broadcasts_S1024x1_S1024x640 : S1024x1.Broadcasts S1024x640
  inb_S1024x640_S1024x640_0_0 : ∀ a, (![0, 0] : Fin 2 → Nat) a + S1024x640.size a ≤ S1024x640.size a
  h_S1024x640 : 0 < S1024x640.numel
  packedbf16_S1024x640_S1024x640_0_0 : (Rect.unit (s := S1024x640) ![0, 0] S1024x640.size inb_S1024x640_S1024x640_0_0).PackedRows (EltTy.packing .bf16)
  shapeCasts_S1024x640_S1024x640 : S1024x640.ShapeCasts S1024x640
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x2048_0 : S4096.BroadcastsInDim S4096x2048 (![0] : Fin 1 → Fin S4096x2048.rank)
  bcast_S_S4096x2048 : S_.BroadcastsInDim S4096x2048 (![] : Fin 0 → Fin S4096x2048.rank)
  reducesTo_S4096x2048_S4096_d1 : S4096x2048.ReducesTo [1] S4096
  shapeCasts_S4096_S4096x1 : S4096.ShapeCasts S4096x1
  reducesTo_S4096x1_S_d0_1 : S4096x1.ReducesTo [0, 1] S_
  dot_S1024x2048_S640x2048_S1024x640_1_1_0_0_n_n_wf : DotDims.WF S1024x2048 S640x2048 S1024x640 [1] [1] [0] [0] [] []
  dot_S1024x4096_S640x4096_S1024x640_1_1_0_0_n_n_wf : DotDims.WF S1024x4096 S640x4096 S1024x640 [1] [1] [0] [0] [] []
  gather_S32000x2048_S4096x1_S4096x2048_1_0_n_n_0_1_12048_wf : GatherDims.WF S32000x2048 S4096x1 S4096x2048 [1] [0] [] [0] [] 1 ![1, 2048]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .bf16 = 32 ∨ (Rect.block (s := S4096x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x2048.size a ≤ S32000x2048.size a
  hwx0_1 : ∀ i : grid0.Coords, EltTy.bits .bf16 = 32 ∨ (Rect.block (s := S32000x2048) S640x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S4096x4096.size a
  hwx0_2 : ∀ i : grid0.Coords, EltTy.bits .bf16 = 32 ∨ (Rect.block (s := S4096x4096) S1024x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S640x4096.size a ≤ S32000x4096.size a
  hwx0_3 : ∀ i : grid0.Coords, EltTy.bits .bf16 = 32 ∨ (Rect.block (s := S32000x4096) S640x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S4096x1.size a
  hwx0_6 : ∀ i : grid0.Coords, EltTy.bits .f32 = 32 ∨ (Rect.block (s := S4096x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S4096x1.size a
  hwx0_7 : ∀ i : grid0.Coords, EltTy.bits .f32 = 32 ∨ (Rect.block (s := S4096x1) S1024x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x640.size a ≤ S4096x32000.size a
  hwx0_8 : ∀ i : grid0.Coords, EltTy.bits .bf16 = 32 ∨ (Rect.block (s := S4096x32000) S1024x640.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x640.size a ≤ S4096x32000.size a
  hwx0_9 : ∀ i : grid0.Coords, EltTy.bits .bf16 = 32 ∨ (Rect.block (s := S4096x32000) S1024x640.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x640.size a ≤ S4096x32000.size a
  hwx1_0 : ∀ i : grid1.Coords, EltTy.bits .bf16 = 32 ∨ (Rect.block (s := S4096x32000) S1024x640.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x640.size a ≤ S4096x32000.size a
  hwx1_1 : ∀ i : grid1.Coords, EltTy.bits .bf16 = 32 ∨ (Rect.block (s := S4096x32000) S1024x640.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S4096x1.size a
  hwx1_2 : ∀ i : grid1.Coords, EltTy.bits .f32 = 32 ∨ (Rect.block (s := S4096x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S4096x1.size a
  hwx1_3 : ∀ i : grid1.Coords, EltTy.bits .f32 = 32 ∨ (Rect.block (s := S4096x1) S1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S4096x1.size a
  hwx1_4 : ∀ i : grid1.Coords, EltTy.bits .f32 = 32 ∨ (Rect.block (s := S4096x1) S1024x1.size (cc1_transform_4 i) (hinb1_4 i)).WholeWords (EltTy.packing .f32)

variable [Facts₀]

def dot_S1024x2048_S640x2048_S1024x640_1_1_0_0_n_n : DotDims S1024x2048 S640x2048 S1024x640 where
  lhsContracting := [1]
  rhsContracting := [1]
  lhsNonContracting := [0]
  rhsNonContracting := [0]
  lhsBatch := []
  rhsBatch := []
  wf := dot_S1024x2048_S640x2048_S1024x640_1_1_0_0_n_n_wf
def dot_S1024x4096_S640x4096_S1024x640_1_1_0_0_n_n : DotDims S1024x4096 S640x4096 S1024x640 where
  lhsContracting := [1]
  rhsContracting := [1]
  lhsNonContracting := [0]
  rhsNonContracting := [0]
  lhsBatch := []
  rhsBatch := []
  wf := dot_S1024x4096_S640x4096_S1024x640_1_1_0_0_n_n_wf
def gather_S32000x2048_S4096x1_S4096x2048_1_0_n_n_0_1_12048 : GatherDims S32000x2048 S4096x1 S4096x2048 where
  offsetDims := [1]
  collapsedSliceDims := [0]
  operandBatchingDims := []
  startIndicesBatchingDims := []
  startIndexMap := [0]
  indexVectorDim := 1
  sliceSizes := ![1, 2048]
  wf := gather_S32000x2048_S4096x1_S4096x2048_1_0_n_n_0_1_12048_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S640x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S640x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S1024x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_3) S1024x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_4) S1024x640.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_5) S1024x640.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v4_4) S1024x640.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_5) S1024x640.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1024x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x2048 : Shape := ⟨2, ![4096, 2048]⟩
abbrev S4096x4096 : Shape := ⟨2, ![4096, 4096]⟩
abbrev S4096 : Shape := ⟨1, ![4096]⟩
abbrev S32000x2048 : Shape := ⟨2, ![32000, 2048]⟩
abbrev S32000x4096 : Shape := ⟨2, ![32000, 4096]⟩
abbrev S2048x32000 : Shape := ⟨2, ![2048, 32000]⟩
abbrev S4096x32000 : Shape := ⟨2, ![4096, 32000]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 120
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S4096, .i32⟩
  | .hbm, ⟨3, _⟩ => ⟨S32000x2048, .f32⟩
  | .hbm, ⟨4, _⟩ => ⟨S32000x4096, .f32⟩
  | .hbm, ⟨5, _⟩ => ⟨S2048x32000, .f32⟩
  | .hbm, ⟨6, _⟩ => ⟨S4096x32000, .f32⟩
  | .hbm, ⟨7, _⟩ => ⟨S_, .f32⟩
  | .hbm, ⟨8, _⟩ => ⟨S4096x32000, .f32⟩
  | .hbm, ⟨9, _⟩ => ⟨S4096x32000, .f32⟩
  | .hbm, ⟨10, _⟩ => ⟨S4096x32000, .f32⟩
  | .hbm, ⟨11, _⟩ => ⟨S4096x32000, .f32⟩
  | .hbm, ⟨12, _⟩ => ⟨S_, .f32⟩
  | .hbm, ⟨13, _⟩ => ⟨S4096x32000, .f32⟩
  | .hbm, ⟨14, _⟩ => ⟨S4096x32000, .f32⟩
  | .hbm, ⟨15, _⟩ => ⟨S_, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096x1, .f32⟩
  | .hbm, ⟨21, _⟩ => ⟨S4096x32000, .f32⟩
  | .hbm, ⟨22, _⟩ => ⟨S4096x32000, .f32⟩
  | .hbm, ⟨23, _⟩ => ⟨S4096x32000, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x1, .f32⟩
  | .hbm, ⟨28, _⟩ => ⟨S4096x32000, .f32⟩
  | .hbm, ⟨29, _⟩ => ⟨S4096x32000, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096x1, .f32⟩
  | .hbm, ⟨36, _⟩ => ⟨S4096x32000, .f32⟩
  | .hbm, ⟨37, _⟩ => ⟨S4096x32000, .f32⟩
  | .hbm, ⟨38, _⟩ => ⟨S4096x32000, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1, .f32⟩
  | .hbm, ⟨43, _⟩ => ⟨S4096x32000, .f32⟩
  | .hbm, ⟨44, _⟩ => ⟨S4096x32000, .f32⟩
  | .hbm, ⟨45, _⟩ => ⟨S_, .i32⟩
  | .hbm, ⟨46, _⟩ => ⟨S4096, .i32⟩
  | .hbm, ⟨47, _⟩ => ⟨S4096, .i1⟩
  | .hbm, ⟨48, _⟩ => ⟨S_, .i32⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S4096x1, .i32⟩
  | .hbm, ⟨53, _⟩ => ⟨S_, .i32⟩
  | .hbm, ⟨54, _⟩ => ⟨S4096x1, .i32⟩
  | .hbm, ⟨55, _⟩ => ⟨S4096x1, .i1⟩
  | .hbm, ⟨56, _⟩ => ⟨S_, .i32⟩
  | .hbm, ⟨57, _⟩ => ⟨S4096x1, .i32⟩
  | .hbm, ⟨58, _⟩ => ⟨S4096x1, .i32⟩
  | .hbm, ⟨59, _⟩ => ⟨S4096x1, .i32⟩
  | .hbm, ⟨60, _⟩ => ⟨S4096x1x1, .i32⟩
  | .hbm, ⟨61, _⟩ => ⟨S1, .i32⟩
  | .hbm, ⟨62, _⟩ => ⟨S_, .i32⟩
  | .hbm, ⟨63, _⟩ => ⟨S4096x1x1, .i32⟩
  | .hbm, ⟨64, _⟩ => ⟨S4096x1x1, .i1⟩
  | .hbm, ⟨65, _⟩ => ⟨S1x1x1, .i32⟩
  | .hbm, ⟨66, _⟩ => ⟨S4096x1x1, .i32⟩
  | .hbm, ⟨67, _⟩ => ⟨S4096x1x1, .i1⟩
  | .hbm, ⟨68, _⟩ => ⟨S4096x1x1, .i1⟩
  | .hbm, ⟨69, _⟩ => ⟨S_, .i1⟩
  | .hbm, ⟨70, _⟩ => ⟨S4096x1, .i1⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S4096, .f32⟩
  | .hbm, ⟨76, _⟩ => ⟨S4096, .f32⟩
  | .hbm, ⟨77, _⟩ => ⟨S4096, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .f32⟩
  | .hbm, ⟨83, _⟩ => ⟨S_, .f32⟩
  | .hbm, ⟨84, _⟩ => ⟨S4096, .f32⟩
  | .hbm, ⟨85, _⟩ => ⟨S4096, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S4096x32000, .f32⟩
  | .hbm, ⟨91, _⟩ => ⟨S4096x32000, .f32⟩
  | .hbm, ⟨92, _⟩ => ⟨S_, .f32⟩
  | .hbm, ⟨93, _⟩ => ⟨S4096x32000, .f32⟩
  | .hbm, ⟨94, _⟩ => ⟨S4096x32000, .f32⟩
  | .hbm, ⟨95, _⟩ => ⟨S_, .f32⟩
  | .hbm, ⟨96, _⟩ => ⟨S4096x32000, .f32⟩
  | .hbm, ⟨97, _⟩ => ⟨S4096x32000, .f32⟩
  | .hbm, ⟨98, _⟩ => ⟨S4096x32000, .f32⟩
  | .hbm, ⟨99, _⟩ => ⟨S4096x32000, .f32⟩
  | .hbm, ⟨100, _⟩ => ⟨S4096x32000, .f32⟩
  | .hbm, ⟨101, _⟩ => ⟨S4096x32000, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S4096x32000, .f32⟩
  | .hbm, ⟨107, _⟩ => ⟨S4096x32000, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_call0_cst_0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_cst_1 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_v8 : Ref sig .tc := ⟨.hbm, 29, rfl⟩
abbrev main_call1_cst : Ref sig .tc := ⟨.hbm, 30, rfl⟩
abbrev main_call1_v0 : Ref sig .tc := ⟨.hbm, 31, rfl⟩
abbrev main_call1_cst_0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_cst_1 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_v9 : Ref sig .tc := ⟨.hbm, 44, rfl⟩
abbrev main_c : Ref sig .tc := ⟨.hbm, 45, rfl⟩
abbrev main_v10 : Ref sig .tc := ⟨.hbm, 46, rfl⟩
abbrev main_v11 : Ref sig .tc := ⟨.hbm, 47, rfl⟩
abbrev main_c_1 : Ref sig .tc := ⟨.hbm, 48, rfl⟩
abbrev main_call2_v0 : Ref sig .tc := ⟨.hbm, 49, rfl⟩
abbrev main_call2_v1 : Ref sig .tc := ⟨.hbm, 50, rfl⟩
abbrev main_v12 : Ref sig .tc := ⟨.hbm, 51, rfl⟩
abbrev main_v13 : Ref sig .tc := ⟨.hbm, 52, rfl⟩
abbrev main_call3_c : Ref sig .tc := ⟨.hbm, 53, rfl⟩
abbrev main_call3_v0 : Ref sig .tc := ⟨.hbm, 54, rfl⟩
abbrev main_call3_v1 : Ref sig .tc := ⟨.hbm, 55, rfl⟩
abbrev main_call3_c_0 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_v5 : Ref sig .tc := ⟨.hbm, 60, rfl⟩
abbrev main_call3_c_1 : Ref sig .tc := ⟨.hbm, 61, rfl⟩
abbrev main_call3_c_2 : Ref sig .tc := ⟨.hbm, 62, rfl⟩
abbrev main_call3_v6 : Ref sig .tc := ⟨.hbm, 63, rfl⟩
abbrev main_call3_v7 : Ref sig .tc := ⟨.hbm, 64, rfl⟩
abbrev main_call3_v8 : Ref sig .tc := ⟨.hbm, 65, rfl⟩
abbrev main_call3_v9 : Ref sig .tc := ⟨.hbm, 66, rfl⟩
abbrev main_call3_v10 : Ref sig .tc := ⟨.hbm, 67, rfl⟩
abbrev main_call3_v11 : Ref sig .tc := ⟨.hbm, 68, rfl⟩
abbrev main_call3_c_3 : Ref sig .tc := ⟨.hbm, 69, rfl⟩
abbrev main_call3_v12 : Ref sig .tc := ⟨.hbm, 70, rfl⟩
abbrev main_call3_v13 : Ref sig .tc := ⟨.hbm, 71, rfl⟩
abbrev main_call3_cst : Ref sig .tc := ⟨.hbm, 72, rfl⟩
abbrev main_call3_v14 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_c_2 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_cst_4 : Ref sig .tc := ⟨.hbm, 82, rfl⟩
abbrev main_call4_v0 : Ref sig .tc := ⟨.hbm, 83, rfl⟩
abbrev main_call4_v1 : Ref sig .tc := ⟨.hbm, 84, rfl⟩
abbrev main_v20 : Ref sig .tc := ⟨.hbm, 85, rfl⟩
abbrev main_cst_5 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_cst_6 : Ref sig .tc := ⟨.hbm, 92, rfl⟩
abbrev main_v26 : Ref sig .tc := ⟨.hbm, 93, rfl⟩
abbrev main_v27 : Ref sig .tc := ⟨.hbm, 94, rfl⟩
abbrev main_cst_7 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_cst_8 : Ref sig .tc := ⟨.hbm, 102, rfl⟩
abbrev main_v34 : Ref sig .tc := ⟨.hbm, 103, rfl⟩
abbrev main_cst_9 : Ref sig .tc := ⟨.hbm, 104, rfl⟩
abbrev main_v35 : Ref sig .tc := ⟨.hbm, 105, rfl⟩
abbrev main_v36 : Ref sig .tc := ⟨.hbm, 106, rfl⟩
abbrev main_v37 : Ref sig .tc := ⟨.hbm, 107, rfl⟩
abbrev main_cst_10 : Ref sig .tc := ⟨.hbm, 108, rfl⟩
abbrev main_v38 : Ref sig .tc := ⟨.hbm, 109, rfl⟩
abbrev main_cst_11 : Ref sig .tc := ⟨.hbm, 110, rfl⟩
abbrev main_v39 : Ref sig .tc := ⟨.hbm, 111, rfl⟩
abbrev main_v40 : Ref sig .tc := ⟨.hbm, 112, rfl⟩
abbrev main_cst_12 : Ref sig .tc := ⟨.hbm, 113, rfl⟩
abbrev main_v41 : Ref sig .tc := ⟨.hbm, 114, rfl⟩
abbrev main_cst_13 : Ref sig .tc := ⟨.hbm, 115, rfl⟩
abbrev main_v42 : Ref sig .tc := ⟨.hbm, 116, rfl⟩
abbrev main_cst_14 : Ref sig .tc := ⟨.hbm, 117, rfl⟩
abbrev main_v43 : Ref sig .tc := ⟨.hbm, 118, rfl⟩
abbrev main_v44 : Ref sig .tc := ⟨.hbm, 119, rfl⟩

abbrev nD : Nat := 1
abbrev τ : Topo := Topo.v7x

variable {F : FTy → Type} [FloatOps F]

class Facts₀ : Prop where
  transposes_S32000x2048_S2048x32000_1_0 : S32000x2048.Transposes [1, 0] S2048x32000
  bcast_S_S4096x32000 : S_.BroadcastsInDim S4096x32000 (![] : Fin 0 → Fin S4096x32000.rank)
  transposes_S32000x4096_S4096x32000_1_0 : S32000x4096.Transposes [1, 0] S4096x32000
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  natLt_1_32 : 1 < 32
  reducesTo_S4096_S_d0 : S4096.ReducesTo [0] S_
  reducesTo_S4096x32000_S_d0_1 : S4096x32000.ReducesTo [0, 1] S_
  dot_S4096x2048_S2048x32000_S4096x32000_1_0_0_1_n_n_wf : DotDims.WF S4096x2048 S2048x32000 S4096x32000 [1] [0] [0] [1] [] []
  dot_S4096x4096_S4096x32000_S4096x32000_1_0_0_1_n_n_wf : DotDims.WF S4096x4096 S4096x32000 S4096x32000 [1] [0] [0] [1] [] []
  gather_S4096x32000_S4096x1x1_S4096x1_n_1_0_0_1_2_11_wf : GatherDims.WF S4096x32000 S4096x1x1 S4096x1 [] [1] [0] [1] [0] 2 ![1, 1]

variable [Facts₀]

def dot_S4096x2048_S2048x32000_S4096x32000_1_0_0_1_n_n : DotDims S4096x2048 S2048x32000 S4096x32000 where
  lhsContracting := [1]
  rhsContracting := [0]
  lhsNonContracting := [0]
  rhsNonContracting := [1]
  lhsBatch := []
  rhsBatch := []
  wf := dot_S4096x2048_S2048x32000_S4096x32000_1_0_0_1_n_n_wf
def dot_S4096x4096_S4096x32000_S4096x32000_1_0_0_1_n_n : DotDims S4096x4096 S4096x32000 S4096x32000 where
  lhsContracting := [1]
  rhsContracting := [0]
  lhsNonContracting := [0]
  rhsNonContracting := [1]
  lhsBatch := []
  rhsBatch := []
  wf := dot_S4096x4096_S4096x32000_S4096x32000_1_0_0_1_n_n_wf
def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

class Facts : Prop extends Facts₀ where

variable [Facts]
-- ==== Proof.KRun.lean ====
/-
  The idealized program's run with its result named: the loss buffer ends at what the fold of the host stretches
  and of the two regions' write-backs leaves in it, the argument arrays as launched.
-/
import proofs.«178291_j71159018160659_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized program from the memory m terminates without a fault; the result
    buffer then holds what the last stretch of host operations leaves in it (the fold of the host stretches and the two
    regions' write-backs from the launch memory), and the five argument arrays are as launched. -/
theorem run_result : θ_run defs (onTc (τ := τ) (main (F := F))) ⟨m, fun _ => 0, ρ⟩ (fun r => ∀ c : Dev nD,
      r.2.mem ((c.tc : Thread nD τ).loc main_v29) = W8 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v29 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.KernelIdeal.KRun

end
-- ==== Proof.HostTail.lean ====
/-
  The host operations that follow the second kernel, as one function of the arrays they read: the labels' chain
  (validity bit, the ignore value replaced by 0, a negative label wrapped, the in-range mask), the label's row of
  the student weights gathered and multiplied against the token's activations, the cross-entropy column weighted
  by the validity bit, its mean over the valid tokens, the mean of the divergence column, and their half-and-half sum.
-/
import proofs.«178291_j71159018160659_2_alg».proof.Proof.Gen.KernelIdeal.Frame
import Idealize.ShloMosaic.Lib.StableHlo.Run
import Idealize.ShloMosaic.PureOps.Ideal

set_option maxRecDepth 16384

noncomputable section

namespace Cert.KernelIdeal.HostTail

open Cert.KernelIdeal Cert.KernelIdeal.Gen
open Idealize.ShloMosaic Idealize.ShloMosaic.TcCoe Idealize.SL.Sem Idealize.ShloMosaic.StableHlo

/-- The validity bit of every token: its label is not the ignore value. -/
def validBit (tg : IVec S4096 32) : IVec S4096 1 :=
  cmpi .ne tg (broadcastInDim S4096 ![] bcast_S_S4096 (constantI S_ 32 4294967196#32))

/-- The labels with the ignore value replaced by 0. -/
def safeVec (tg : IVec S4096 32) : IVec S4096 32 :=
  select (validBit tg) tg (broadcastInDim S4096 ![] bcast_S_S4096 (id (constantI S_ 32 0#32)))

/-- The labels with a negative one wrapped by the vocabulary size. -/
def normVec (tg : IVec S4096 32) : IVec S4096 32 :=
  select (cmpi .slt (safeVec tg) (broadcastInDim S4096 ![] bcast_S_S4096 (constantI S_ 32 0#32)))
    (addi (safeVec tg) (broadcastInDim S4096 ![] bcast_S_S4096 (constantI S_ 32 32000#32))) (safeVec tg)

/-- The wrapped labels as a column of start indices. -/
def idxCol (tg : IVec S4096 32) : IVec S4096x1 32 := broadcastInDim S4096x1 ![0] bcast_S4096_S4096x1_0 (normVec tg)

/-- The in-range mask of every token: 0 ≤ index ≤ 31999. -/
def inRange (tg : IVec S4096 32) : IVec S4096 1 :=
  Host.reduce IntOp.andi
    (andi (cmpi .sge (idxCol tg) (broadcastInDim S4096x1 ![] bcast_S_S4096x1 (constantI S_ 32 0#32)))
      (cmpi .sle (idxCol tg) (broadcastInDim S4096x1 ![0, 1] bcast_S1x1_S4096x1_0_1
        (broadcastInDim S1x1 ![1] bcast_S1_S1x1_1 (constantI S1 32 31999#32)))))
    (constantI S_ 1 1#1) reducesTo_S4096x1_S4096_d1 h_S_

/-- Every token's label row of the weights (a filler word where the mask is off). -/
def rows (W : FVec Ideal S32000x2048 .f32) (tg : IVec S4096 32) : FVec Ideal S4096x2048 .f32 :=
  select (broadcastInDim S4096x2048 ![0] bcast_S4096_S4096x2048_0 (inRange tg))
    (Host.gather gather_S32000x2048_S4096x1_S4096x2048_1_0_n_n_0_1_12048 W (idxCol tg))
    (broadcastInDim S4096x2048 ![] bcast_S_S4096x2048 (constant (F := Ideal) S_ .f32 0x7FC00000#32))

/-- The validity bits as a column of zeros and ones. -/
def validCol (tg : IVec S4096 32) : FVec Ideal S4096x1 .f32 :=
  shapeCast S4096x1 (uitofp (F := Ideal) .f32 (validBit tg)) shapeCasts_S4096_S4096x1

/-- The loss from the activations X, the labels, the student weights W, the student log-sum-exp column and the
    divergence column. -/
def tail (X : FVec Ideal S4096x2048 .f32) (tg : IVec S4096 32) (W : FVec Ideal S32000x2048 .f32)
    (lsec rjc : FVec Ideal S4096x1 .f32) : FVec Ideal S_ .f32 :=
  addf
    (mulf (constant (F := Ideal) S_ .f32 0x3F000000#32)
      (Host.divf
        (Host.reduceAdd (F := Ideal)
          (mulf
            (subf lsec
              (broadcastInDim S4096x1 ![0] bcast_S4096_S4096x1_0
                (Host.reduceAdd (F := Ideal) (mulf X (rows W tg)) (constant (F := Ideal) S_ .f32 0x00000000#32)
                  reducesTo_S4096x2048_S4096_d1 h_S_)))
            (validCol tg))
          (constant (F := Ideal) S_ .f32 0x00000000#32) reducesTo_S4096x1_S_d0_1 h_S_)
        (maximumf
          (Host.reduceAdd (F := Ideal) (validCol tg) (constant (F := Ideal) S_ .f32 0x00000000#32) reducesTo_S4096x1_S_d0_1 h_S_)
          (constant (F := Ideal) S_ .f32 0x3F800000#32))))
    (mulf (constant (F := Ideal) S_ .f32 0x3F000000#32)
      (Host.divf
        (Host.reduceAdd (F := Ideal) rjc (constant (F := Ideal) S_ .f32 0x00000000#32) reducesTo_S4096x1_S_d0_1 h_S_)
        (constant (F := Ideal) S_ .f32 0x45800000#32)))

variable (m : (ℓ : Loc nD τ sig) → Buf (Elt Ideal) ℓ) (ρ : Dev nD → PrngReg)

set_option maxHeartbeats 4000000 in
/-- What the last host stretches leave in the result buffer, from the buffers as the second region leaves them. -/
theorem result_eq (c : Dev nD) :
    W8 m ρ c (Proc.devRef .tc main_v29)
      = tail (W4 m ρ c (Proc.devRef .tc main_arg0)) (W4 m ρ c (Proc.devRef .tc main_arg2)) (W4 m ρ c (Proc.devRef .tc main_arg3))
          (W4 m ρ c (Proc.devRef .tc main_v6)) (W4 m ρ c (Proc.devRef .tc main_v9)) := by
  show StableHlo.after hostOps2_3 (StableHlo.after hostOps2_2 (StableHlo.after hostOps2_1 (StableHlo.after hostOps2 (W4 m ρ c))))
    (Proc.devRef .tc main_v29) = _
  generalize W4 m ρ c = V
  unfold tail rows validCol inRange idxCol normVec safeVec validBit
  after_results_simp
  rfl

end Cert.KernelIdeal.HostTail

end
-- ==== Proof.Spec.lean ====
/-
  The distillation loss as mathematics, with no program in sight.  Student and teacher activations are
  multiplied against their vocabulary matrices (32000 rows each); every one of the 4096 token rows gets a
  log-sum-exp over the vocabulary for each side, a generalized Jensen–Shannon term summed over the vocabulary,
  and a cross-entropy term at its label.  Everything is an extended real.  The vocabulary axis is also cut
  into 50 consecutive stretches of 640 entries, and the quantities "over the first k stretches" are named,
  because a streaming evaluation passes through exactly those.
-/
import Mathlib.Tactic
import Idealize.ShloMosaic.PureOps.Ideal
import Idealize.ShloMosaic.Lib.ValueIdx

noncomputable section

namespace Cert.JSD

open Idealize.ShloMosaic Idealize.ShloMosaic.ValueIdx

/-- Row r of the activations against row v of the weights: the inner product over the hidden axis. -/
def logit {K : ℕ} (x : (⟨2, ![4096, K]⟩ : Shape).Idx → EReal) (w : (⟨2, ![32000, K]⟩ : Shape).Idx → EReal)
    (r : Fin 4096) (v : Fin 32000) : EReal := ∑ k : Fin K, x (ix2 r k) * w (ix2 v k)

/-- The vocabulary entries of the first k stretches of 640. -/
def pre (k : ℕ) : Finset (Fin 32000) := Finset.univ.filter fun v => v.val < 640 * k

/-- The largest logit of row r among the first k stretches (the bottom element when k = 0). -/
def pMax (l : Fin 4096 → Fin 32000 → EReal) (r : Fin 4096) (k : ℕ) : EReal := (pre k).sup (l r)

/-- The sum of exponentials of row r over the first k stretches, shifted by the largest logit among them. -/
def pSumExp (l : Fin 4096 → Fin 32000 → EReal) (r : Fin 4096) (k : ℕ) : EReal :=
  ∑ v ∈ pre k, Ideal.exp (l r v - pMax l r k)

/-- The largest logit of a row. -/
def rowMax (l : Fin 4096 → Fin 32000 → EReal) (r : Fin 4096) : EReal := Finset.univ.sup (l r)

/-- The row's sum of exponentials, shifted by the row's largest logit. -/
def rowSumExp (l : Fin 4096 → Fin 32000 → EReal) (r : Fin 4096) : EReal :=
  ∑ v, Ideal.exp (l r v - rowMax l r)

/-- The row's log-sum-exp: the largest logit plus the logarithm of the shifted sum. -/
def lse (l : Fin 4096 → Fin 32000 → EReal) (r : Fin 4096) : EReal := rowMax l r + Ideal.log (rowSumExp l r)

/-- The literal one half. -/
abbrev half : EReal := Ideal.ofBits .f32 0x3F000000#32

/-- One vocabulary entry's share of a row's divergence, from the student's log-probability a and the
    teacher's b: with p = e^b, q = e^a and m = p/2 + q/2, it is (p/2)(b - log m) + (q/2)(a - log m). -/
def contrib (a b : EReal) : EReal :=
  (half * Ideal.exp b) * (b - Ideal.log (half * Ideal.exp b + half * Ideal.exp a))
    + (half * Ideal.exp a) * (a - Ideal.log (half * Ideal.exp b + half * Ideal.exp a))

/-- A row's divergence over the first k stretches, from per-row shifts cs (student) and ct (teacher). -/
def pJsd (ls lt : Fin 4096 → Fin 32000 → EReal) (cs ct : Fin 4096 → EReal) (r : Fin 4096) (k : ℕ) : EReal :=
  ∑ v ∈ pre k, contrib (ls r v - cs r) (lt r v - ct r)

/-- A row's divergence over the whole vocabulary. -/
def rowJsd (ls lt : Fin 4096 → Fin 32000 → EReal) (cs ct : Fin 4096 → EReal) (r : Fin 4096) : EReal :=
  ∑ v, contrib (ls r v - cs r) (lt r v - ct r)

/-- The token row that row p of row block n / 50 is (grid position n, 50 vocabulary stretches per row block). -/
def rowOf (n : ℕ) (h : n < 200) (p : Fin 1024) : Fin 4096 := ⟨1024 * (n / 50) + p.val, by omega⟩

/-- The vocabulary entry that column q of stretch n % 50 is. -/
def colOf (n : ℕ) (q : Fin 640) : Fin 32000 := ⟨640 * (n % 50) + q.val, by have := Nat.mod_lt n (show 50 > 0 by omega); omega⟩

theorem pre_zero : pre 0 = ∅ := by
  ext v; simp [pre]

theorem pre_fifty : pre 50 = Finset.univ := by
  ext v; simp [pre]

theorem pMax_fifty (l : Fin 4096 → Fin 32000 → EReal) (r : Fin 4096) : pMax l r 50 = rowMax l r := by
  unfold pMax rowMax; rw [pre_fifty]

theorem pSumExp_fifty (l : Fin 4096 → Fin 32000 → EReal) (r : Fin 4096) : pSumExp l r 50 = rowSumExp l r := by
  unfold pSumExp rowSumExp; rw [pre_fifty, pMax_fifty]

theorem pJsd_fifty (ls lt : Fin 4096 → Fin 32000 → EReal) (cs ct : Fin 4096 → EReal) (r : Fin 4096) :
    pJsd ls lt cs ct r 50 = rowJsd ls lt cs ct r := by
  unfold pJsd rowJsd; rw [pre_fifty]

/-! ## The labels -/

/-- A token takes part in the cross-entropy unless its label is the ignore value -100. -/
def valid (tg : (⟨1, ![4096]⟩ : Shape).Idx → BitVec 32) (r : Fin 4096) : Prop := tg (ix1 r) ≠ 0xFFFFFF9C#32

instance (tg : (⟨1, ![4096]⟩ : Shape).Idx → BitVec 32) (r : Fin 4096) : Decidable (valid tg r) := by
  unfold valid; infer_instance

/-- The label with the ignore value replaced by 0. -/
def safeLabel (tg : (⟨1, ![4096]⟩ : Shape).Idx → BitVec 32) (r : Fin 4096) : BitVec 32 :=
  if valid tg r then tg (ix1 r) else 0#32

/-- A negative label counts from the end of the vocabulary. -/
def normLabel (tg : (⟨1, ![4096]⟩ : Shape).Idx → BitVec 32) (r : Fin 4096) : BitVec 32 :=
  if (safeLabel tg r).slt 0#32 then safeLabel tg r + 32000#32 else safeLabel tg r

/-- The vocabulary entry a token's label names. -/
def label (tg : (⟨1, ![4096]⟩ : Shape).Idx → BitVec 32) (r : Fin 4096) : Fin 32000 :=
  ⟨min (normLabel tg r).toInt.toNat 31999, by omega⟩

/-- The number of tokens taking part, as an extended real. -/
def count (tg : (⟨1, ![4096]⟩ : Shape).Idx → BitVec 32) : EReal := ∑ r : Fin 4096, if valid tg r then (1 : EReal) else 0

/-- The literal 4096. -/
abbrev w4096 : EReal := Ideal.ofBits .f32 0x45800000#32
/-- The literal 1. -/
abbrev wOne : EReal := Ideal.ofBits .f32 0x3F800000#32

/-! ## The loss, in the streaming arrangement -/

/-- Half the mean cross-entropy plus half the mean divergence, every row's log-probabilities formed by
    subtracting the row's log-sum-exp, the cross-entropy of a row as log-sum-exp minus the label's logit. -/
def streamLoss (ls lt : Fin 4096 → Fin 32000 → EReal) (tg : (⟨1, ![4096]⟩ : Shape).Idx → BitVec 32) : EReal :=
  half * Ideal.div (∑ r : Fin 4096, (lse ls r - ls r (label tg r)) * (if valid tg r then (1 : EReal) else 0)) (max (count tg) wOne)
    + half * Ideal.div (∑ r : Fin 4096, rowJsd ls lt (lse ls) (lse lt) r) w4096

/-! ## The loss, in the whole-array arrangement -/

/-- The log-softmax of a row: the logit less the row's largest, less the logarithm of the shifted sum. -/
def logSoftmax (l : Fin 4096 → Fin 32000 → EReal) (r : Fin 4096) (v : Fin 32000) : EReal :=
  (l r v - rowMax l r) - Ideal.log (rowSumExp l r)

/-- The logarithm of the even mixture of the two distributions at one entry. -/
def logMix (ls lt : Fin 4096 → Fin 32000 → EReal) (r : Fin 4096) (v : Fin 32000) : EReal :=
  Ideal.log (half * Ideal.exp (logSoftmax lt r v) + half * Ideal.exp (logSoftmax ls r v))

/-- Half the mean cross-entropy plus half the mean divergence, the two Kullback–Leibler sums taken over
    all rows and entries at once and halved afterwards, the cross-entropy of a row as the negated
    log-softmax at the label. -/
def wholeLoss (ls lt : Fin 4096 → Fin 32000 → EReal) (tg : (⟨1, ![4096]⟩ : Shape).Idx → BitVec 32) : EReal :=
  half * Ideal.div (∑ r : Fin 4096, if valid tg r then -(logSoftmax ls r (label tg r)) else 0) (max (count tg) wOne)
    + half * Ideal.div
        (half * (∑ r : Fin 4096, ∑ v : Fin 32000, Ideal.exp (logSoftmax lt r v) * (logSoftmax lt r v - logMix ls lt r v))
          + half * (∑ r : Fin 4096, ∑ v : Fin 32000, Ideal.exp (logSoftmax ls r v) * (logSoftmax ls r v - logMix ls lt r v)))
        w4096

end Cert.JSD

end
-- ==== Proof.LibLayout.lean ====
/-
  Column forms of three layout operations and a lane sum, read at an index written by coordinates. They complete
  the row forms the library already has, for bodies that keep a reduced axis as a unit axis
  (`sum(…, keepdims=True)`): a column [a,1] re-read as a row [1,a], a vector [a] re-read as a column [a,1], a
  column [a,1] repeated along a new second axis [a,b], and the sum along the second axis of an [a,b] array.
-/
import Idealize.ShloMosaic.Lib.Pipeline.Value
import Idealize.ShloMosaic.Lib.ValueIdx
import Idealize.ShloMosaic.PureOps.Ideal.Laws

namespace Cert.LibLayout

open Idealize.ShloMosaic Idealize.ShloMosaic.ValueIdx

variable {α : Type}

/-- An `[a, 1]` column cast to a `[1, a]` row reads, at `(u, i)`, the column at `(i, 0)`: both have row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals the sum of an `[a, b]` array along its second axis, read at row `p`, is the sum over the
    `b` entries of that row. -/
theorem lane_sum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (p : Fin a) :
    multiReduction .add [1] ⟨1, ![a]⟩ src acc h hφ hacc (ix1 p) = ∑ l : Fin b, src (ix2 p l) := by
  refine (Ideal.multiReduction_add_single src acc h hφ hacc (ix1 p)).trans ?_
  show ∑ l : Fin b, src (h.lift (ix1 p) l) = _
  refine Finset.sum_congr rfl fun l _ => congrArg src ?_
  funext d
  apply Fin.ext
  match d with
  | ⟨0, _⟩ => rfl
  | ⟨1, _⟩ => rfl

end Cert.LibLayout
-- ==== Proof.LibLossBits.lean ====
/-
  Comparison bits as 0/1 labels on the extended reals: a comparison's truth bit, converted to a
  number (directly as an unsigned integer, or widened to 32 bits and read as a signed one), is the
  label that is 1 when the comparison holds and 0 otherwise; a selection on the bit is the
  conditional.
-/
import Mathlib.Tactic
import Idealize.ShloMosaic.PureOps.Ideal

noncomputable section

namespace Cert.LossBits

open Idealize.ShloMosaic

/-! ### Comparison bits as 0/1 labels -/

section Bits

/-- The "greater than" comparison bit is the truth value of the strict inequality. -/
theorem cmpf_ogt_eq (x y : EReal) :
    FloatOps.cmpf (F := Ideal) (φ := .f32) .ogt x y = BitVec.ofBool (decide (y < x)) := rfl

/-- The "equal" comparison bit is the truth value of the equality. -/
theorem cmpf_oeq_eq (x y : EReal) :
    FloatOps.cmpf (F := Ideal) (φ := .f32) .oeq x y = BitVec.ofBool (decide (x = y)) := rfl

/-- The "greater than" comparison bit is set exactly when the strict inequality holds. -/
theorem cmpf_ogt_eq_one_iff (x y : EReal) :
    FloatOps.cmpf (F := Ideal) (φ := .f32) .ogt x y = 1#1 ↔ y < x := by
  rw [cmpf_ogt_eq]
  by_cases h : y < x
  · simp [h]
  · simp [h]

/-- The "equal" comparison bit is set exactly when the equality holds. -/
theorem cmpf_oeq_eq_one_iff (x y : EReal) :
    FloatOps.cmpf (F := Ideal) (φ := .f32) .oeq x y = 1#1 ↔ x = y := by
  rw [cmpf_oeq_eq]
  by_cases h : x = y
  · simp [h]
  · simp [h]

/-- A truth bit widened to 32 bits and read as a signed integer is the 0/1 label. -/
theorem sitofp_setWidth_ofBool (c : Prop) [Decidable c] :
    (FloatOps.sitofp (F := Ideal) .f32 ((BitVec.ofBool (decide c)).setWidth 32) : EReal)
      = if c then (1 : EReal) else 0 := by
  show ((((BitVec.ofBool (decide c)).setWidth 32).toInt : ℝ) : EReal) = _
  by_cases h : c
  · simp [h]
  · simp [h]

/-- A truth bit read as an unsigned integer is the 0/1 label. -/
theorem uitofp_ofBool (c : Prop) [Decidable c] :
    (FloatOps.uitofp (F := Ideal) .f32 (BitVec.ofBool (decide c)) : EReal)
      = if c then (1 : EReal) else 0 := by
  show (((BitVec.ofBool (decide c)).toNat : ℝ) : EReal) = _
  by_cases h : c
  · simp [h]
  · simp [h]

/-- The kernel's label of a strict inequality: compare, widen, convert. -/
theorem sitofp_extui_cmpf_ogt (x y : EReal) :
    (FloatOps.sitofp (F := Ideal) .f32
        ((FloatOps.cmpf (F := Ideal) (φ := .f32) .ogt x y).setWidth 32) : EReal)
      = if y < x then (1 : EReal) else 0 := by
  rw [cmpf_ogt_eq]; exact sitofp_setWidth_ofBool (y < x)

/-- The reference's label of a strict inequality: compare, convert. -/
theorem uitofp_cmpf_ogt (x y : EReal) :
    (FloatOps.uitofp (F := Ideal) .f32 (FloatOps.cmpf (F := Ideal) (φ := .f32) .ogt x y) : EReal)
      = if y < x then (1 : EReal) else 0 := by
  rw [cmpf_ogt_eq]; exact uitofp_ofBool (y < x)

/-- The reference's label of an equality: compare, convert. -/
theorem uitofp_cmpf_oeq (x y : EReal) :
    (FloatOps.uitofp (F := Ideal) .f32 (FloatOps.cmpf (F := Ideal) (φ := .f32) .oeq x y) : EReal)
      = if x = y then (1 : EReal) else 0 := by
  rw [cmpf_oeq_eq]; exact uitofp_ofBool (x = y)

/-- A selection on a truth bit is the conditional. -/
theorem select_ofBool {α : Type} (c : Prop) [Decidable c] (a b : α) :
    Scalar.select (BitVec.ofBool (decide c)) a b = if c then a else b := by
  unfold Scalar.select
  by_cases h : c
  · simp [h]
  · simp [h]

/-- A selection on a "greater than" comparison bit is the conditional on the inequality. -/
theorem select_cmpf_ogt {α : Type} (x y : EReal) (a b : α) :
    Scalar.select (FloatOps.cmpf (F := Ideal) (φ := .f32) .ogt x y) a b = if y < x then a else b := by
  rw [cmpf_ogt_eq]; exact select_ofBool (y < x) a b

end Bits

end Cert.LossBits

end
-- ==== Proof.TailRead.lean ====
/-
  Reading the host operations at coordinates, on extended reals: a column summed over all of its entries, a
  matrix summed along its rows, a vector spread into a column, the validity bits as zeros and ones, and the
  gather of one weight row per token.
-/
import proofs.«178291_j71159018160659_2_alg».proof.Proof.HostTail
import proofs.«178291_j71159018160659_2_alg».proof.Proof.Spec
import proofs.«178291_j71159018160659_2_alg».proof.Proof.LibLayout
import proofs.«178291_j71159018160659_2_alg».proof.Proof.LibLossBits
import Idealize.ShloMosaic.Lib.ValueIdx
import Idealize.ShloMosaic.Lib.Pipeline.Value
import Idealize.ShloMosaic.Lib.ReduceAll
import Idealize.ShloMosaic.PureOps.Ideal.Laws

set_option maxRecDepth 16384

noncomputable section

namespace Cert.KernelIdeal.HostTail

open Cert.KernelIdeal Cert.KernelIdeal.Gen
open Idealize.ShloMosaic Idealize.ShloMosaic.ValueIdx Cert.JSD

/-- A column summed over all its entries, from the zero word: the sum over the rows. -/
theorem colSum (x : FVec Ideal S4096x1 .f32) (j : S_.Idx) :
    Host.reduceAdd (F := Ideal) x (constant (F := Ideal) S_ .f32 0x00000000#32) reducesTo_S4096x1_S_d0_1 h_S_ j
      = ∑ r : Fin 4096, x (ix2 r (0 : Fin 1)) := by
  simp only [Host.reduceAdd, Ideal.hostReduceAdd_def]
  rw [Ideal.hostReduceAdd_total reducesTo_S4096x1_S_d0_1 (fun b => b.elim0) x _ j]
  rw [constant_apply, Ideal.ofBits_zero_f32, zero_add, sum_idx2]
  refine Finset.sum_congr rfl fun r _ => ?_
  rw [Fin.sum_univ_one]

/-- A matrix summed along its rows, from the zero word. -/
theorem rowSum (y : FVec Ideal S4096x2048 .f32) (r : Fin 4096) :
    Host.reduceAdd (F := Ideal) y (constant (F := Ideal) S_ .f32 0x00000000#32) reducesTo_S4096x2048_S4096_d1 h_S_ (ix1 r)
      = ∑ k : Fin 2048, y (ix2 r k) := by
  simp only [Host.reduceAdd, Ideal.hostReduceAdd_def]
  rw [Ideal.hostReduceAdd_single reducesTo_S4096x2048_S4096_d1 (by decide : S4096x2048.Reduces [1] S4096) y _ (ix1 r)]
  rw [constant_apply, Ideal.ofBits_zero_f32, zero_add]
  refine Finset.sum_congr rfl fun k _ => congrArg y ?_
  funext d
  apply Fin.ext
  match d with
  | ⟨0, _⟩ => rfl
  | ⟨1, _⟩ => rfl

/-- A vector spread into a column reads the vector at the row. -/
theorem col_apply {α : Type} (v : S4096.Idx → α) (r : Fin 4096) (q : Fin 1) :
    broadcastInDim S4096x1 ![0] bcast_S4096_S4096x1_0 v (ix2 r q) = v (ix1 r) := by
  refine broadcastInDim_apply _ _ v (ix2 r q) (ix1 r) fun a => ?_
  match a with
  | ⟨0, _⟩ => rfl

/-- A vector spread along the rows of a matrix reads the vector at the row. -/
theorem rowBcast_apply {α : Type} (v : S4096.Idx → α) (r : Fin 4096) (k : Fin 2048) :
    broadcastInDim S4096x2048 ![0] bcast_S4096_S4096x2048_0 v (ix2 r k) = v (ix1 r) := by
  refine broadcastInDim_apply _ _ v (ix2 r k) (ix1 r) fun a => ?_
  match a with
  | ⟨0, _⟩ => rfl

/-- The validity bit of a token. -/
theorem validBit_apply (tg : IVec S4096 32) (r : Fin 4096) :
    validBit tg (ix1 r) = BitVec.ofBool (decide (valid tg r)) := by
  unfold validBit valid
  show IntOp.cmpi .ne (tg (ix1 r)) 4294967196#32 = _
  by_cases h : tg (ix1 r) = 4294967196#32
  · simp [IntOp.cmpi, h]
  · have hb : (tg (ix1 r) != 4294967196#32) = true := bne_iff_ne.mpr h
    simp [IntOp.cmpi, h, hb]

/-- The validity column holds one at a valid token and zero at an ignored one. -/
theorem validCol_apply (tg : IVec S4096 32) (r : Fin 4096) (q : Fin 1) :
    validCol tg (ix2 r q) = if valid tg r then (1 : EReal) else 0 := by
  unfold validCol
  rw [Cert.LibLayout.shapeCast_a_a1_apply]
  show FloatOps.uitofp (F := Ideal) .f32 (validBit tg (ix1 r)) = _
  rw [validBit_apply]
  exact Cert.LossBits.uitofp_ofBool (valid tg r)

end Cert.KernelIdeal.HostTail

end
-- ==== Proof.TailGather.lean ====
/-
  The gather of one weight row per token read at coordinates, and the in-range mask of the wrapped labels.
-/
import proofs.«178291_j71159018160659_2_alg».proof.Proof.HostTail
import proofs.«178291_j71159018160659_2_alg».proof.Proof.Spec
import Idealize.ShloMosaic.Lib.ValueIdx
import Idealize.ShloMosaic.Lib.Pipeline.Value
import Idealize.ShloMosaic.Lib.ReduceAll
import Idealize.ShloMosaic.PureOps.Ideal.Laws

set_option maxRecDepth 16384

noncomputable section

namespace Cert.KernelIdeal.HostTail

open Cert.KernelIdeal Cert.KernelIdeal.Gen
open Idealize.ShloMosaic Idealize.ShloMosaic.ValueIdx Cert.JSD

local notation "GD" => gather_S32000x2048_S4096x1_S4096x2048_1_0_n_n_0_1_12048

/-- Row r of the gathered matrix is the weights' row at token r's start index, read as a signed integer and
    clamped into the vocabulary; the column is kept. -/
theorem gather_row {α : Type} (W : S32000x2048.Idx → α) (idx : IVec S4096x1 32) (r : Fin 4096) (k : Fin 2048) :
    Host.gather gather_S32000x2048_S4096x1_S4096x2048_1_0_n_n_0_1_12048 W idx (ix2 r k)
      = W (ix2 ⟨min (idx (ix2 r (0 : Fin 1))).toInt.toNat 31999, by omega⟩ k) := by
  unfold Host.gather
  refine congrArg W ?_
  funext a
  apply Fin.ext
  match a with
  | ⟨0, _⟩ =>
    show GatherDims.start GD (ix2 r k) idx 0 + GatherDims.batchCoord GD (ix2 r k) 0 + GatherDims.offCoord GD (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap GD from List.mem_singleton.mpr rfl)]
    have hsi : GatherDims.siIdx GD (ix2 r k) ⟨List.idxOf (0 : Fin 2) (GatherDims.startIndexMap GD),
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show GatherDims.start GD (ix2 r k) idx 1 + GatherDims.batchCoord GD (ix2 r k) 1 + GatherDims.offCoord GD (ix2 r k) 1 = k.val
    rw [GatherDims.batchCoord_eq_zero _ _ _ List.not_mem_nil]
    unfold GatherDims.start
    rw [dif_neg (show ¬ (1 : Fin 2) ∈ GatherDims.startIndexMap GD from by decide)]
    simp only [Nat.add_zero, Nat.zero_add]
    rfl

end Cert.KernelIdeal.HostTail

end
-- ==== Proof.RefLib.lean ====
/-
  General facts used to read a plain array program's reductions, gather and literal words as mathematics:
  a reduction of a two-axis array along its second axis is a fold over that axis's entries; a reduction along
  a trailing axis of extent one applies the operation once; a row-wise take (operand [R, N], one start index per
  row, batched over the rows) reads row r at the start index of row r, read signed and clamped into the row;
  the sum of 32-bit words is the initial word plus the sum of the words; a sum of 0/1 words does not wrap
  while there are fewer than 2^31 of them.
-/
import Mathlib.Tactic
import Mathlib.Data.BitVec
import Idealize.ShloMosaic.PureOps.Ideal.Laws
import Idealize.ShloMosaic.PureOps.Reduce
import Idealize.ShloMosaic.Lib.ValueIdx
import Idealize.ShloMosaic.Lib.Affine

noncomputable section

open scoped BigOperators

namespace Cert.ReferenceIdeal.RefValue

open Idealize.ShloMosaic Idealize.ShloMosaic.ValueIdx

/-! ### Literal words -/

/-- The word of 1.0 denotes one. -/
theorem ofBits_one_f32 : Ideal.ofBits .f32 0x3F800000#32 = 1 := by
  rw [show (1 : EReal) = ((1 : ℝ) : EReal) by norm_cast]
  simp [Ideal.ofBits, Ideal.ieee, -EReal.coe_mul]; norm_num

/-- The word of negative infinity denotes the bottom element. -/
theorem ofBits_neg_inf_f32 : Ideal.ofBits .f32 0xFF800000#32 = ⊥ := by
  simp [Ideal.ofBits, Ideal.ieee]

/-- Dividing by one changes nothing. -/
theorem div_one (x : EReal) : Ideal.div x 1 = x := by
  rw [show (1 : EReal) = ((1 : ℝ) : EReal) by norm_cast, Ideal.div_coe one_ne_zero, one_div, inv_one,
    EReal.coe_one, mul_one]

/-- A fold of the maximum from the bottom element is the supremum. -/
theorem fold_max_bot {ι : Type*} (s : Finset ι) (f : ι → EReal) : s.fold max ⊥ f = s.sup f := rfl

/-! ### Sums over a one-axis index set -/

/-- A rank-1 index set is its coordinate range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-! ### Reductions along one axis -/

/-- A reduction of an [n0, n1] array along its second axis, at row r: the fold over the row's entries. -/
theorem reduce_row {α : Type} {n0 n1 : ℕ} {u : Shape} (f : α → α → α) [Std.Commutative f] [Std.Associative f]
    (y : (⟨2, ![n0, n1]⟩ : Shape).Idx → α) (c : u.Idx → α)
    (h' : (⟨2, ![n0, n1]⟩ : Shape).ReducesTo [1] ⟨1, ![n0]⟩) (h : (⟨2, ![n0, n1]⟩ : Shape).Reduces [1] ⟨1, ![n0]⟩)
    (hu : 0 < u.numel) (r : Fin n0) :
    Host.reduce f y c h' hu (ix1 r)
      = (Finset.univ : Finset (Fin n1)).fold f (c (Shape.Idx.first hu)) (fun v => y (ix2 r v)) := by
  rw [Host.reduce_eq_fold_single f y c h' h hu]
  refine congrArg (fun g => (Finset.univ : Finset (Fin n1)).fold f (c (Shape.Idx.first hu)) g) (funext fun v => ?_)
  refine congrArg y (funext fun a => Fin.ext ?_)
  match a with
  | ⟨0, _⟩ => rfl
  | ⟨1, _⟩ => rfl

/-- The row maximum from the bottom element is the supremum of the row. -/
theorem reduce_row_max {n0 n1 : ℕ} {u : Shape} (y : (⟨2, ![n0, n1]⟩ : Shape).Idx → EReal) (c : u.Idx → EReal)
    (h' : (⟨2, ![n0, n1]⟩ : Shape).ReducesTo [1] ⟨1, ![n0]⟩) (h : (⟨2, ![n0, n1]⟩ : Shape).Reduces [1] ⟨1, ![n0]⟩)
    (hu : 0 < u.numel) (hc : c (Shape.Idx.first hu) = ⊥) (r : Fin n0) :
    Host.reduce (FloatOps.maximumf (F := Ideal) (φ := .f32)) y c h' hu (ix1 r)
      = (Finset.univ : Finset (Fin n1)).sup (fun v => y (ix2 r v)) := by
  rw [reduce_row (FloatOps.maximumf (F := Ideal) (φ := .f32)) y c h' h hu r, hc]
  rfl

/-- A reduction of an [n0, 1, 1] array along its last axis applies the operation once, to the one entry and
    the initial value. -/
theorem reduce_unit_last {α : Type} {n0 : ℕ} {u : Shape} (f : α → α → α) [Std.Commutative f] [Std.Associative f]
    (p : (⟨3, ![n0, 1, 1]⟩ : Shape).Idx → α) (c : u.Idx → α)
    (h' : (⟨3, ![n0, 1, 1]⟩ : Shape).ReducesTo [2] ⟨2, ![n0, 1]⟩) (h : (⟨3, ![n0, 1, 1]⟩ : Shape).Reduces [2] ⟨2, ![n0, 1]⟩)
    (hu : 0 < u.numel) (r : Fin n0) :
    Host.reduce f p c h' hu (ix2 r (0 : Fin 1)) = f (p (ix3 r (0 : Fin 1) (0 : Fin 1))) (c (Shape.Idx.first hu)) := by
  rw [Host.reduce_eq_fold_single f p c h' h hu]
  refine (show (Finset.univ : Finset (Fin 1)).fold f (c (Shape.Idx.first hu)) (p ∘ h.lift (ix2 r (0 : Fin 1)))
      = f ((p ∘ h.lift (ix2 r (0 : Fin 1))) (0 : Fin 1)) (c (Shape.Idx.first hu)) from Finset.fold_singleton).trans ?_
  refine congrArg (fun z => f (p z) (c (Shape.Idx.first hu))) (funext fun a => Fin.ext ?_)
  match a with
  | ⟨0, _⟩ => rfl
  | ⟨1, _⟩ => rfl
  | ⟨2, _⟩ => rfl

/-- A fold of the 32-bit addition is the initial word plus the sum. -/
theorem fold_addi {ι : Type*} (s : Finset ι) (init : BitVec 32) (g : ι → BitVec 32) :
    s.fold IntOp.addi init g = init + ∑ k ∈ s, g k := by
  induction s using Finset.cons_induction with
  | empty => rw [Finset.fold_empty, Finset.sum_empty, add_zero]
  | cons a S ha ih =>
    rw [Finset.fold_cons, Finset.sum_cons, ih]
    show g a + (init + _) = _
    rw [add_left_comm]

/-- The integer sum of an [n] array of 32-bit words into a scalar: the initial word plus the sum of the words. -/
theorem reduce_addi_all {n : ℕ} {u : Shape} (b : (⟨1, ![n]⟩ : Shape).Idx → BitVec 32) (c : u.Idx → BitVec 32)
    (h' : (⟨1, ![n]⟩ : Shape).ReducesTo [0] ⟨0, ![]⟩) (hu : 0 < u.numel) (j : (⟨0, ![]⟩ : Shape).Idx) :
    Host.reduce IntOp.addi b c h' hu j = c (Shape.Idx.first hu) + ∑ k : Fin n, b (ix1 k) := by
  rw [Host.reduce_eq_fold IntOp.addi b c h' hu j]
  have hf : (Finset.univ.filter fun i => h'.drop i = j) = Finset.univ :=
    Finset.filter_true_of_mem fun i _ => funext fun a => a.elim0
  rw [hf, fold_addi, sum_idx1]

/-! ### A sum of 0/1 words does not wrap -/

/-- The 32-bit sum of the truth bits of a family of fewer than 2^31 conditions, read signed, is the number of
    conditions that hold. -/
theorem toInt_sum_bits {ι : Type*} (s : Finset ι) (p : ι → Prop) [DecidablePred p] (hs : s.card < 2 ^ 31) :
    (∑ k ∈ s, (BitVec.ofBool (decide (p k))).setWidth 32).toInt = ((s.filter p).card : ℤ) := by
  have e : ∀ k, (BitVec.ofBool (decide (p k))).setWidth 32 = ((if p k then 1 else 0 : ℕ) : BitVec 32) := by
    intro k; by_cases hk : p k <;> simp [hk]
  simp only [e]
  rw [← Nat.cast_sum, Finset.sum_boole, Nat.cast_id, BitVec.natCast_eq_ofNat]
  have hc : (s.filter p).card ≤ s.card := Finset.card_filter_le s p
  have hn : (BitVec.ofNat 32 (s.filter p).card).toNat = (s.filter p).card := by
    rw [BitVec.toNat_ofNat]; exact Nat.mod_eq_of_lt (by omega)
  rw [BitVec.toInt_eq_toNat_cond, hn, if_pos (by omega)]

/-! ### A row-wise take -/

/-- The dimension numbers of a take along the second axis, batched over the rows: operand [R, N], start
    indices [R, 1, 1] (one per row), result [R, 1]. -/
abbrev rowTakeDims (R N : ℕ)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- The take read at row r: row r of the operand at row r's start index, read signed and clamped into the row. -/
theorem gather_rowTake_apply {α : Type} {R N w : ℕ} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) :
    Host.gather (rowTakeDims R N wf) x idx (ix2 r (0 : Fin 1))
      = x (ix2 r ⟨min (idx (ix3 r (0 : Fin 1) (0 : Fin 1))).toInt.toNat (N - 1), by omega⟩) := by
  unfold Host.gather
  refine congrArg x (funext fun a => Fin.ext ?_)
  match a with
  | ⟨0, _⟩ =>
    show (rowTakeDims R N wf).start (ix2 r (0 : Fin 1)) idx 0 + (rowTakeDims R N wf).batchCoord (ix2 r (0 : Fin 1)) 0
        + (rowTakeDims R N wf).offCoord (ix2 r (0 : Fin 1)) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (rowTakeDims R N wf).operandBatchingDims from List.mem_singleton.mpr rfl)]
    rfl
  | ⟨1, _⟩ =>
    show (rowTakeDims R N wf).start (ix2 r (0 : Fin 1)) idx 1 + (rowTakeDims R N wf).batchCoord (ix2 r (0 : Fin 1)) 1
        + (rowTakeDims R N wf).offCoord (ix2 r (0 : Fin 1)) 1 = min (idx (ix3 r (0 : Fin 1) (0 : Fin 1))).toInt.toNat (N - 1)
    rw [GatherDims.batchCoord_eq_zero _ _ _ (fun h => Nat.one_ne_zero (congrArg Fin.val (List.mem_singleton.mp h))),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowTakeDims R N wf).startIndexMap from List.mem_singleton.mpr rfl)]
    have hsi : (rowTakeDims R N wf).siIdx (ix2 r (0 : Fin 1)) ⟨List.idxOf (1 : Fin 2) (rowTakeDims R N wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

/-! ### Truth bits, selections, and the label's range -/

/-- A selection on a truth bit is the conditional. -/
theorem select_ofBool {α : Type} (b : Bool) (x y : α) :
    Scalar.select (BitVec.ofBool b) x y = if b then x else y := by
  cases b <;> rfl

/-- The "not equal" comparison bit is the truth value of the inequality. -/
theorem cmpi_ne_eq (a b : BitVec 32) : IntOp.cmpi .ne a b = BitVec.ofBool (decide (a ≠ b)) := by
  show BitVec.ofBool (a != b) = BitVec.ofBool (decide (a ≠ b))
  refine congrArg BitVec.ofBool ?_
  by_cases h : a = b
  · subst h; simp
  · rw [decide_eq_true h]; exact bne_iff_ne.mpr h

/-- A label between -32000 and 31999, with 32000 added when it is negative, lies between 0 and 31999. -/
theorem norm_range (s : BitVec 32) (h1 : -32000 ≤ s.toInt) (h2 : s.toInt < 32000) :
    0 ≤ (if s.slt 0#32 then s + 32000#32 else s).toInt ∧ (if s.slt 0#32 then s + 32000#32 else s).toInt ≤ 31999 := by
  have h0 : (0#32 : BitVec 32).toInt = 0 := by decide
  have hk : (32000#32 : BitVec 32).toInt = 32000 := by decide
  by_cases hs : s.slt 0#32 = true
  · rw [if_pos hs]
    have hlt : s.toInt < 0 := by rw [BitVec.slt_iff_toInt_lt, h0] at hs; exact hs
    rw [BitVec.toInt_add, hk, Int.bmod_def]
    split_ifs <;> omega
  · rw [if_neg hs]
    have hge : ¬ s.toInt < 0 := by rw [BitVec.slt_iff_toInt_lt, h0] at hs; exact hs
    omega

/-- The in-range mask of a word between 0 and 31999 is set. -/
theorem mask_one (n : BitVec 32) (h0 : 0 ≤ n.toInt) (h1 : n.toInt ≤ 31999) :
    IntOp.andi (IntOp.andi (IntOp.cmpi .sge n 0#32) (IntOp.cmpi .sle n 31999#32)) 1#1 = 1#1 := by
  have e0 : (0#32 : BitVec 32).toInt = 0 := by decide
  have e1 : (31999#32 : BitVec 32).toInt = 31999 := by decide
  exact IntOp.andi_eq_one.mpr ⟨IntOp.andi_eq_one.mpr ⟨IntOp.cmpi_sge.mpr (by rw [e0]; exact h0),
    IntOp.cmpi_sle.mpr (by rw [e1]; exact h1)⟩, rfl⟩

/-- A 32-bit count N, raised to at least one and converted, is the larger of N and one. -/
theorem sitofp_maxsi_one (s : BitVec 32) (N : ℕ) (hs : s.toInt = N) :
    (FloatOps.sitofp (F := Ideal) .f32 (IntOp.maxsi s 1#32) : EReal) = max ((N : ℕ) : EReal) 1 := by
  show (((IntOp.maxsi s 1#32).toInt : ℝ) : EReal) = _
  have e1 : (1#32 : BitVec 32).toInt = 1 := by decide
  unfold IntOp.maxsi
  by_cases h : (1#32 : BitVec 32).slt s = true
  · rw [if_pos h, hs]
    have hlt : (1 : ℤ) < N := by rw [BitVec.slt_iff_toInt_lt, e1, hs] at h; exact h
    have hN : 1 ≤ N := by omega
    rw [max_eq_left (by exact_mod_cast hN)]
    norm_cast
  · rw [if_neg h, e1]
    have hle : ¬ (1 : ℤ) < N := by rw [BitVec.slt_iff_toInt_lt, e1, hs] at h; exact h
    have hN : N ≤ 1 := by omega
    rw [max_eq_right (by exact_mod_cast hN)]
    norm_cast

/-- The number of conditions that hold, as a sum of 0/1 labels. -/
theorem sum_ind_eq_card {ι : Type*} (s : Finset ι) (p : ι → Prop) [DecidablePred p] :
    (∑ k ∈ s, if p k then (1 : EReal) else 0) = (((s.filter p).card : ℕ) : EReal) :=
  Finset.sum_boole p s

end Cert.ReferenceIdeal.RefValue

end
-- ==== Proof.TailValue.lean ====
/-
  The last host stretch as mathematics: under labels in [-32000, 32000) the in-range mask is on at every token,
  the gathered row is the label's weight row, and the result is half the mean cross-entropy (log-sum-exp minus the
  label's logit, over the valid tokens) plus half the mean of the divergence column.
-/
import proofs.«178291_j71159018160659_2_alg».proof.Proof.TailRead
import proofs.«178291_j71159018160659_2_alg».proof.Proof.TailGather
import proofs.«178291_j71159018160659_2_alg».proof.Proof.RefLib

set_option maxRecDepth 16384

noncomputable section

namespace Cert.KernelIdeal.HostTail

open Cert.KernelIdeal Cert.KernelIdeal.Gen
open Idealize.ShloMosaic Idealize.ShloMosaic.ValueIdx Cert.JSD

/-- The label with the ignore value replaced by 0, token by token. -/
theorem safeVec_apply (tg : IVec S4096 32) (r : Fin 4096) : safeVec tg (ix1 r) = safeLabel tg r := by
  unfold safeVec safeLabel
  rw [select_apply, validBit_apply, Cert.LossBits.select_ofBool]
  rfl

/-- The wrapped label, token by token. -/
theorem normVec_apply (tg : IVec S4096 32) (r : Fin 4096) : normVec tg (ix1 r) = normLabel tg r := by
  unfold normVec normLabel
  rw [select_apply]
  show Scalar.select (IntOp.cmpi .slt (safeVec tg (ix1 r)) 0#32) (safeVec tg (ix1 r) + 32000#32) (safeVec tg (ix1 r)) = _
  rw [safeVec_apply]
  by_cases h : (safeLabel tg r).slt 0#32 = true
  · rw [if_pos h, IntOp.cmpi_slt.mpr (BitVec.slt_iff_toInt_lt.mp h), select_one]
  · rw [if_neg h, eq_zero_of_ne_one (fun e => h (BitVec.slt_iff_toInt_lt.mpr (IntOp.cmpi_slt.mp e))), select_zero]

/-- A label in [-32000, 32000), made safe and wrapped, lies in [0, 31999]. -/
theorem norm_in_range (tg : IVec S4096 32) (r : Fin 4096)
    (hr : -32000 ≤ (tg (ix1 r)).toInt ∧ (tg (ix1 r)).toInt < 32000) :
    0 ≤ (normLabel tg r).toInt ∧ (normLabel tg r).toInt ≤ 31999 := by
  have hs : -32000 ≤ (safeLabel tg r).toInt ∧ (safeLabel tg r).toInt < 32000 := by
    unfold safeLabel
    split
    · exact hr
    · exact ⟨by decide, by decide⟩
  unfold normLabel
  exact Cert.ReferenceIdeal.RefValue.norm_range _ hs.1 hs.2

/-- A reduction along a last axis of extent one: the body applied to the one entry and the initial value. -/
theorem reduce_unit_col {α : Type} {u : Shape} (f : α → α → α) [Std.Commutative f] [Std.Associative f]
    (p : S4096x1.Idx → α) (c : u.Idx → α) (h' : S4096x1.ReducesTo [1] S4096) (h : S4096x1.Reduces [1] S4096)
    (hu : 0 < u.numel) (r : Fin 4096) :
    Host.reduce f p c h' hu (ix1 r) = f (p (ix2 r (0 : Fin 1))) (c (Shape.Idx.first hu)) := by
  rw [Host.reduce_eq_fold_single f p c h' h hu]
  refine (show (Finset.univ : Finset (Fin 1)).fold f (c (Shape.Idx.first hu)) (p ∘ h.lift (ix1 r))
      = f ((p ∘ h.lift (ix1 r)) (0 : Fin 1)) (c (Shape.Idx.first hu)) from Finset.fold_singleton).trans ?_
  refine congrArg (fun z => f (p z) (c (Shape.Idx.first hu))) (funext fun a => Fin.ext ?_)
  match a with
  | ⟨0, _⟩ => rfl
  | ⟨1, _⟩ => rfl

/-- Under labels in [-32000, 32000) the in-range mask is on at every token. -/
theorem inRange_one (tg : IVec S4096 32) (r : Fin 4096)
    (hr : -32000 ≤ (tg (ix1 r)).toInt ∧ (tg (ix1 r)).toInt < 32000) : inRange tg (ix1 r) = 1#1 := by
  unfold inRange
  rw [reduce_unit_col IntOp.andi _ _ reducesTo_S4096x1_S4096_d1 (by decide) h_S_ r]
  have hn := norm_in_range tg r hr
  show IntOp.andi (IntOp.andi (IntOp.cmpi .sge (idxCol tg (ix2 r (0 : Fin 1))) 0#32)
    (IntOp.cmpi .sle (idxCol tg (ix2 r (0 : Fin 1))) 31999#32)) 1#1 = 1#1
  have e : idxCol tg (ix2 r (0 : Fin 1)) = normLabel tg r := by
    unfold idxCol
    rw [col_apply, normVec_apply]
  rw [e]
  exact Cert.ReferenceIdeal.RefValue.mask_one _ hn.1 hn.2

/-- Under labels in [-32000, 32000) token r's gathered row is its label's weight row. -/
theorem rows_apply (W : FVec Ideal S32000x2048 .f32) (tg : IVec S4096 32) (r : Fin 4096) (k : Fin 2048)
    (hr : -32000 ≤ (tg (ix1 r)).toInt ∧ (tg (ix1 r)).toInt < 32000) :
    rows W tg (ix2 r k) = W (ix2 (label tg r) k) := by
  unfold rows
  rw [select_apply, rowBcast_apply, inRange_one tg r hr, select_one, gather_row]
  refine congrArg W (congrArg (fun z => ix2 z k) (Fin.ext ?_))
  show min (idxCol tg (ix2 r (0 : Fin 1))).toInt.toNat 31999 = min (normLabel tg r).toInt.toNat 31999
  unfold idxCol
  rw [col_apply, normVec_apply]

/-- The last five operations on three scalars: half of the first over the larger of the second and one, plus half
    of the third over 4096. -/
theorem scal (hb cc ee : FVec Ideal S_ .f32) (j : S_.Idx) :
    addf
      (mulf (constant (F := Ideal) S_ .f32 0x3F000000#32)
        (Host.divf hb (maximumf cc (constant (F := Ideal) S_ .f32 0x3F800000#32))))
      (mulf (constant (F := Ideal) S_ .f32 0x3F000000#32)
        (Host.divf ee (constant (F := Ideal) S_ .f32 0x45800000#32))) j
      = half * Ideal.div (hb j) (max (cc j) wOne) + half * Ideal.div (ee j) w4096 := rfl

/-- THE LAST STRETCH: half the mean cross-entropy plus half the mean divergence. -/
theorem tail_apply (X : FVec Ideal S4096x2048 .f32) (tg : IVec S4096 32) (W : FVec Ideal S32000x2048 .f32)
    (lsec rjc : FVec Ideal S4096x1 .f32)
    (hr : ∀ r : Fin 4096, -32000 ≤ (tg (ix1 r)).toInt ∧ (tg (ix1 r)).toInt < 32000) (j : S_.Idx) :
    tail X tg W lsec rjc j
      = half * Ideal.div (∑ r : Fin 4096, (lsec (ix2 r (0 : Fin 1)) - logit X W r (label tg r))
            * (if valid tg r then (1 : EReal) else 0)) (max (Cert.JSD.count tg) wOne)
        + half * Ideal.div (∑ r : Fin 4096, rjc (ix2 r (0 : Fin 1))) w4096 := by
  unfold tail
  refine (scal _ _ _ j).trans ?_
  rw [colSum, colSum, colSum]
  have hcount : (∑ r : Fin 4096, validCol tg (ix2 r (0 : Fin 1))) = Cert.JSD.count tg := by
    unfold Cert.JSD.count
    exact Finset.sum_congr rfl fun r _ => validCol_apply tg r 0
  rw [hcount]
  refine congrArg (fun z => half * Ideal.div z (max (Cert.JSD.count tg) wOne) + half * Ideal.div (∑ r : Fin 4096, rjc (ix2 r (0 : Fin 1))) w4096) ?_
  refine Finset.sum_congr rfl fun r _ => ?_
  rw [mulf_apply, subf_apply, col_apply, rowSum, validCol_apply]
  refine congrArg (fun z => (lsec (ix2 r (0 : Fin 1)) - z) * (if valid tg r then (1 : EReal) else 0)) ?_
  unfold logit
  refine Finset.sum_congr rfl fun k _ => ?_
  rw [mulf_apply, rows_apply W tg r k (hr r)]

end Cert.KernelIdeal.HostTail

end
-- ==== Proof.Mid.lean ====
/-
  The buffers between the launch and the last host stretch: the four narrowed copies of the float arguments the
  first region reads are the arguments themselves (a change of float format is the identity on extended reals);
  the two log-sum-exp columns the second region reads are the first region's running maximum plus the logarithm
  of its running sum; the caches pass through unchanged; and the arguments reach the last stretch as launched.
-/
import proofs.«178291_j71159018160659_2_alg».proof.Proof.Gen.KernelIdeal.Frame
import Idealize.ShloMosaic.Lib.StableHlo.Run
import Idealize.ShloMosaic.Lib.ValueIdx
import Idealize.ShloMosaic.PureOps.Ideal

set_option maxRecDepth 16384

noncomputable section

namespace Cert.KernelIdeal.Mid

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Before the first region -/

/-- The four narrowings of the float arguments; on extended reals each is the identity, entry by entry. -/
def narrowA (x : FVec Ideal S4096x2048 .f32) : FVec Ideal S4096x2048 .bf16 := truncf .bf16 x bitsLt_bf16_f32
def narrowB (x : FVec Ideal S4096x4096 .f32) : FVec Ideal S4096x4096 .bf16 := truncf .bf16 x bitsLt_bf16_f32
def narrowC (x : FVec Ideal S32000x2048 .f32) : FVec Ideal S32000x2048 .bf16 := truncf .bf16 x bitsLt_bf16_f32
def narrowD (x : FVec Ideal S32000x4096 .f32) : FVec Ideal S32000x4096 .bf16 := truncf .bf16 x bitsLt_bf16_f32
theorem narrowA_apply (x : FVec Ideal S4096x2048 .f32) (i : S4096x2048.Idx) : narrowA x i = x i := rfl
theorem narrowB_apply (x : FVec Ideal S4096x4096 .f32) (i : S4096x4096.Idx) : narrowB x i = x i := rfl
theorem narrowC_apply (x : FVec Ideal S32000x2048 .f32) (i : S32000x2048.Idx) : narrowC x i = x i := rfl
theorem narrowD_apply (x : FVec Ideal S32000x4096 .f32) (i : S32000x4096.Idx) : narrowD x i = x i := rfl

theorem V1_v0 (c : Dev nD) : V1 m ρ c main_v0 = narrowA (m ((c : Thread nD τ).loc main_arg0)) := by
  show StableHlo.after hostOps0 (W0 m ρ c) (Proc.devRef .tc main_v0) = _
  unfold narrowA
  after_results_simp
theorem V1_v1 (c : Dev nD) : V1 m ρ c main_v1 = narrowB (m ((c : Thread nD τ).loc main_arg1)) := by
  show StableHlo.after hostOps0 (W0 m ρ c) (Proc.devRef .tc main_v1) = _
  unfold narrowB
  after_results_simp
theorem V1_v2 (c : Dev nD) : V1 m ρ c main_v2 = narrowC (m ((c : Thread nD τ).loc main_arg3)) := by
  show StableHlo.after hostOps0 (W0 m ρ c) (Proc.devRef .tc main_v2) = _
  unfold narrowC
  after_results_simp
theorem V1_v3 (c : Dev nD) : V1 m ρ c main_v3 = narrowD (m ((c : Thread nD τ).loc main_arg4)) := by
  show StableHlo.after hostOps0 (W0 m ρ c) (Proc.devRef .tc main_v3) = _
  unfold narrowD
  after_results_simp

/-! ## Between the regions -/

/-- A log-sum-exp column from a running-maximum column and a running-sum column. -/
def lseCol (mx se : FVec Ideal S4096x1 .f32) : FVec Ideal S4096x1 .f32 := addf mx (Host.log (F := Ideal) se)
theorem lseCol_apply (mx se : FVec Ideal S4096x1 .f32) (i : S4096x1.Idx) : lseCol mx se i = mx i + Ideal.log (se i) := rfl

theorem V3_v6 (c : Dev nD) : V3 m ρ c main_v6
    = lseCol (W2 m ρ c (Proc.devRef .tc main_v4_0)) (W2 m ρ c (Proc.devRef .tc main_v4_1)) := by
  show StableHlo.after hostOps1 (W2 m ρ c) (Proc.devRef .tc main_v6) = _
  generalize W2 m ρ c = V
  unfold lseCol
  after_results_simp
theorem V3_v8 (c : Dev nD) : V3 m ρ c main_v8
    = lseCol (W2 m ρ c (Proc.devRef .tc main_v4_2)) (W2 m ρ c (Proc.devRef .tc main_v4_3)) := by
  show StableHlo.after hostOps1 (W2 m ρ c) (Proc.devRef .tc main_v8) = _
  generalize W2 m ρ c = V
  unfold lseCol
  after_results_simp
theorem V3_v4_4 (c : Dev nD) : V3 m ρ c main_v4_4 = W2 m ρ c (Proc.devRef .tc main_v4_4) := by
  show StableHlo.after hostOps1 (W2 m ρ c) (Proc.devRef .tc main_v4_4) = _
  generalize W2 m ρ c = V
  after_results_simp
theorem V3_v4_5 (c : Dev nD) : V3 m ρ c main_v4_5 = W2 m ρ c (Proc.devRef .tc main_v4_5) := by
  show StableHlo.after hostOps1 (W2 m ρ c) (Proc.devRef .tc main_v4_5) = _
  generalize W2 m ρ c = V
  after_results_simp

/-- The argument main_arg0 reaches the last host stretches as launched: no host operation before them and no region writes it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := by
          show StableHlo.after hostOps1 (W2 m ρ c) (Proc.devRef .tc main_arg0) = _
          generalize W2 m ρ c = V
          after_results_simp
    _ = W1 m ρ c (Proc.devRef .tc main_arg0) := W2_of_ne m ρ c main_arg0 (by decide)
    _ = W0 m ρ c (Proc.devRef .tc main_arg0) := by
          show StableHlo.after hostOps0 (W0 m ρ c) (Proc.devRef .tc main_arg0) = _
          generalize W0 m ρ c = V
          after_results_simp
    _ = m ((c : Thread nD τ).loc main_arg0) := rfl

/-- The argument main_arg2 reaches the last host stretches as launched: no host operation before them and no region writes it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by
          show StableHlo.after hostOps1 (W2 m ρ c) (Proc.devRef .tc main_arg2) = _
          generalize W2 m ρ c = V
          after_results_simp
    _ = W1 m ρ c (Proc.devRef .tc main_arg2) := W2_of_ne m ρ c main_arg2 (by decide)
    _ = W0 m ρ c (Proc.devRef .tc main_arg2) := by
          show StableHlo.after hostOps0 (W0 m ρ c) (Proc.devRef .tc main_arg2) = _
          generalize W0 m ρ c = V
          after_results_simp
    _ = m ((c : Thread nD τ).loc main_arg2) := rfl

/-- The argument main_arg3 reaches the last host stretches as launched: no host operation before them and no region writes it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by
          show StableHlo.after hostOps1 (W2 m ρ c) (Proc.devRef .tc main_arg3) = _
          generalize W2 m ρ c = V
          after_results_simp
    _ = W1 m ρ c (Proc.devRef .tc main_arg3) := W2_of_ne m ρ c main_arg3 (by decide)
    _ = W0 m ρ c (Proc.devRef .tc main_arg3) := by
          show StableHlo.after hostOps0 (W0 m ρ c) (Proc.devRef .tc main_arg3) = _
          generalize W0 m ρ c = V
          after_results_simp
    _ = m ((c : Thread nD τ).loc main_arg3) := rfl

end Cert.KernelIdeal.Mid

end
-- ==== Proof.R0Arr.lean ====
/-
  From the staging buffers to the arrays.  Each output of the first kernel is written back block by block:
  the four statistics columns keep their block while the 50 vocabulary stretches of a row block pass and are
  written back after the last of them (positions n with n % 50 = 49), the two logits caches are written back
  at every position.  If what a written-back block holds is, entry by entry, one function of the token row
  (and of the vocabulary entry) that the block's coordinate stands for, then after the whole grid the array
  holds that function: every token row lies in exactly one row block, whose last position 50 * (r / 1024) + 49
  writes it, and every cache entry (r, v) lies in the block of position 50 * (r / 1024) + v / 640.
-/
import proofs.«178291_j71159018160659_2_alg».proof.Proof.Gen.KernelIdeal.Frame
import proofs.«178291_j71159018160659_2_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.R0

open Cert.KernelIdeal Cert.KernelIdeal.Gen

variable {F : FTy → Type} [FloatOps F]
variable (V : (c : Dev nD) → (b : Ref sig .tc) → Buf (Elt F) ((c : Thread nD τ).loc b))

/-- A function of the token row, as contents of a [4096, 1] column. -/
def colBuf {α : Type} (G : Fin 4096 → α) : S4096x1.Idx → α := fun i => G (i 0)

/-- A function of the token row and the vocabulary entry, as contents of a [4096, 32000] array. -/
def tileBuf {α : Type} (G : Fin 4096 → Fin 32000 → α) : S4096x32000.Idx → α := fun i => G (i 0) (i 1)

/-- Two [1024, 1] blocks agree when they agree at every pair of coordinates. -/
theorem ext_col {α : Type} (f g : S1024x1.Idx → α) (h : ∀ (p : Fin 1024) (q : Fin 1), f (ix2 p q) = g (ix2 p q)) : f = g :=
  funext fun j => by rw [eq_ix2 j]; exact h _ _

/-- Two [1024, 640] blocks agree when they agree at every pair of coordinates. -/
theorem ext_tile {α : Type} (f g : S1024x640.Idx → α) (h : ∀ (p : Fin 1024) (q : Fin 640), f (ix2 p q) = g (ix2 p q)) : f = g :=
  funext fun j => by rw [eq_ix2 j]; exact h _ _

/-- Column window 4 sits at row block n / 50 at position n, and its second block index is 0. -/
theorem idx_4 : ∀ t : Fin cfg0.N, win0_4.index t (0 : Fin 2) = t.val / 50 ∧ win0_4.index t (1 : Fin 2) = 0 :=
  (by decide +kernel : ∀ t : Fin grid0.N, win0_4.index t (0 : Fin 2) = t.val / 50 ∧ win0_4.index t (1 : Fin 2) = 0)

/-- What a writing-back position writes to column 4 is its block of the function of the token row. -/
theorem flushed_col4 (c : Dev nD) (G : Fin 4096 → F .f32)
    (h : ∀ (n : ℕ) (hn : n < 200) (hN : n < cfg0.N), n % 50 = 49 → ∀ (p : Fin 1024) (q : Fin 1),
      ((dat0 V c).after 4 ⟨n, hN⟩ : Vec F S1024x1 .f32) (ix2 p q) = G (Cert.JSD.rowOf n hn p))
    (t : Fin cfg0.N) (hf : (cfg0.win 4).flush t = true) :
    (dat0 V c).flushed 4 t = ((cfg0.win 4).blk t).view.read (Elt F) (colBuf G) := by
  have hN : grid0.N = 200 := N_0
  have ht : t.val < 200 := by have : t.val < grid0.N := t.isLt; omega
  have h49 : t.val % 50 = 49 := (flush0_4 t).mp hf
  obtain ⟨e0, e1⟩ := idx_4 t
  refine ext_col _ _ fun p q => ?_
  show ((dat0 V c).after 4 t : Vec F S1024x1 .f32) (ix2 p q) = colBuf G (((cfg0.win 4).blk t).view.emb (ix2 p q))
  refine (h t.val ht t.isLt h49 p q).trans ?_
  unfold colBuf
  refine congrArg G (Fin.ext ?_)
  show 1024 * (t.val / 50) + p.val = win0_4.index t (0 : Fin 2) * 1024 + 1 * p.val
  rw [e0]; omega

/-- After the grid, column 4 holds the function of the token row. -/
theorem arr_col4 (c : Dev nD) (G : Fin 4096 → F .f32)
    (h : ∀ (n : ℕ) (hn : n < 200) (hN : n < cfg0.N), n % 50 = 49 → ∀ (p : Fin 1024) (q : Fin 1),
      ((dat0 V c).after 4 ⟨n, hN⟩ : Vec F S1024x1 .f32) (ix2 p q) = G (Cert.JSD.rowOf n hn p)) :
    ∀ (r : Fin 4096) (q : Fin 1), ((dat0 V c).arrAt 4 cfg0.N : S4096x1.Idx → Elt F .f32) (ix2 r q) = G r := by
  have hN : grid0.N = 200 := N_0
  have key : (dat0 V c).arrAt 4 cfg0.N = colBuf G :=
    (dat0 V c).arrAt_eq_of_cover 4 (colBuf G) (flushed_col4 V c G h) fun i => by
      have hi0 : (i 0).val < 4096 := (i 0).isLt
      have hi1 : (i 1).val < 1 := (i 1).isLt
      obtain ⟨t, ht⟩ : ∃ t : Fin cfg0.N, t.val = 50 * ((i 0).val / 1024) + 49 :=
        ⟨⟨50 * ((i 0).val / 1024) + 49, by show _ < grid0.N; omega⟩, rfl⟩
      obtain ⟨e0, e1⟩ := idx_4 t
      refine ⟨t, (flush0_4 t).mpr (by omega), ?_⟩
      show i ∈ ((View.whole main_v4_0).slice (win0_4.rect t)).set
      rw [View.set_slice_whole, Rect.mem_set_unit]
      intro a
      match a with
      | ⟨0, _⟩ =>
        show win0_4.index t (0 : Fin 2) * 1024 ≤ (i 0).val ∧ (i 0).val < win0_4.index t (0 : Fin 2) * 1024 + 1024
        rw [e0]; omega
      | ⟨1, _⟩ =>
        show win0_4.index t (1 : Fin 2) * 1 ≤ (i 1).val ∧ (i 1).val < win0_4.index t (1 : Fin 2) * 1 + 1
        rw [e1]; omega
  intro r q
  exact congrFun key (ix2 r q)

/-- Column window 5 sits at row block n / 50 at position n, and its second block index is 0. -/
theorem idx_5 : ∀ t : Fin cfg0.N, win0_5.index t (0 : Fin 2) = t.val / 50 ∧ win0_5.index t (1 : Fin 2) = 0 :=
  (by decide +kernel : ∀ t : Fin grid0.N, win0_5.index t (0 : Fin 2) = t.val / 50 ∧ win0_5.index t (1 : Fin 2) = 0)

/-- What a writing-back position writes to column 5 is its block of the function of the token row. -/
theorem flushed_col5 (c : Dev nD) (G : Fin 4096 → F .f32)
    (h : ∀ (n : ℕ) (hn : n < 200) (hN : n < cfg0.N), n % 50 = 49 → ∀ (p : Fin 1024) (q : Fin 1),
      ((dat0 V c).after 5 ⟨n, hN⟩ : Vec F S1024x1 .f32) (ix2 p q) = G (Cert.JSD.rowOf n hn p))
    (t : Fin cfg0.N) (hf : (cfg0.win 5).flush t = true) :
    (dat0 V c).flushed 5 t = ((cfg0.win 5).blk t).view.read (Elt F) (colBuf G) := by
  have hN : grid0.N = 200 := N_0
  have ht : t.val < 200 := by have : t.val < grid0.N := t.isLt; omega
  have h49 : t.val % 50 = 49 := (flush0_5 t).mp hf
  obtain ⟨e0, e1⟩ := idx_5 t
  refine ext_col _ _ fun p q => ?_
  show ((dat0 V c).after 5 t : Vec F S1024x1 .f32) (ix2 p q) = colBuf G (((cfg0.win 5).blk t).view.emb (ix2 p q))
  refine (h t.val ht t.isLt h49 p q).trans ?_
  unfold colBuf
  refine congrArg G (Fin.ext ?_)
  show 1024 * (t.val / 50) + p.val = win0_5.index t (0 : Fin 2) * 1024 + 1 * p.val
  rw [e0]; omega

/-- After the grid, column 5 holds the function of the token row. -/
theorem arr_col5 (c : Dev nD) (G : Fin 4096 → F .f32)
    (h : ∀ (n : ℕ) (hn : n < 200) (hN : n < cfg0.N), n % 50 = 49 → ∀ (p : Fin 1024) (q : Fin 1),
      ((dat0 V c).after 5 ⟨n, hN⟩ : Vec F S1024x1 .f32) (ix2 p q) = G (Cert.JSD.rowOf n hn p)) :
    ∀ (r : Fin 4096) (q : Fin 1), ((dat0 V c).arrAt 5 cfg0.N : S4096x1.Idx → Elt F .f32) (ix2 r q) = G r := by
  have hN : grid0.N = 200 := N_0
  have key : (dat0 V c).arrAt 5 cfg0.N = colBuf G :=
    (dat0 V c).arrAt_eq_of_cover 5 (colBuf G) (flushed_col5 V c G h) fun i => by
      have hi0 : (i 0).val < 4096 := (i 0).isLt
      have hi1 : (i 1).val < 1 := (i 1).isLt
      obtain ⟨t, ht⟩ : ∃ t : Fin cfg0.N, t.val = 50 * ((i 0).val / 1024) + 49 :=
        ⟨⟨50 * ((i 0).val / 1024) + 49, by show _ < grid0.N; omega⟩, rfl⟩
      obtain ⟨e0, e1⟩ := idx_5 t
      refine ⟨t, (flush0_5 t).mpr (by omega), ?_⟩
      show i ∈ ((View.whole main_v4_1).slice (win0_5.rect t)).set
      rw [View.set_slice_whole, Rect.mem_set_unit]
      intro a
      match a with
      | ⟨0, _⟩ =>
        show win0_5.index t (0 : Fin 2) * 1024 ≤ (i 0).val ∧ (i 0).val < win0_5.index t (0 : Fin 2) * 1024 + 1024
        rw [e0]; omega
      | ⟨1, _⟩ =>
        show win0_5.index t (1 : Fin 2) * 1 ≤ (i 1).val ∧ (i 1).val < win0_5.index t (1 : Fin 2) * 1 + 1
        rw [e1]; omega
  intro r q
  exact congrFun key (ix2 r q)

/-- Column window 6 sits at row block n / 50 at position n, and its second block index is 0. -/
theorem idx_6 : ∀ t : Fin cfg0.N, win0_6.index t (0 : Fin 2) = t.val / 50 ∧ win0_6.index t (1 : Fin 2) = 0 :=
  (by decide +kernel : ∀ t : Fin grid0.N, win0_6.index t (0 : Fin 2) = t.val / 50 ∧ win0_6.index t (1 : Fin 2) = 0)

/-- What a writing-back position writes to column 6 is its block of the function of the token row. -/
theorem flushed_col6 (c : Dev nD) (G : Fin 4096 → F .f32)
    (h : ∀ (n : ℕ) (hn : n < 200) (hN : n < cfg0.N), n % 50 = 49 → ∀ (p : Fin 1024) (q : Fin 1),
      ((dat0 V c).after 6 ⟨n, hN⟩ : Vec F S1024x1 .f32) (ix2 p q) = G (Cert.JSD.rowOf n hn p))
    (t : Fin cfg0.N) (hf : (cfg0.win 6).flush t = true) :
    (dat0 V c).flushed 6 t = ((cfg0.win 6).blk t).view.read (Elt F) (colBuf G) := by
  have hN : grid0.N = 200 := N_0
  have ht : t.val < 200 := by have : t.val < grid0.N := t.isLt; omega
  have h49 : t.val % 50 = 49 := (flush0_6 t).mp hf
  obtain ⟨e0, e1⟩ := idx_6 t
  refine ext_col _ _ fun p q => ?_
  show ((dat0 V c).after 6 t : Vec F S1024x1 .f32) (ix2 p q) = colBuf G (((cfg0.win 6).blk t).view.emb (ix2 p q))
  refine (h t.val ht t.isLt h49 p q).trans ?_
  unfold colBuf
  refine congrArg G (Fin.ext ?_)
  show 1024 * (t.val / 50) + p.val = win0_6.index t (0 : Fin 2) * 1024 + 1 * p.val
  rw [e0]; omega

/-- After the grid, column 6 holds the function of the token row. -/
theorem arr_col6 (c : Dev nD) (G : Fin 4096 → F .f32)
    (h : ∀ (n : ℕ) (hn : n < 200) (hN : n < cfg0.N), n % 50 = 49 → ∀ (p : Fin 1024) (q : Fin 1),
      ((dat0 V c).after 6 ⟨n, hN⟩ : Vec F S1024x1 .f32) (ix2 p q) = G (Cert.JSD.rowOf n hn p)) :
    ∀ (r : Fin 4096) (q : Fin 1), ((dat0 V c).arrAt 6 cfg0.N : S4096x1.Idx → Elt F .f32) (ix2 r q) = G r := by
  have hN : grid0.N = 200 := N_0
  have key : (dat0 V c).arrAt 6 cfg0.N = colBuf G :=
    (dat0 V c).arrAt_eq_of_cover 6 (colBuf G) (flushed_col6 V c G h) fun i => by
      have hi0 : (i 0).val < 4096 := (i 0).isLt
      have hi1 : (i 1).val < 1 := (i 1).isLt
      obtain ⟨t, ht⟩ : ∃ t : Fin cfg0.N, t.val = 50 * ((i 0).val / 1024) + 49 :=
        ⟨⟨50 * ((i 0).val / 1024) + 49, by show _ < grid0.N; omega⟩, rfl⟩
      obtain ⟨e0, e1⟩ := idx_6 t
      refine ⟨t, (flush0_6 t).mpr (by omega), ?_⟩
      show i ∈ ((View.whole main_v4_2).slice (win0_6.rect t)).set
      rw [View.set_slice_whole, Rect.mem_set_unit]
      intro a
      match a with
      | ⟨0, _⟩ =>
        show win0_6.index t (0 : Fin 2) * 1024 ≤ (i 0).val ∧ (i 0).val < win0_6.index t (0 : Fin 2) * 1024 + 1024
        rw [e0]; omega
      | ⟨1, _⟩ =>
        show win0_6.index t (1 : Fin 2) * 1 ≤ (i 1).val ∧ (i 1).val < win0_6.index t (1 : Fin 2) * 1 + 1
        rw [e1]; omega
  intro r q
  exact congrFun key (ix2 r q)

/-- Column window 7 sits at row block n / 50 at position n, and its second block index is 0. -/
theorem idx_7 : ∀ t : Fin cfg0.N, win0_7.index t (0 : Fin 2) = t.val / 50 ∧ win0_7.index t (1 : Fin 2) = 0 :=
  (by decide +kernel : ∀ t : Fin grid0.N, win0_7.index t (0 : Fin 2) = t.val / 50 ∧ win0_7.index t (1 : Fin 2) = 0)

/-- What a writing-back position writes to column 7 is its block of the function of the token row. -/
theorem flushed_col7 (c : Dev nD) (G : Fin 4096 → F .f32)
    (h : ∀ (n : ℕ) (hn : n < 200) (hN : n < cfg0.N), n % 50 = 49 → ∀ (p : Fin 1024) (q : Fin 1),
      ((dat0 V c).after 7 ⟨n, hN⟩ : Vec F S1024x1 .f32) (ix2 p q) = G (Cert.JSD.rowOf n hn p))
    (t : Fin cfg0.N) (hf : (cfg0.win 7).flush t = true) :
    (dat0 V c).flushed 7 t = ((cfg0.win 7).blk t).view.read (Elt F) (colBuf G) := by
  have hN : grid0.N = 200 := N_0
  have ht : t.val < 200 := by have : t.val < grid0.N := t.isLt; omega
  have h49 : t.val % 50 = 49 := (flush0_7 t).mp hf
  obtain ⟨e0, e1⟩ := idx_7 t
  refine ext_col _ _ fun p q => ?_
  show ((dat0 V c).after 7 t : Vec F S1024x1 .f32) (ix2 p q) = colBuf G (((cfg0.win 7).blk t).view.emb (ix2 p q))
  refine (h t.val ht t.isLt h49 p q).trans ?_
  unfold colBuf
  refine congrArg G (Fin.ext ?_)
  show 1024 * (t.val / 50) + p.val = win0_7.index t (0 : Fin 2) * 1024 + 1 * p.val
  rw [e0]; omega

/-- After the grid, column 7 holds the function of the token row. -/
theorem arr_col7 (c : Dev nD) (G : Fin 4096 → F .f32)
    (h : ∀ (n : ℕ) (hn : n < 200) (hN : n < cfg0.N), n % 50 = 49 → ∀ (p : Fin 1024) (q : Fin 1),
      ((dat0 V c).after 7 ⟨n, hN⟩ : Vec F S1024x1 .f32) (ix2 p q) = G (Cert.JSD.rowOf n hn p)) :
    ∀ (r : Fin 4096) (q : Fin 1), ((dat0 V c).arrAt 7 cfg0.N : S4096x1.Idx → Elt F .f32) (ix2 r q) = G r := by
  have hN : grid0.N = 200 := N_0
  have key : (dat0 V c).arrAt 7 cfg0.N = colBuf G :=
    (dat0 V c).arrAt_eq_of_cover 7 (colBuf G) (flushed_col7 V c G h) fun i => by
      have hi0 : (i 0).val < 4096 := (i 0).isLt
      have hi1 : (i 1).val < 1 := (i 1).isLt
      obtain ⟨t, ht⟩ : ∃ t : Fin cfg0.N, t.val = 50 * ((i 0).val / 1024) + 49 :=
        ⟨⟨50 * ((i 0).val / 1024) + 49, by show _ < grid0.N; omega⟩, rfl⟩
      obtain ⟨e0, e1⟩ := idx_7 t
      refine ⟨t, (flush0_7 t).mpr (by omega), ?_⟩
      show i ∈ ((View.whole main_v4_3).slice (win0_7.rect t)).set
      rw [View.set_slice_whole, Rect.mem_set_unit]
      intro a
      match a with
      | ⟨0, _⟩ =>
        show win0_7.index t (0 : Fin 2) * 1024 ≤ (i 0).val ∧ (i 0).val < win0_7.index t (0 : Fin 2) * 1024 + 1024
        rw [e0]; omega
      | ⟨1, _⟩ =>
        show win0_7.index t (1 : Fin 2) * 1 ≤ (i 1).val ∧ (i 1).val < win0_7.index t (1 : Fin 2) * 1 + 1
        rw [e1]; omega
  intro r q
  exact congrFun key (ix2 r q)

/-- Cache window 8 sits at row block n / 50 and stretch n % 50 at position n. -/
theorem idx_8 : ∀ t : Fin cfg0.N, win0_8.index t (0 : Fin 2) = t.val / 50 ∧ win0_8.index t (1 : Fin 2) = t.val % 50 :=
  (by decide +kernel : ∀ t : Fin grid0.N, win0_8.index t (0 : Fin 2) = t.val / 50 ∧ win0_8.index t (1 : Fin 2) = t.val % 50)

/-- What a position writes to cache 8 is its block of the function of token row and vocabulary entry. -/
theorem flushed_tile8 (c : Dev nD) (G : Fin 4096 → Fin 32000 → F .bf16)
    (h : ∀ (n : ℕ) (hn : n < 200) (hN : n < cfg0.N) (p : Fin 1024) (q : Fin 640),
      ((dat0 V c).after 8 ⟨n, hN⟩ : Vec F S1024x640 .bf16) (ix2 p q) = G (Cert.JSD.rowOf n hn p) (Cert.JSD.colOf n q))
    (t : Fin cfg0.N) (hf : (cfg0.win 8).flush t = true) :
    (dat0 V c).flushed 8 t = ((cfg0.win 8).blk t).view.read (Elt F) (tileBuf G) := by
  have hN : grid0.N = 200 := N_0
  have ht : t.val < 200 := by have : t.val < grid0.N := t.isLt; omega
  obtain ⟨e0, e1⟩ := idx_8 t
  refine ext_tile _ _ fun p q => ?_
  show ((dat0 V c).after 8 t : Vec F S1024x640 .bf16) (ix2 p q) = tileBuf G (((cfg0.win 8).blk t).view.emb (ix2 p q))
  refine (h t.val ht t.isLt p q).trans ?_
  unfold tileBuf
  refine congrArg₂ G (Fin.ext ?_) (Fin.ext ?_)
  · show 1024 * (t.val / 50) + p.val = win0_8.index t (0 : Fin 2) * 1024 + 1 * p.val
    rw [e0]; omega
  · show 640 * (t.val % 50) + q.val = win0_8.index t (1 : Fin 2) * 640 + 1 * q.val
    rw [e1]; omega

/-- After the grid, cache 8 holds the function of token row and vocabulary entry. -/
theorem arr_tile8 (c : Dev nD) (G : Fin 4096 → Fin 32000 → F .bf16)
    (h : ∀ (n : ℕ) (hn : n < 200) (hN : n < cfg0.N) (p : Fin 1024) (q : Fin 640),
      ((dat0 V c).after 8 ⟨n, hN⟩ : Vec F S1024x640 .bf16) (ix2 p q) = G (Cert.JSD.rowOf n hn p) (Cert.JSD.colOf n q)) :
    ∀ (r : Fin 4096) (v : Fin 32000), ((dat0 V c).arrAt 8 cfg0.N : S4096x32000.Idx → Elt F .bf16) (ix2 r v) = G r v := by
  have hN : grid0.N = 200 := N_0
  have key : (dat0 V c).arrAt 8 cfg0.N = tileBuf G :=
    (dat0 V c).arrAt_eq_of_cover 8 (tileBuf G) (flushed_tile8 V c G h) fun i => by
      have hi0 : (i 0).val < 4096 := (i 0).isLt
      have hi1 : (i 1).val < 32000 := (i 1).isLt
      obtain ⟨t, ht⟩ : ∃ t : Fin cfg0.N, t.val = 50 * ((i 0).val / 1024) + (i 1).val / 640 :=
        ⟨⟨50 * ((i 0).val / 1024) + (i 1).val / 640, by show _ < grid0.N; omega⟩, rfl⟩
      obtain ⟨e0, e1⟩ := idx_8 t
      refine ⟨t, flush0_8 t, ?_⟩
      show i ∈ ((View.whole main_v4_4).slice (win0_8.rect t)).set
      rw [View.set_slice_whole, Rect.mem_set_unit]
      intro a
      match a with
      | ⟨0, _⟩ =>
        show win0_8.index t (0 : Fin 2) * 1024 ≤ (i 0).val ∧ (i 0).val < win0_8.index t (0 : Fin 2) * 1024 + 1024
        rw [e0]; omega
      | ⟨1, _⟩ =>
        show win0_8.index t (1 : Fin 2) * 640 ≤ (i 1).val ∧ (i 1).val < win0_8.index t (1 : Fin 2) * 640 + 640
        rw [e1]; omega
  intro r v
  exact congrFun key (ix2 r v)

/-- Cache window 9 sits at row block n / 50 and stretch n % 50 at position n. -/
theorem idx_9 : ∀ t : Fin cfg0.N, win0_9.index t (0 : Fin 2) = t.val / 50 ∧ win0_9.index t (1 : Fin 2) = t.val % 50 :=
  (by decide +kernel : ∀ t : Fin grid0.N, win0_9.index t (0 : Fin 2) = t.val / 50 ∧ win0_9.index t (1 : Fin 2) = t.val % 50)

/-- What a position writes to cache 9 is its block of the function of token row and vocabulary entry. -/
theorem flushed_tile9 (c : Dev nD) (G : Fin 4096 → Fin 32000 → F .bf16)
    (h : ∀ (n : ℕ) (hn : n < 200) (hN : n < cfg0.N) (p : Fin 1024) (q : Fin 640),
      ((dat0 V c).after 9 ⟨n, hN⟩ : Vec F S1024x640 .bf16) (ix2 p q) = G (Cert.JSD.rowOf n hn p) (Cert.JSD.colOf n q))
    (t : Fin cfg0.N) (hf : (cfg0.win 9).flush t = true) :
    (dat0 V c).flushed 9 t = ((cfg0.win 9).blk t).view.read (Elt F) (tileBuf G) := by
  have hN : grid0.N = 200 := N_0
  have ht : t.val < 200 := by have : t.val < grid0.N := t.isLt; omega
  obtain ⟨e0, e1⟩ := idx_9 t
  refine ext_tile _ _ fun p q => ?_
  show ((dat0 V c).after 9 t : Vec F S1024x640 .bf16) (ix2 p q) = tileBuf G (((cfg0.win 9).blk t).view.emb (ix2 p q))
  refine (h t.val ht t.isLt p q).trans ?_
  unfold tileBuf
  refine congrArg₂ G (Fin.ext ?_) (Fin.ext ?_)
  · show 1024 * (t.val / 50) + p.val = win0_9.index t (0 : Fin 2) * 1024 + 1 * p.val
    rw [e0]; omega
  · show 640 * (t.val % 50) + q.val = win0_9.index t (1 : Fin 2) * 640 + 1 * q.val
    rw [e1]; omega

/-- After the grid, cache 9 holds the function of token row and vocabulary entry. -/
theorem arr_tile9 (c : Dev nD) (G : Fin 4096 → Fin 32000 → F .bf16)
    (h : ∀ (n : ℕ) (hn : n < 200) (hN : n < cfg0.N) (p : Fin 1024) (q : Fin 640),
      ((dat0 V c).after 9 ⟨n, hN⟩ : Vec F S1024x640 .bf16) (ix2 p q) = G (Cert.JSD.rowOf n hn p) (Cert.JSD.colOf n q)) :
    ∀ (r : Fin 4096) (v : Fin 32000), ((dat0 V c).arrAt 9 cfg0.N : S4096x32000.Idx → Elt F .bf16) (ix2 r v) = G r v := by
  have hN : grid0.N = 200 := N_0
  have key : (dat0 V c).arrAt 9 cfg0.N = tileBuf G :=
    (dat0 V c).arrAt_eq_of_cover 9 (tileBuf G) (flushed_tile9 V c G h) fun i => by
      have hi0 : (i 0).val < 4096 := (i 0).isLt
      have hi1 : (i 1).val < 32000 := (i 1).isLt
      obtain ⟨t, ht⟩ : ∃ t : Fin cfg0.N, t.val = 50 * ((i 0).val / 1024) + (i 1).val / 640 :=
        ⟨⟨50 * ((i 0).val / 1024) + (i 1).val / 640, by show _ < grid0.N; omega⟩, rfl⟩
      obtain ⟨e0, e1⟩ := idx_9 t
      refine ⟨t, flush0_9 t, ?_⟩
      show i ∈ ((View.whole main_v4_5).slice (win0_9.rect t)).set
      rw [View.set_slice_whole, Rect.mem_set_unit]
      intro a
      match a with
      | ⟨0, _⟩ =>
        show win0_9.index t (0 : Fin 2) * 1024 ≤ (i 0).val ∧ (i 0).val < win0_9.index t (0 : Fin 2) * 1024 + 1024
        rw [e0]; omega
      | ⟨1, _⟩ =>
        show win0_9.index t (1 : Fin 2) * 640 ≤ (i 1).val ∧ (i 1).val < win0_9.index t (1 : Fin 2) * 640 + 640
        rw [e1]; omega
  intro r v
  exact congrFun key (ix2 r v)

end Cert.KernelIdeal.R0

end
-- ==== Proof.R0Pieces.lean ====
/-
  The first kernel's body, read as values.  At a grid point the body finds four input blocks (student rows,
  student vocabulary rows, teacher rows, teacher vocabulary rows) and, in the staging buffers of its four
  running statistics, either nothing of interest (first vocabulary stretch of a row block: it resets them to
  minus infinity and zero and reads the reset values back) or what the stretch before left.  Each of its six
  outputs is then one store covering the whole block, and what the store writes is a pure function of what was
  loaded: the running maximum and the rescaled running sum of exponentials for each side, and the two logits
  tiles.  The twelve equations below say which function, for the two control cases.
-/
import proofs.«178291_j71159018160659_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R0

open Cert.KernelIdeal Cert.KernelIdeal.Gen

variable {F : FTy → Type} [FloatOps F]

theorem hz : (![0, 0] : Fin 2 → Nat) = fun _ => 0 := funext fun a => by fin_cases a <;> rfl

/-- Case A (first stretch of a row block), output 4. -/
theorem out_A_4 (c : Dev nD) (i : grid0.Coords) (arg2 : Memref sig .tc .vmem S1024x2048 .bf16) (harg2 : arg2.IsWhole) (arg3 : Memref sig .tc .vmem S640x2048 .bf16) (harg3 : arg3.IsWhole) (arg4 : Memref sig .tc .vmem S1024x4096 .bf16) (harg4 : arg4.IsWhole) (arg5 : Memref sig .tc .vmem S640x4096 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x640 .bf16) (harg10 : arg10.IsWhole) (arg11 : Memref sig .tc .vmem S1024x640 .bf16) (harg11 : arg11.IsWhole) (hc0 : cond0_0 i)
    (x0 : Vec F S1024x2048 .bf16) (x1 : Vec F S640x2048 .bf16) (x2 : Vec F S1024x4096 .bf16) (x3 : Vec F S640x4096 .bf16) :
    out0_A_4 c i arg2 harg2 arg3 harg3 arg4 harg4 arg5 harg5 arg6 harg6 arg7 harg7 arg8 harg8 arg9 harg9 arg10 harg10 arg11 harg11 hc0 x0 x1 x2 x3 = k0_pay13 x0 x1 (k0_pay6 (F := F)) := by
  unfold out0_A_4
  rw [View.read_writes_eq_canon _ _ _ (cover0_A_4 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [View.canon_cons_unit_zero (S := S1024x1) hz]
  simp only [View.readCov_unit_zero (S := S1024x1) _ hz, View.readAt_eq_ld, harg2.read_unread, harg3.read_unread,
    harg4.read_unread, harg5.read_unread, harg6.read_unread, harg7.read_unread, harg8.read_unread, harg9.read_unread,
    View.ld_unit_zero (S := S1024x2048) hz, View.ld_unit_zero (S := S640x2048) hz, View.ld_unit_zero (S := S1024x4096) hz,
    View.ld_unit_zero (S := S640x4096) hz, View.ld_unit_zero (S := S1024x1) hz]

/-- Case A (first stretch of a row block), output 5. -/
theorem out_A_5 (c : Dev nD) (i : grid0.Coords) (arg2 : Memref sig .tc .vmem S1024x2048 .bf16) (harg2 : arg2.IsWhole) (arg3 : Memref sig .tc .vmem S640x2048 .bf16) (harg3 : arg3.IsWhole) (arg4 : Memref sig .tc .vmem S1024x4096 .bf16) (harg4 : arg4.IsWhole) (arg5 : Memref sig .tc .vmem S640x4096 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x640 .bf16) (harg10 : arg10.IsWhole) (arg11 : Memref sig .tc .vmem S1024x640 .bf16) (harg11 : arg11.IsWhole) (hc0 : cond0_0 i)
    (x0 : Vec F S1024x2048 .bf16) (x1 : Vec F S640x2048 .bf16) (x2 : Vec F S1024x4096 .bf16) (x3 : Vec F S640x4096 .bf16) :
    out0_A_5 c i arg2 harg2 arg3 harg3 arg4 harg4 arg5 harg5 arg6 harg6 arg7 harg7 arg8 harg8 arg9 harg9 arg10 harg10 arg11 harg11 hc0 x0 x1 x2 x3 = k0_pay14 x0 x1 (k0_pay6 (F := F)) (k0_pay7 (F := F)) := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [View.canon_cons_unit_zero (S := S1024x1) hz]
  simp only [View.readCov_unit_zero (S := S1024x1) _ hz, View.readAt_eq_ld, harg2.read_unread, harg3.read_unread,
    harg4.read_unread, harg5.read_unread, harg6.read_unread, harg7.read_unread, harg8.read_unread, harg9.read_unread,
    View.ld_unit_zero (S := S1024x2048) hz, View.ld_unit_zero (S := S640x2048) hz, View.ld_unit_zero (S := S1024x4096) hz,
    View.ld_unit_zero (S := S640x4096) hz, View.ld_unit_zero (S := S1024x1) hz]

/-- Case A (first stretch of a row block), output 6. -/
theorem out_A_6 (c : Dev nD) (i : grid0.Coords) (arg2 : Memref sig .tc .vmem S1024x2048 .bf16) (harg2 : arg2.IsWhole) (arg3 : Memref sig .tc .vmem S640x2048 .bf16) (harg3 : arg3.IsWhole) (arg4 : Memref sig .tc .vmem S1024x4096 .bf16) (harg4 : arg4.IsWhole) (arg5 : Memref sig .tc .vmem S640x4096 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x640 .bf16) (harg10 : arg10.IsWhole) (arg11 : Memref sig .tc .vmem S1024x640 .bf16) (harg11 : arg11.IsWhole) (hc0 : cond0_0 i)
    (x0 : Vec F S1024x2048 .bf16) (x1 : Vec F S640x2048 .bf16) (x2 : Vec F S1024x4096 .bf16) (x3 : Vec F S640x4096 .bf16) :
    out0_A_6 c i arg2 harg2 arg3 harg3 arg4 harg4 arg5 harg5 arg6 harg6 arg7 harg7 arg8 harg8 arg9 harg9 arg10 harg10 arg11 harg11 hc0 x0 x1 x2 x3 = k0_pay2 (k0_pay11 x2 x3) (k0_pay8 (F := F)) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [View.canon_cons_unit_zero (S := S1024x1) hz]
  simp only [View.readCov_unit_zero (S := S1024x1) _ hz, View.readAt_eq_ld, harg2.read_unread, harg3.read_unread,
    harg4.read_unread, harg5.read_unread, harg6.read_unread, harg7.read_unread, harg8.read_unread, harg9.read_unread,
    View.ld_unit_zero (S := S1024x2048) hz, View.ld_unit_zero (S := S640x2048) hz, View.ld_unit_zero (S := S1024x4096) hz,
    View.ld_unit_zero (S := S640x4096) hz, View.ld_unit_zero (S := S1024x1) hz]

/-- Case A (first stretch of a row block), output 7. -/
theorem out_A_7 (c : Dev nD) (i : grid0.Coords) (arg2 : Memref sig .tc .vmem S1024x2048 .bf16) (harg2 : arg2.IsWhole) (arg3 : Memref sig .tc .vmem S640x2048 .bf16) (harg3 : arg3.IsWhole) (arg4 : Memref sig .tc .vmem S1024x4096 .bf16) (harg4 : arg4.IsWhole) (arg5 : Memref sig .tc .vmem S640x4096 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x640 .bf16) (harg10 : arg10.IsWhole) (arg11 : Memref sig .tc .vmem S1024x640 .bf16) (harg11 : arg11.IsWhole) (hc0 : cond0_0 i)
    (x0 : Vec F S1024x2048 .bf16) (x1 : Vec F S640x2048 .bf16) (x2 : Vec F S1024x4096 .bf16) (x3 : Vec F S640x4096 .bf16) :
    out0_A_7 c i arg2 harg2 arg3 harg3 arg4 harg4 arg5 harg5 arg6 harg6 arg7 harg7 arg8 harg8 arg9 harg9 arg10 harg10 arg11 harg11 hc0 x0 x1 x2 x3 = k0_pay3 (k0_pay11 x2 x3) (k0_pay8 (F := F)) (k0_pay9 (F := F)) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [View.canon_cons_unit_zero (S := S1024x1) hz]
  simp only [View.readCov_unit_zero (S := S1024x1) _ hz, View.readAt_eq_ld, harg2.read_unread, harg3.read_unread,
    harg4.read_unread, harg5.read_unread, harg6.read_unread, harg7.read_unread, harg8.read_unread, harg9.read_unread,
    View.ld_unit_zero (S := S1024x2048) hz, View.ld_unit_zero (S := S640x2048) hz, View.ld_unit_zero (S := S1024x4096) hz,
    View.ld_unit_zero (S := S640x4096) hz, View.ld_unit_zero (S := S1024x1) hz]

/-- Case A (first stretch of a row block), output 8. -/
theorem out_A_8 (c : Dev nD) (i : grid0.Coords) (arg2 : Memref sig .tc .vmem S1024x2048 .bf16) (harg2 : arg2.IsWhole) (arg3 : Memref sig .tc .vmem S640x2048 .bf16) (harg3 : arg3.IsWhole) (arg4 : Memref sig .tc .vmem S1024x4096 .bf16) (harg4 : arg4.IsWhole) (arg5 : Memref sig .tc .vmem S640x4096 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x640 .bf16) (harg10 : arg10.IsWhole) (arg11 : Memref sig .tc .vmem S1024x640 .bf16) (harg11 : arg11.IsWhole) (hc0 : cond0_0 i)
    (x0 : Vec F S1024x2048 .bf16) (x1 : Vec F S640x2048 .bf16) (x2 : Vec F S1024x4096 .bf16) (x3 : Vec F S640x4096 .bf16) :
    out0_A_8 c i arg2 harg2 arg3 harg3 arg4 harg4 arg5 harg5 arg6 harg6 arg7 harg7 arg8 harg8 arg9 harg9 arg10 harg10 arg11 harg11 hc0 x0 x1 x2 x3 = k0_pay4 (k0_pay10 x0 x1) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [View.canon_unit_zero (S := S1024x640) hz]
  simp only [View.readCov_unit_zero (S := S1024x1) _ hz, View.readAt_eq_ld, harg2.read_unread, harg3.read_unread,
    harg4.read_unread, harg5.read_unread, harg6.read_unread, harg7.read_unread, harg8.read_unread, harg9.read_unread,
    View.ld_unit_zero (S := S1024x2048) hz, View.ld_unit_zero (S := S640x2048) hz, View.ld_unit_zero (S := S1024x4096) hz,
    View.ld_unit_zero (S := S640x4096) hz, View.ld_unit_zero (S := S1024x1) hz]

/-- Case A (first stretch of a row block), output 9. -/
theorem out_A_9 (c : Dev nD) (i : grid0.Coords) (arg2 : Memref sig .tc .vmem S1024x2048 .bf16) (harg2 : arg2.IsWhole) (arg3 : Memref sig .tc .vmem S640x2048 .bf16) (harg3 : arg3.IsWhole) (arg4 : Memref sig .tc .vmem S1024x4096 .bf16) (harg4 : arg4.IsWhole) (arg5 : Memref sig .tc .vmem S640x4096 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x640 .bf16) (harg10 : arg10.IsWhole) (arg11 : Memref sig .tc .vmem S1024x640 .bf16) (harg11 : arg11.IsWhole) (hc0 : cond0_0 i)
    (x0 : Vec F S1024x2048 .bf16) (x1 : Vec F S640x2048 .bf16) (x2 : Vec F S1024x4096 .bf16) (x3 : Vec F S640x4096 .bf16) :
    out0_A_9 c i arg2 harg2 arg3 harg3 arg4 harg4 arg5 harg5 arg6 harg6 arg7 harg7 arg8 harg8 arg9 harg9 arg10 harg10 arg11 harg11 hc0 x0 x1 x2 x3 = k0_pay5 (k0_pay11 x2 x3) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [View.canon_unit_zero (S := S1024x640) hz]
  simp only [View.readCov_unit_zero (S := S1024x1) _ hz, View.readAt_eq_ld, harg2.read_unread, harg3.read_unread,
    harg4.read_unread, harg5.read_unread, harg6.read_unread, harg7.read_unread, harg8.read_unread, harg9.read_unread,
    View.ld_unit_zero (S := S1024x2048) hz, View.ld_unit_zero (S := S640x2048) hz, View.ld_unit_zero (S := S1024x4096) hz,
    View.ld_unit_zero (S := S640x4096) hz, View.ld_unit_zero (S := S1024x1) hz]

/-- Case B (a later stretch), output 4. -/
theorem out_B_4 (c : Dev nD) (i : grid0.Coords) (arg2 : Memref sig .tc .vmem S1024x2048 .bf16) (harg2 : arg2.IsWhole) (arg3 : Memref sig .tc .vmem S640x2048 .bf16) (harg3 : arg3.IsWhole) (arg4 : Memref sig .tc .vmem S1024x4096 .bf16) (harg4 : arg4.IsWhole) (arg5 : Memref sig .tc .vmem S640x4096 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x640 .bf16) (harg10 : arg10.IsWhole) (arg11 : Memref sig .tc .vmem S1024x640 .bf16) (harg11 : arg11.IsWhole) (hc0 : ¬cond0_0 i)
    (x0 : Vec F S1024x2048 .bf16) (x1 : Vec F S640x2048 .bf16) (x2 : Vec F S1024x4096 .bf16) (x3 : Vec F S640x4096 .bf16) (xo4 : Vec F S1024x1 .f32) (xo5 : Vec F S1024x1 .f32) (xo6 : Vec F S1024x1 .f32) (xo7 : Vec F S1024x1 .f32) :
    out0_B_4 c i arg2 harg2 arg3 harg3 arg4 harg4 arg5 harg5 arg6 harg6 arg7 harg7 arg8 harg8 arg9 harg9 arg10 harg10 arg11 harg11 hc0 x0 x1 x2 x3 xo4 xo5 xo6 xo7 = k0_pay13 x0 x1 xo4 := by
  unfold out0_B_4
  rw [View.read_writes_eq_canon _ _ _ (cover0_B_4 c i arg2 harg2 arg3 harg3 arg4 harg4 arg5 harg5 arg6 harg6 arg7 harg7 arg8 harg8 arg9 harg9 arg10 harg10 arg11 harg11 hc0 x0 x1 x2 x3 xo4 xo5 xo6 xo7)]
  unfold kernelRun0_B
  dsimp only
  rw [View.canon_unit_zero (S := S1024x1) hz]
  simp only [View.readCov_unit_zero (S := S1024x1) _ hz, View.readAt_eq_ld, harg2.read_unread, harg3.read_unread,
    harg4.read_unread, harg5.read_unread, harg6.read_unread, harg7.read_unread, harg8.read_unread, harg9.read_unread,
    View.ld_unit_zero (S := S1024x2048) hz, View.ld_unit_zero (S := S640x2048) hz, View.ld_unit_zero (S := S1024x4096) hz,
    View.ld_unit_zero (S := S640x4096) hz, View.ld_unit_zero (S := S1024x1) hz]

/-- Case B (a later stretch), output 5. -/
theorem out_B_5 (c : Dev nD) (i : grid0.Coords) (arg2 : Memref sig .tc .vmem S1024x2048 .bf16) (harg2 : arg2.IsWhole) (arg3 : Memref sig .tc .vmem S640x2048 .bf16) (harg3 : arg3.IsWhole) (arg4 : Memref sig .tc .vmem S1024x4096 .bf16) (harg4 : arg4.IsWhole) (arg5 : Memref sig .tc .vmem S640x4096 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x640 .bf16) (harg10 : arg10.IsWhole) (arg11 : Memref sig .tc .vmem S1024x640 .bf16) (harg11 : arg11.IsWhole) (hc0 : ¬cond0_0 i)
    (x0 : Vec F S1024x2048 .bf16) (x1 : Vec F S640x2048 .bf16) (x2 : Vec F S1024x4096 .bf16) (x3 : Vec F S640x4096 .bf16) (xo4 : Vec F S1024x1 .f32) (xo5 : Vec F S1024x1 .f32) (xo6 : Vec F S1024x1 .f32) (xo7 : Vec F S1024x1 .f32) :
    out0_B_5 c i arg2 harg2 arg3 harg3 arg4 harg4 arg5 harg5 arg6 harg6 arg7 harg7 arg8 harg8 arg9 harg9 arg10 harg10 arg11 harg11 hc0 x0 x1 x2 x3 xo4 xo5 xo6 xo7 = k0_pay14 x0 x1 xo4 xo5 := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 hc0 x0 x1 x2 x3 xo4 xo5 xo6 xo7)]
  unfold kernelRun0_B
  dsimp only
  rw [View.canon_unit_zero (S := S1024x1) hz]
  simp only [View.readCov_unit_zero (S := S1024x1) _ hz, View.readAt_eq_ld, harg2.read_unread, harg3.read_unread,
    harg4.read_unread, harg5.read_unread, harg6.read_unread, harg7.read_unread, harg8.read_unread, harg9.read_unread,
    View.ld_unit_zero (S := S1024x2048) hz, View.ld_unit_zero (S := S640x2048) hz, View.ld_unit_zero (S := S1024x4096) hz,
    View.ld_unit_zero (S := S640x4096) hz, View.ld_unit_zero (S := S1024x1) hz]

/-- Case B (a later stretch), output 6. -/
theorem out_B_6 (c : Dev nD) (i : grid0.Coords) (arg2 : Memref sig .tc .vmem S1024x2048 .bf16) (harg2 : arg2.IsWhole) (arg3 : Memref sig .tc .vmem S640x2048 .bf16) (harg3 : arg3.IsWhole) (arg4 : Memref sig .tc .vmem S1024x4096 .bf16) (harg4 : arg4.IsWhole) (arg5 : Memref sig .tc .vmem S640x4096 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x640 .bf16) (harg10 : arg10.IsWhole) (arg11 : Memref sig .tc .vmem S1024x640 .bf16) (harg11 : arg11.IsWhole) (hc0 : ¬cond0_0 i)
    (x0 : Vec F S1024x2048 .bf16) (x1 : Vec F S640x2048 .bf16) (x2 : Vec F S1024x4096 .bf16) (x3 : Vec F S640x4096 .bf16) (xo4 : Vec F S1024x1 .f32) (xo5 : Vec F S1024x1 .f32) (xo6 : Vec F S1024x1 .f32) (xo7 : Vec F S1024x1 .f32) :
    out0_B_6 c i arg2 harg2 arg3 harg3 arg4 harg4 arg5 harg5 arg6 harg6 arg7 harg7 arg8 harg8 arg9 harg9 arg10 harg10 arg11 harg11 hc0 x0 x1 x2 x3 xo4 xo5 xo6 xo7 = k0_pay2 (k0_pay11 x2 x3) xo6 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 hc0 x0 x1 x2 x3 xo4 xo5 xo6 xo7)]
  unfold kernelRun0_B
  dsimp only
  sl_unfold_words
  rw [View.canon_unit_zero (S := S1024x1) hz]
  simp only [View.readCov_unit_zero (S := S1024x1) _ hz, View.readAt_eq_ld, harg2.read_unread, harg3.read_unread,
    harg4.read_unread, harg5.read_unread, harg6.read_unread, harg7.read_unread, harg8.read_unread, harg9.read_unread,
    View.ld_unit_zero (S := S1024x2048) hz, View.ld_unit_zero (S := S640x2048) hz, View.ld_unit_zero (S := S1024x4096) hz,
    View.ld_unit_zero (S := S640x4096) hz, View.ld_unit_zero (S := S1024x1) hz]

/-- Case B (a later stretch), output 7. -/
theorem out_B_7 (c : Dev nD) (i : grid0.Coords) (arg2 : Memref sig .tc .vmem S1024x2048 .bf16) (harg2 : arg2.IsWhole) (arg3 : Memref sig .tc .vmem S640x2048 .bf16) (harg3 : arg3.IsWhole) (arg4 : Memref sig .tc .vmem S1024x4096 .bf16) (harg4 : arg4.IsWhole) (arg5 : Memref sig .tc .vmem S640x4096 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x640 .bf16) (harg10 : arg10.IsWhole) (arg11 : Memref sig .tc .vmem S1024x640 .bf16) (harg11 : arg11.IsWhole) (hc0 : ¬cond0_0 i)
    (x0 : Vec F S1024x2048 .bf16) (x1 : Vec F S640x2048 .bf16) (x2 : Vec F S1024x4096 .bf16) (x3 : Vec F S640x4096 .bf16) (xo4 : Vec F S1024x1 .f32) (xo5 : Vec F S1024x1 .f32) (xo6 : Vec F S1024x1 .f32) (xo7 : Vec F S1024x1 .f32) :
    out0_B_7 c i arg2 harg2 arg3 harg3 arg4 harg4 arg5 harg5 arg6 harg6 arg7 harg7 arg8 harg8 arg9 harg9 arg10 harg10 arg11 harg11 hc0 x0 x1 x2 x3 xo4 xo5 xo6 xo7 = k0_pay3 (k0_pay11 x2 x3) xo6 xo7 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 xo4 xo5 xo6 xo7)]
  unfold kernelRun0_B
  dsimp only
  sl_unfold_words
  rw [View.canon_unit_zero (S := S1024x1) hz]
  simp only [View.readCov_unit_zero (S := S1024x1) _ hz, View.readAt_eq_ld, harg2.read_unread, harg3.read_unread,
    harg4.read_unread, harg5.read_unread, harg6.read_unread, harg7.read_unread, harg8.read_unread, harg9.read_unread,
    View.ld_unit_zero (S := S1024x2048) hz, View.ld_unit_zero (S := S640x2048) hz, View.ld_unit_zero (S := S1024x4096) hz,
    View.ld_unit_zero (S := S640x4096) hz, View.ld_unit_zero (S := S1024x1) hz]

/-- Case B (a later stretch), output 8. -/
theorem out_B_8 (c : Dev nD) (i : grid0.Coords) (arg2 : Memref sig .tc .vmem S1024x2048 .bf16) (harg2 : arg2.IsWhole) (arg3 : Memref sig .tc .vmem S640x2048 .bf16) (harg3 : arg3.IsWhole) (arg4 : Memref sig .tc .vmem S1024x4096 .bf16) (harg4 : arg4.IsWhole) (arg5 : Memref sig .tc .vmem S640x4096 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x640 .bf16) (harg10 : arg10.IsWhole) (arg11 : Memref sig .tc .vmem S1024x640 .bf16) (harg11 : arg11.IsWhole) (hc0 : ¬cond0_0 i)
    (x0 : Vec F S1024x2048 .bf16) (x1 : Vec F S640x2048 .bf16) (x2 : Vec F S1024x4096 .bf16) (x3 : Vec F S640x4096 .bf16) (xo4 : Vec F S1024x1 .f32) (xo5 : Vec F S1024x1 .f32) (xo6 : Vec F S1024x1 .f32) (xo7 : Vec F S1024x1 .f32) :
    out0_B_8 c i arg2 harg2 arg3 harg3 arg4 harg4 arg5 harg5 arg6 harg6 arg7 harg7 arg8 harg8 arg9 harg9 arg10 harg10 arg11 harg11 hc0 x0 x1 x2 x3 xo4 xo5 xo6 xo7 = k0_pay4 (k0_pay10 x0 x1) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 xo4 xo5 xo6 xo7)]
  unfold kernelRun0_B
  dsimp only
  sl_unfold_words
  rw [View.canon_unit_zero (S := S1024x640) hz]
  simp only [View.readCov_unit_zero (S := S1024x1) _ hz, View.readAt_eq_ld, harg2.read_unread, harg3.read_unread,
    harg4.read_unread, harg5.read_unread, harg6.read_unread, harg7.read_unread, harg8.read_unread, harg9.read_unread,
    View.ld_unit_zero (S := S1024x2048) hz, View.ld_unit_zero (S := S640x2048) hz, View.ld_unit_zero (S := S1024x4096) hz,
    View.ld_unit_zero (S := S640x4096) hz, View.ld_unit_zero (S := S1024x1) hz]

/-- Case B (a later stretch), output 9. -/
theorem out_B_9 (c : Dev nD) (i : grid0.Coords) (arg2 : Memref sig .tc .vmem S1024x2048 .bf16) (harg2 : arg2.IsWhole) (arg3 : Memref sig .tc .vmem S640x2048 .bf16) (harg3 : arg3.IsWhole) (arg4 : Memref sig .tc .vmem S1024x4096 .bf16) (harg4 : arg4.IsWhole) (arg5 : Memref sig .tc .vmem S640x4096 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x640 .bf16) (harg10 : arg10.IsWhole) (arg11 : Memref sig .tc .vmem S1024x640 .bf16) (harg11 : arg11.IsWhole) (hc0 : ¬cond0_0 i)
    (x0 : Vec F S1024x2048 .bf16) (x1 : Vec F S640x2048 .bf16) (x2 : Vec F S1024x4096 .bf16) (x3 : Vec F S640x4096 .bf16) (xo4 : Vec F S1024x1 .f32) (xo5 : Vec F S1024x1 .f32) (xo6 : Vec F S1024x1 .f32) (xo7 : Vec F S1024x1 .f32) :
    out0_B_9 c i arg2 harg2 arg3 harg3 arg4 harg4 arg5 harg5 arg6 harg6 arg7 harg7 arg8 harg8 arg9 harg9 arg10 harg10 arg11 harg11 hc0 x0 x1 x2 x3 xo4 xo5 xo6 xo7 = k0_pay5 (k0_pay11 x2 x3) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 hc0 x0 x1 x2 x3 xo4 xo5 xo6 xo7)]
  unfold kernelRun0_B
  dsimp only
  sl_unfold_words
  rw [View.canon_unit_zero (S := S1024x640) hz]
  simp only [View.readCov_unit_zero (S := S1024x1) _ hz, View.readAt_eq_ld, harg2.read_unread, harg3.read_unread,
    harg4.read_unread, harg5.read_unread, harg6.read_unread, harg7.read_unread, harg8.read_unread, harg9.read_unread,
    View.ld_unit_zero (S := S1024x2048) hz, View.ld_unit_zero (S := S640x2048) hz, View.ld_unit_zero (S := S1024x4096) hz,
    View.ld_unit_zero (S := S640x4096) hz, View.ld_unit_zero (S := S1024x1) hz]

end Cert.KernelIdeal.R0

end
-- ==== Proof.R0Blocks.lean ====
/-
  An input block of the first kernel, read at coordinates.  The grid has 4 row blocks of 1024 token rows and,
  inside each, 50 stretches of 640 vocabulary entries; grid position n is row block n / 50, stretch n % 50.
  The two activation windows (student, teacher) move with the row block and always take the whole hidden axis;
  the two weight windows move with the stretch.  So row p of an activation block at position n is token row
  1024 * (n / 50) + p of the array, and row q of a weight block is vocabulary row 640 * (n % 50) + q.
-/
import proofs.«178291_j71159018160659_2_alg».proof.Proof.Gen.KernelIdeal.Frame
import proofs.«178291_j71159018160659_2_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.R0

open Cert.KernelIdeal Cert.KernelIdeal.Gen

variable {F : FTy → Type} [FloatOps F]
variable (V : (c : Dev nD) → (b : Ref sig .tc) → Buf (Elt F) ((c : Thread nD τ).loc b))

/-- The two activation windows sit at row block n / 50 of their array at position n and take the whole hidden
    axis; the two weight windows sit at vocabulary stretch n % 50. -/
theorem idx_in0 : ∀ t : Fin cfg0.N, win0_0.index t (0 : Fin 2) = t.val / 50 ∧ win0_0.index t (1 : Fin 2) = 0 :=
  (by decide +kernel : ∀ t : Fin grid0.N, win0_0.index t (0 : Fin 2) = t.val / 50 ∧ win0_0.index t (1 : Fin 2) = 0)
theorem idx_in1 : ∀ t : Fin cfg0.N, win0_1.index t (0 : Fin 2) = t.val % 50 ∧ win0_1.index t (1 : Fin 2) = 0 :=
  (by decide +kernel : ∀ t : Fin grid0.N, win0_1.index t (0 : Fin 2) = t.val % 50 ∧ win0_1.index t (1 : Fin 2) = 0)
theorem idx_in2 : ∀ t : Fin cfg0.N, win0_2.index t (0 : Fin 2) = t.val / 50 ∧ win0_2.index t (1 : Fin 2) = 0 :=
  (by decide +kernel : ∀ t : Fin grid0.N, win0_2.index t (0 : Fin 2) = t.val / 50 ∧ win0_2.index t (1 : Fin 2) = 0)
theorem idx_in3 : ∀ t : Fin cfg0.N, win0_3.index t (0 : Fin 2) = t.val % 50 ∧ win0_3.index t (1 : Fin 2) = 0 :=
  (by decide +kernel : ∀ t : Fin grid0.N, win0_3.index t (0 : Fin 2) = t.val % 50 ∧ win0_3.index t (1 : Fin 2) = 0)

/-- Window 0: row p of the block is token row 1024 * (n / 50) + p. -/
theorem blk_0 (c : Dev nD) (t : Fin cfg0.N) (hn : t.val < 200) (p : Fin 1024) (k : Fin 2048) :
    (iblk0 V c 0 t : Vec F S1024x2048 .bf16) (ix2 p k) = V c main_v0 (ix2 (Cert.JSD.rowOf t.val hn p) k) := by
  obtain ⟨e0, e1⟩ := idx_in0 t
  show V c main_v0 (((cfg0.win 0).blk t).view.emb (ix2 p k)) = V c main_v0 (ix2 (Cert.JSD.rowOf t.val hn p) k)
  refine congrArg (V c main_v0) ?_
  funext a
  apply Fin.ext
  match a with
  | ⟨0, _⟩ =>
    show win0_0.index t (0 : Fin 2) * 1024 + 1 * p.val = 1024 * (t.val / 50) + p.val
    rw [e0]; omega
  | ⟨1, _⟩ =>
    show win0_0.index t (1 : Fin 2) * 2048 + 1 * k.val = k.val
    rw [e1]; omega

/-- Window 1: row q of the block is vocabulary row 640 * (n % 50) + q. -/
theorem blk_1 (c : Dev nD) (t : Fin cfg0.N) (hn : t.val < 200) (q : Fin 640) (k : Fin 2048) :
    (iblk0 V c 1 t : Vec F S640x2048 .bf16) (ix2 q k) = V c main_v2 (ix2 (Cert.JSD.colOf t.val q) k) := by
  obtain ⟨e0, e1⟩ := idx_in1 t
  show V c main_v2 (((cfg0.win 1).blk t).view.emb (ix2 q k)) = V c main_v2 (ix2 (Cert.JSD.colOf t.val q) k)
  refine congrArg (V c main_v2) ?_
  funext a
  apply Fin.ext
  match a with
  | ⟨0, _⟩ =>
    show win0_1.index t (0 : Fin 2) * 640 + 1 * q.val = 640 * (t.val % 50) + q.val
    rw [e0]; omega
  | ⟨1, _⟩ =>
    show win0_1.index t (1 : Fin 2) * 2048 + 1 * k.val = k.val
    rw [e1]; omega

/-- Window 2: row p of the block is token row 1024 * (n / 50) + p. -/
theorem blk_2 (c : Dev nD) (t : Fin cfg0.N) (hn : t.val < 200) (p : Fin 1024) (k : Fin 4096) :
    (iblk0 V c 2 t : Vec F S1024x4096 .bf16) (ix2 p k) = V c main_v1 (ix2 (Cert.JSD.rowOf t.val hn p) k) := by
  obtain ⟨e0, e1⟩ := idx_in2 t
  show V c main_v1 (((cfg0.win 2).blk t).view.emb (ix2 p k)) = V c main_v1 (ix2 (Cert.JSD.rowOf t.val hn p) k)
  refine congrArg (V c main_v1) ?_
  funext a
  apply Fin.ext
  match a with
  | ⟨0, _⟩ =>
    show win0_2.index t (0 : Fin 2) * 1024 + 1 * p.val = 1024 * (t.val / 50) + p.val
    rw [e0]; omega
  | ⟨1, _⟩ =>
    show win0_2.index t (1 : Fin 2) * 4096 + 1 * k.val = k.val
    rw [e1]; omega

/-- Window 3: row q of the block is vocabulary row 640 * (n % 50) + q. -/
theorem blk_3 (c : Dev nD) (t : Fin cfg0.N) (hn : t.val < 200) (q : Fin 640) (k : Fin 4096) :
    (iblk0 V c 3 t : Vec F S640x4096 .bf16) (ix2 q k) = V c main_v3 (ix2 (Cert.JSD.colOf t.val q) k) := by
  obtain ⟨e0, e1⟩ := idx_in3 t
  show V c main_v3 (((cfg0.win 3).blk t).view.emb (ix2 q k)) = V c main_v3 (ix2 (Cert.JSD.colOf t.val q) k)
  refine congrArg (V c main_v3) ?_
  funext a
  apply Fin.ext
  match a with
  | ⟨0, _⟩ =>
    show win0_3.index t (0 : Fin 2) * 640 + 1 * q.val = 640 * (t.val % 50) + q.val
    rw [e0]; omega
  | ⟨1, _⟩ =>
    show win0_3.index t (1 : Fin 2) * 4096 + 1 * k.val = k.val
    rw [e1]; omega

end Cert.KernelIdeal.R0

end
-- ==== Proof.R0Pay.lean ====
/-
  The arithmetic of one grid point of the statistics kernel, read entry by entry at the extended reals.
  A tile of logits is the inner product of an activation row with a weight row; the two carried columns are
  updated as an online softmax: the new running maximum is the larger of the old one and the tile row's
  largest entry, and the new running sum is the old one rescaled by exp (old maximum - new maximum) plus the
  tile row's exponentials shifted by the new maximum.  At stretch 0 the columns are reset to the bottom
  element and to zero.  A change of float format is the identity here.
-/
import proofs.«178291_j71159018160659_2_alg».proof.Proof.Gen.KernelIdeal.Skeleton
import proofs.«178291_j71159018160659_2_alg».proof.Proof.Spec
import proofs.«178291_j71159018160659_2_alg».proof.Proof.LibLayout

noncomputable section

namespace Cert.KernelIdeal.R0

open Idealize.ShloMosaic Idealize.ShloMosaic.ValueIdx Cert.KernelIdeal Cert.KernelIdeal.Gen

/-- The word of -inf denotes the bottom element. -/
theorem ofBits_neg_inf : Ideal.ofBits .f32 0xFF800000#32 = ⊥ := by
  simp [Ideal.ofBits, Ideal.ieee]

/-- At the extended reals the maximum of an [a, b] array along its second axis, started from -inf and read at
    row p, is the supremum over the b entries of that row. -/
theorem lane_max_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = Finset.univ.sup fun l : Fin b => src (ix2 p l) := by
  refine (Ideal.multiReduction_maximumf_single src 0xFF800000#32 h hφ hacc (ix1 p)).trans ?_
  show (Finset.univ : Finset (Fin b)).fold max (Ideal.ofBits .f32 0xFF800000#32) (fun l => src (h.lift (ix1 p) l)) = _
  rw [ofBits_neg_inf]
  show Finset.univ.sup (fun l : Fin b => src (h.lift (ix1 p) l)) = _
  refine congrArg (Finset.univ.sup) (funext fun l => congrArg src ?_)
  funext d
  apply Fin.ext
  match d with
  | ⟨0, _⟩ => rfl
  | ⟨1, _⟩ => rfl

/-- A column re-read in its own shape, at (p, u), is the column at (p, 0). -/
theorem col_apply {α : Type} (v : (⟨2, ![1024, 1]⟩ : Shape).Idx → α)
    (h : (⟨2, ![1024, 1]⟩ : Shape).ShapeCasts ⟨2, ![1024, 1]⟩) (p : Fin 1024) (q1 : Fin 1) :
    shapeCast ⟨2, ![1024, 1]⟩ v h (ix2 p q1) = v (ix2 p (0 : Fin 1)) := by
  rw [shapeCast_self]
  obtain rfl : q1 = 0 := Subsingleton.elim _ _
  rfl

/-- One entry of a logits tile: row p of the activation block against row q of the weight block. -/
def blkLogit {K : ℕ} (x : FVec Ideal ⟨2, ![1024, K]⟩ .bf16) (w : FVec Ideal ⟨2, ![640, K]⟩ .bf16)
    (p : Fin 1024) (q : Fin 640) : EReal := ∑ k : Fin K, x (ix2 p k) * w (ix2 q k)

/-! ## The two matrix products -/

theorem lhs10_0 (i : S1024x640.Idx) (c : dot_S1024x2048_S640x2048_S1024x640_1_1_0_0_n_n.contr.Idx) : (dot_S1024x2048_S640x2048_S1024x640_1_1_0_0_n_n.lhsIdx i c 0).val = (i 0).val := by
  unfold DotDims.lhsIdx
  rw [dif_neg (show ¬(0 : Fin S1024x2048.rank) ∈ dot_S1024x2048_S640x2048_S1024x640_1_1_0_0_n_n.lhsBatch by decide),
    dif_pos (show (0 : Fin S1024x2048.rank) ∈ dot_S1024x2048_S640x2048_S1024x640_1_1_0_0_n_n.lhsNonContracting by decide)]
  rfl

theorem rhs10_0 (i : S1024x640.Idx) (c : dot_S1024x2048_S640x2048_S1024x640_1_1_0_0_n_n.contr.Idx) : (dot_S1024x2048_S640x2048_S1024x640_1_1_0_0_n_n.rhsIdx i c 0).val = (i 1).val := by
  unfold DotDims.rhsIdx
  rw [dif_neg (show ¬(0 : Fin S640x2048.rank) ∈ dot_S1024x2048_S640x2048_S1024x640_1_1_0_0_n_n.rhsBatch by decide),
    dif_pos (show (0 : Fin S640x2048.rank) ∈ dot_S1024x2048_S640x2048_S1024x640_1_1_0_0_n_n.rhsNonContracting by decide)]
  rfl

/-- The tile entry (p, q) of the product onto a zero accumulator is the inner product of row p of the
    activation block with row q of the weight block, over the 2048 hidden coordinates. -/
theorem pay10_apply (x0 : FVec Ideal S1024x2048 .bf16) (x1 : FVec Ideal S640x2048 .bf16) (p : Fin 1024) (q : Fin 640) :
    k0_pay10 (F := Ideal) x0 x1 (ix2 p q) = blkLogit x0 x1 p q := by
  unfold k0_pay10 blkLogit
  simp only [shapeCast_self]
  refine (Ideal.matmul_constant_zero_apply (φ₁ := .bf16) (φ₂ := .bf16) dot_S1024x2048_S640x2048_S1024x640_1_1_0_0_n_n none x0 x1 (ix2 p q)).trans ?_
  rw [← Equiv.sum_comp (contrEquiv1 dot_S1024x2048_S640x2048_S1024x640_1_1_0_0_n_n 2048 rfl rfl).symm]
  refine Finset.sum_congr rfl fun k _ => ?_
  have hk := contrEquiv1_symm_val dot_S1024x2048_S640x2048_S1024x640_1_1_0_0_n_n 2048 rfl rfl k
  have el : dot_S1024x2048_S640x2048_S1024x640_1_1_0_0_n_n.lhsIdx (ix2 p q) ((contrEquiv1 dot_S1024x2048_S640x2048_S1024x640_1_1_0_0_n_n 2048 rfl rfl).symm k) = ix2 p k :=
    funext fun a => Fin.ext (by
      match a with
      | ⟨0, _⟩ => exact lhs10_0 _ _
      | ⟨1, _⟩ => exact (dot_S1024x2048_S640x2048_S1024x640_1_1_0_0_n_n.lhsIdx_val_of_single rfl _ _).trans hk)
  have er : dot_S1024x2048_S640x2048_S1024x640_1_1_0_0_n_n.rhsIdx (ix2 p q) ((contrEquiv1 dot_S1024x2048_S640x2048_S1024x640_1_1_0_0_n_n 2048 rfl rfl).symm k) = ix2 q k :=
    funext fun a => Fin.ext (by
      match a with
      | ⟨0, _⟩ => exact rhs10_0 _ _
      | ⟨1, _⟩ => exact (dot_S1024x2048_S640x2048_S1024x640_1_1_0_0_n_n.rhsIdx_val_of_single rfl _ _).trans hk)
  rw [el, er]

theorem lhs11_0 (i : S1024x640.Idx) (c : dot_S1024x4096_S640x4096_S1024x640_1_1_0_0_n_n.contr.Idx) : (dot_S1024x4096_S640x4096_S1024x640_1_1_0_0_n_n.lhsIdx i c 0).val = (i 0).val := by
  unfold DotDims.lhsIdx
  rw [dif_neg (show ¬(0 : Fin S1024x4096.rank) ∈ dot_S1024x4096_S640x4096_S1024x640_1_1_0_0_n_n.lhsBatch by decide),
    dif_pos (show (0 : Fin S1024x4096.rank) ∈ dot_S1024x4096_S640x4096_S1024x640_1_1_0_0_n_n.lhsNonContracting by decide)]
  rfl

theorem rhs11_0 (i : S1024x640.Idx) (c : dot_S1024x4096_S640x4096_S1024x640_1_1_0_0_n_n.contr.Idx) : (dot_S1024x4096_S640x4096_S1024x640_1_1_0_0_n_n.rhsIdx i c 0).val = (i 1).val := by
  unfold DotDims.rhsIdx
  rw [dif_neg (show ¬(0 : Fin S640x4096.rank) ∈ dot_S1024x4096_S640x4096_S1024x640_1_1_0_0_n_n.rhsBatch by decide),
    dif_pos (show (0 : Fin S640x4096.rank) ∈ dot_S1024x4096_S640x4096_S1024x640_1_1_0_0_n_n.rhsNonContracting by decide)]
  rfl

/-- The tile entry (p, q) of the product onto a zero accumulator is the inner product of row p of the
    activation block with row q of the weight block, over the 4096 hidden coordinates. -/
theorem pay11_apply (x0 : FVec Ideal S1024x4096 .bf16) (x1 : FVec Ideal S640x4096 .bf16) (p : Fin 1024) (q : Fin 640) :
    k0_pay11 (F := Ideal) x0 x1 (ix2 p q) = blkLogit x0 x1 p q := by
  unfold k0_pay11 blkLogit
  simp only [shapeCast_self]
  refine (Ideal.matmul_constant_zero_apply (φ₁ := .bf16) (φ₂ := .bf16) dot_S1024x4096_S640x4096_S1024x640_1_1_0_0_n_n none x0 x1 (ix2 p q)).trans ?_
  rw [← Equiv.sum_comp (contrEquiv1 dot_S1024x4096_S640x4096_S1024x640_1_1_0_0_n_n 4096 rfl rfl).symm]
  refine Finset.sum_congr rfl fun k _ => ?_
  have hk := contrEquiv1_symm_val dot_S1024x4096_S640x4096_S1024x640_1_1_0_0_n_n 4096 rfl rfl k
  have el : dot_S1024x4096_S640x4096_S1024x640_1_1_0_0_n_n.lhsIdx (ix2 p q) ((contrEquiv1 dot_S1024x4096_S640x4096_S1024x640_1_1_0_0_n_n 4096 rfl rfl).symm k) = ix2 p k :=
    funext fun a => Fin.ext (by
      match a with
      | ⟨0, _⟩ => exact lhs11_0 _ _
      | ⟨1, _⟩ => exact (dot_S1024x4096_S640x4096_S1024x640_1_1_0_0_n_n.lhsIdx_val_of_single rfl _ _).trans hk)
  have er : dot_S1024x4096_S640x4096_S1024x640_1_1_0_0_n_n.rhsIdx (ix2 p q) ((contrEquiv1 dot_S1024x4096_S640x4096_S1024x640_1_1_0_0_n_n 4096 rfl rfl).symm k) = ix2 q k :=
    funext fun a => Fin.ext (by
      match a with
      | ⟨0, _⟩ => exact rhs11_0 _ _
      | ⟨1, _⟩ => exact (dot_S1024x4096_S640x4096_S1024x640_1_1_0_0_n_n.rhsIdx_val_of_single rfl _ _).trans hk)
  rw [el, er]

/-! ## The format changes, and the reset values -/

theorem pay4_apply (v : FVec Ideal S1024x640 .f32) (j : S1024x640.Idx) : k0_pay4 (F := Ideal) v j = v j := rfl

theorem pay5_apply (v : FVec Ideal S1024x640 .f32) (j : S1024x640.Idx) : k0_pay5 (F := Ideal) v j = v j := rfl

theorem pay6_apply (j : S1024x1.Idx) : k0_pay6 (F := Ideal) j = ⊥ := ofBits_neg_inf

theorem pay8_apply (j : S1024x1.Idx) : k0_pay8 (F := Ideal) j = ⊥ := ofBits_neg_inf

theorem pay7_apply (j : S1024x1.Idx) : k0_pay7 (F := Ideal) j = 0 := Ideal.ofBits_zero_f32

theorem pay9_apply (j : S1024x1.Idx) : k0_pay9 (F := Ideal) j = 0 := Ideal.ofBits_zero_f32

/-! ## The online-softmax step on a logits tile -/

/-- The new running maximum at row p: the larger of the old one and the tile row's largest entry. -/
theorem pay2_apply (v12 : FVec Ideal S1024x640 .f32) (o : FVec Ideal S1024x1 .f32) (p : Fin 1024) (q1 : Fin 1) :
    k0_pay2 (F := Ideal) v12 o (ix2 p q1)
      = max (o (ix2 p (0 : Fin 1))) (Finset.univ.sup fun q : Fin 640 => v12 (ix2 p q)) := by
  unfold k0_pay2 k0_pay1
  exact congrArg₂ max (col_apply o _ p q1)
    ((Cert.LibLayout.shapeCast_a_a1_apply _ _ p q1).trans (lane_max_apply v12 _ _ _ p))

/-- The new running sum at row p: the old one rescaled to the new maximum, plus the tile row's exponentials
    shifted by the new maximum. -/
theorem pay3_apply (v12 : FVec Ideal S1024x640 .f32) (o s : FVec Ideal S1024x1 .f32) (p : Fin 1024) (q1 : Fin 1) :
    k0_pay3 (F := Ideal) v12 o s (ix2 p q1)
      = s (ix2 p (0 : Fin 1))
          * Ideal.exp (o (ix2 p (0 : Fin 1)) - max (o (ix2 p (0 : Fin 1))) (Finset.univ.sup fun q : Fin 640 => v12 (ix2 p q)))
        + ∑ q : Fin 640, Ideal.exp (v12 (ix2 p q) - max (o (ix2 p (0 : Fin 1))) (Finset.univ.sup fun q : Fin 640 => v12 (ix2 p q))) := by
  unfold k0_pay3
  refine congrArg₂ (· + ·)
    (congrArg₂ (· * ·) (col_apply s _ p q1)
      (congrArg Ideal.exp (congrArg₂ (· - ·) (col_apply o _ p q1) (pay2_apply v12 o p q1))))
    ((Cert.LibLayout.shapeCast_a_a1_apply _ _ p q1).trans
      ((Cert.LibLayout.lane_sum_apply _ _ _ _ _ p).trans
        (Finset.sum_congr rfl fun l _ => congrArg Ideal.exp (congrArg₂ (· - ·) rfl
          ((Cert.LibLayout.broadcastTo_a1_ab_apply _ _ p l).trans (pay2_apply v12 o p 0))))))

/-! ## The same step on the student's tile, which the body computes in place -/

/-- The student's new running maximum at row p. -/
theorem pay13_apply (x0 : FVec Ideal S1024x2048 .bf16) (x1 : FVec Ideal S640x2048 .bf16) (o : FVec Ideal S1024x1 .f32)
    (p : Fin 1024) (q1 : Fin 1) :
    k0_pay13 (F := Ideal) x0 x1 o (ix2 p q1)
      = max (o (ix2 p (0 : Fin 1))) (Finset.univ.sup fun q : Fin 640 => blkLogit x0 x1 p q) := by
  refine (pay2_apply (k0_pay10 (F := Ideal) x0 x1) o p q1).trans ?_
  simp only [pay10_apply]

/-- The student's new running sum at row p. -/
theorem pay14_apply (x0 : FVec Ideal S1024x2048 .bf16) (x1 : FVec Ideal S640x2048 .bf16) (o s : FVec Ideal S1024x1 .f32)
    (p : Fin 1024) (q1 : Fin 1) :
    k0_pay14 (F := Ideal) x0 x1 o s (ix2 p q1)
      = s (ix2 p (0 : Fin 1))
          * Ideal.exp (o (ix2 p (0 : Fin 1)) - max (o (ix2 p (0 : Fin 1))) (Finset.univ.sup fun q : Fin 640 => blkLogit x0 x1 p q))
        + ∑ q : Fin 640, Ideal.exp (blkLogit x0 x1 p q - max (o (ix2 p (0 : Fin 1))) (Finset.univ.sup fun q : Fin 640 => blkLogit x0 x1 p q)) := by
  refine (pay3_apply (k0_pay10 (F := Ideal) x0 x1) o s p q1).trans ?_
  simp only [pay10_apply]

/-- The teacher's tile is the second product: its step in terms of the blocks. -/
theorem pay2_blk_apply (x2 : FVec Ideal S1024x4096 .bf16) (x3 : FVec Ideal S640x4096 .bf16) (o : FVec Ideal S1024x1 .f32)
    (p : Fin 1024) (q1 : Fin 1) :
    k0_pay2 (F := Ideal) (k0_pay11 (F := Ideal) x2 x3) o (ix2 p q1)
      = max (o (ix2 p (0 : Fin 1))) (Finset.univ.sup fun q : Fin 640 => blkLogit x2 x3 p q) := by
  refine (pay2_apply (k0_pay11 (F := Ideal) x2 x3) o p q1).trans ?_
  simp only [pay11_apply]

theorem pay3_blk_apply (x2 : FVec Ideal S1024x4096 .bf16) (x3 : FVec Ideal S640x4096 .bf16) (o s : FVec Ideal S1024x1 .f32)
    (p : Fin 1024) (q1 : Fin 1) :
    k0_pay3 (F := Ideal) (k0_pay11 (F := Ideal) x2 x3) o s (ix2 p q1)
      = s (ix2 p (0 : Fin 1))
          * Ideal.exp (o (ix2 p (0 : Fin 1)) - max (o (ix2 p (0 : Fin 1))) (Finset.univ.sup fun q : Fin 640 => blkLogit x2 x3 p q))
        + ∑ q : Fin 640, Ideal.exp (blkLogit x2 x3 p q - max (o (ix2 p (0 : Fin 1))) (Finset.univ.sup fun q : Fin 640 => blkLogit x2 x3 p q)) := by
  refine (pay3_apply (k0_pay11 (F := Ideal) x2 x3) o s p q1).trans ?_
  simp only [pay11_apply]

end Cert.KernelIdeal.R0

end
-- ==== Proof.Online.lean ====
/-
  The streaming steps of the per-row quantities of the distillation loss.  The vocabulary is cut into 50
  stretches of 640 entries; the entries of the first k + 1 stretches are those of the first k together with
  stretch k, and the two parts are disjoint.  From this one fact: the running maximum over k + 1 stretches is
  the larger of the running maximum over k and the largest logit of stretch k; the running divergence gains
  the sum of stretch k's shares; and the running sum of exponentials, shifted by the running maximum, is the
  old sum rescaled by exp (old maximum - new maximum) plus stretch k's exponentials shifted by the new
  maximum.  Only the last needs the logits to be real numbers: it moves a factor across a sum.
-/
import proofs.«178291_j71159018160659_2_alg».proof.Proof.Spec

noncomputable section

namespace Cert.JSD

open Idealize.ShloMosaic Idealize.ShloMosaic.ValueIdx

/-- Entry q of stretch k of the vocabulary. -/
def stretch (k : ℕ) (hk : k < 50) (q : Fin 640) : Fin 32000 := ⟨640 * k + q.val, by omega⟩

theorem stretch_injective (k : ℕ) (hk : k < 50) : Function.Injective (stretch k hk) := by
  intro a b h
  have h' := congrArg Fin.val h
  simp only [stretch] at h'
  exact Fin.ext (by omega)

/-- The column of grid position n that Spec calls colOf is entry q of stretch n % 50. -/
theorem colOf_eq_stretch (n : ℕ) (q : Fin 640) :
    colOf n q = stretch (n % 50) (Nat.mod_lt n (by omega)) q := rfl

/-- The first k + 1 stretches are the first k and stretch k. -/
theorem pre_succ (k : ℕ) (hk : k < 50) : pre (k + 1) = pre k ∪ Finset.univ.image (stretch k hk) := by
  ext v
  simp only [pre, Finset.mem_filter, Finset.mem_univ, true_and, Finset.mem_union, Finset.mem_image]
  constructor
  · intro h
    by_cases h' : v.val < 640 * k
    · exact Or.inl h'
    · refine Or.inr ⟨⟨v.val - 640 * k, by omega⟩, ?_⟩
      apply Fin.ext
      simp only [stretch]
      omega
  · rintro (h | ⟨q, rfl⟩)
    · omega
    · have := q.isLt
      simp only [stretch]
      omega

theorem pre_disjoint (k : ℕ) (hk : k < 50) : Disjoint (pre k) (Finset.univ.image (stretch k hk)) := by
  rw [Finset.disjoint_left]
  intro v hv hv'
  simp only [pre, Finset.mem_filter, Finset.mem_univ, true_and] at hv
  obtain ⟨q, -, rfl⟩ := Finset.mem_image.mp hv'
  simp only [stretch] at hv
  omega

/-- A sum over the first k + 1 stretches is the sum over the first k plus the sum over stretch k. -/
theorem sum_pre_succ {M : Type} [AddCommMonoid M] (f : Fin 32000 → M) (k : ℕ) (hk : k < 50) :
    ∑ v ∈ pre (k + 1), f v = ∑ v ∈ pre k, f v + ∑ q : Fin 640, f (stretch k hk q) := by
  rw [pre_succ k hk, Finset.sum_union (pre_disjoint k hk),
    Finset.sum_image (fun a _ b _ h => stretch_injective k hk h)]

/-- A supremum over the first k + 1 stretches is the larger of the supremum over the first k and the
    supremum over stretch k. -/
theorem sup_pre_succ (f : Fin 32000 → EReal) (k : ℕ) (hk : k < 50) :
    (pre (k + 1)).sup f = max ((pre k).sup f) (Finset.univ.sup fun q : Fin 640 => f (stretch k hk q)) := by
  rw [pre_succ k hk, Finset.sup_union, Finset.sup_image]
  rfl

/-- The running divergence gains stretch k's shares. -/
theorem pJsd_succ (ls lt : Fin 4096 → Fin 32000 → EReal) (cs ct : Fin 4096 → EReal) (r : Fin 4096)
    (k : ℕ) (hk : k < 50) :
    pJsd ls lt cs ct r (k + 1) = pJsd ls lt cs ct r k
      + ∑ q : Fin 640, contrib (ls r ⟨640 * k + q.val, by omega⟩ - cs r) (lt r ⟨640 * k + q.val, by omega⟩ - ct r) :=
  sum_pre_succ (fun v => contrib (ls r v - cs r) (lt r v - ct r)) k hk

/-- The running maximum over k + 1 stretches. -/
theorem pMax_succ (l : Fin 4096 → Fin 32000 → EReal) (r : Fin 4096) (k : ℕ) (hk : k < 50) :
    pMax l r (k + 1) = max (pMax l r k) (Finset.univ.sup fun q : Fin 640 => l r ⟨640 * k + q.val, by omega⟩) :=
  sup_pre_succ (l r) k hk

theorem pMax_zero (l : Fin 4096 → Fin 32000 → EReal) (r : Fin 4096) : pMax l r 0 = ⊥ := by
  unfold pMax; rw [pre_zero, Finset.sup_empty]

theorem pSumExp_zero (l : Fin 4096 → Fin 32000 → EReal) (r : Fin 4096) : pSumExp l r 0 = 0 := by
  unfold pSumExp; rw [pre_zero, Finset.sum_empty]

/-! ## The running sum of exponentials -/

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over at least one stretch the running maximum of real logits is a real number. -/
theorem pMax_real (l : Fin 4096 → Fin 32000 → EReal) (hl : ∀ r v, ∃ x : ℝ, l r v = (x : EReal))
    (r : Fin 4096) (k : ℕ) (hpos : 0 < k) : ∃ M : ℝ, pMax l r k = (M : EReal) := by
  have hne : (pre k).Nonempty :=
    ⟨⟨0, by omega⟩, Finset.mem_filter.mpr ⟨Finset.mem_univ _, by show 0 < 640 * k; omega⟩⟩
  obtain ⟨v, -, hv⟩ := Finset.exists_mem_eq_sup (pre k) hne (l r)
  obtain ⟨x, hx⟩ := hl r v
  exact ⟨x, by unfold pMax; rw [hv, hx]⟩

/-- The running sum over k + 1 stretches: the old sum rescaled to the new maximum, plus stretch k's
    exponentials.  Before the first stretch the old sum is empty, so nothing is rescaled; afterwards both
    maxima are real and exp (x - M') = exp (x - M) * exp (M - M') is summed over the old entries. -/
theorem pSumExp_succ (l : Fin 4096 → Fin 32000 → EReal) (hl : ∀ r v, ∃ x : ℝ, l r v = (x : EReal))
    (r : Fin 4096) (k : ℕ) (hk : k < 50) :
    pSumExp l r (k + 1) = pSumExp l r k * Ideal.exp (pMax l r k - pMax l r (k + 1))
      + ∑ q : Fin 640, Ideal.exp (l r ⟨640 * k + q.val, by omega⟩ - pMax l r (k + 1)) := by
  have hsplit := sum_pre_succ (fun v => Ideal.exp (l r v - pMax l r (k + 1))) k hk
  unfold pSumExp
  refine hsplit.trans ?_
  refine congrArg₂ (· + ·) ?_ rfl
  show ∑ v ∈ pre k, Ideal.exp (l r v - pMax l r (k + 1))
    = (∑ v ∈ pre k, Ideal.exp (l r v - pMax l r k)) * Ideal.exp (pMax l r k - pMax l r (k + 1))
  rcases Nat.eq_zero_or_pos k with rfl | hpos
  · rw [pre_zero, Finset.sum_empty, Finset.sum_empty, zero_mul]
  · choose lr hlr using hl r
    obtain ⟨M, hM⟩ := pMax_real l hl r k hpos
    obtain ⟨M', hM'⟩ := pMax_real l hl r (k + 1) (Nat.succ_pos k)
    rw [hM, hM']
    have e1 : ∀ v, Ideal.exp (l r v - (M' : EReal)) = ((Real.exp (lr v - M') : ℝ) : EReal) := fun v => by
      rw [hlr v, ← EReal.coe_sub]; rfl
    have e2 : ∀ v, Ideal.exp (l r v - (M : EReal)) = ((Real.exp (lr v - M) : ℝ) : EReal) := fun v => by
      rw [hlr v, ← EReal.coe_sub]; rfl
    have e3 : Ideal.exp ((M : EReal) - (M' : EReal)) = ((Real.exp (M - M') : ℝ) : EReal) := by
      rw [← EReal.coe_sub]; rfl
    simp only [e1, e2, e3]
    rw [← coe_sum, ← coe_sum, ← EReal.coe_mul, Finset.sum_mul]
    refine congrArg _ (Finset.sum_congr rfl fun v _ => ?_)
    rw [← Real.exp_add]
    exact congrArg Real.exp (by ring)

/-- An inner product of real activations and real weights is a real number. -/
theorem logit_real {K : ℕ} (x : (⟨2, ![4096, K]⟩ : Shape).Idx → EReal) (w : (⟨2, ![32000, K]⟩ : Shape).Idx → EReal)
    (hx : ∀ i, ∃ a : ℝ, x i = (a : EReal)) (hw : ∀ i, ∃ b : ℝ, w i = (b : EReal)) :
    ∀ r v, ∃ z : ℝ, logit x w r v = (z : EReal) := by
  intro r v
  choose a ha using hx
  choose b hb using hw
  refine ⟨∑ k : Fin K, a (ix2 r k) * b (ix2 v k), ?_⟩
  unfold logit
  rw [coe_sum]
  refine Finset.sum_congr rfl fun k _ => ?_
  rw [ha, hb, EReal.coe_mul]

end Cert.JSD

end
-- ==== Proof.R0Inv.lean ====
/-
  What the six staging buffers of the statistics kernel hold after each grid point.  Grid point n works on row
  block n / 50 and vocabulary stretch n % 50.  After it, for every row of the block, the two running-maximum
  columns hold the largest student and teacher logit among the first n % 50 + 1 stretches, the two running-sum
  columns hold the sums of exponentials over those stretches shifted by that maximum, and the two tiles hold
  the logits of stretch n % 50.  The proof is an induction on the grid point: at the first stretch of a row
  block the columns are reset to the bottom element and zero, which are the quantities over no stretch at all;
  at a later stretch they are what the point before left, for the same rows.  Either way one online-softmax
  step carries the quantities over k stretches to those over k + 1.  The step for the sums moves a factor
  across a sum, so it uses that every logit is a real number, which holds when the activations and weights are.
-/
import proofs.«178291_j71159018160659_2_alg».proof.Proof.R0Pieces
import proofs.«178291_j71159018160659_2_alg».proof.Proof.R0Blocks
import proofs.«178291_j71159018160659_2_alg».proof.Proof.R0Pay
import proofs.«178291_j71159018160659_2_alg».proof.Proof.Online
import proofs.«178291_j71159018160659_2_alg».proof.Proof.Gen.KernelIdeal.Frame

noncomputable section

open Idealize.ShloMosaic Idealize.ShloMosaic.TcCoe Idealize.SL.Sem Idealize.ShloMosaic.ValueIdx

namespace Cert.KernelIdeal.R0

open Cert.KernelIdeal Cert.KernelIdeal.Gen Cert.JSD

/-! ## One step, over a block and the arrays it is cut from -/

section Step

variable {K : ℕ} (X : (⟨2, ![4096, K]⟩ : Shape).Idx → EReal) (W : (⟨2, ![32000, K]⟩ : Shape).Idx → EReal)
  (n : ℕ) (hn : n < 200)
  (x0 : FVec Ideal ⟨2, ![1024, K]⟩ .bf16) (x1 : FVec Ideal ⟨2, ![640, K]⟩ .bf16)
  (hx0 : ∀ (p : Fin 1024) (k : Fin K), x0 (ix2 p k) = X (ix2 (rowOf n hn p) k))
  (hx1 : ∀ (q : Fin 640) (k : Fin K), x1 (ix2 q k) = W (ix2 (colOf n q) k))

include hx0 hx1

/-- A tile entry is the logit of the block's token row against the stretch's vocabulary entry. -/
theorem blk_logit (p : Fin 1024) (q : Fin 640) :
    blkLogit x0 x1 p q = logit X W (rowOf n hn p) (colOf n q) := by
  unfold blkLogit logit
  exact Finset.sum_congr rfl fun k _ => by rw [hx0, hx1]

end Step

/-- The running maximum over n % 50 stretches, joined with stretch n % 50's largest logit, is the running
    maximum over n % 50 + 1 stretches. -/
theorem max_step (n : ℕ) (l : Fin 4096 → Fin 32000 → EReal) (r : Fin 4096) :
    max (pMax l r (n % 50)) (Finset.univ.sup fun q : Fin 640 => l r (colOf n q)) = pMax l r (n % 50 + 1) :=
  (pMax_succ l r (n % 50) (Nat.mod_lt n (by omega))).symm

theorem new_max (n : ℕ) (l : Fin 4096 → Fin 32000 → EReal) (r : Fin 4096) (o0 : EReal)
    (ho : o0 = pMax l r (n % 50)) :
    max o0 (Finset.univ.sup fun q : Fin 640 => l r (colOf n q)) = pMax l r (n % 50 + 1) := by
  rw [ho]
  exact max_step n l r

/-- The running sum over n % 50 stretches, rescaled and joined with stretch n % 50's exponentials, is the
    running sum over n % 50 + 1 stretches. -/
theorem new_sum (n : ℕ) (l : Fin 4096 → Fin 32000 → EReal) (hl : ∀ r v, ∃ x : ℝ, l r v = (x : EReal))
    (r : Fin 4096) (o0 s0 : EReal) (ho : o0 = pMax l r (n % 50)) (hs : s0 = pSumExp l r (n % 50)) :
    s0 * Ideal.exp (o0 - max o0 (Finset.univ.sup fun q : Fin 640 => l r (colOf n q)))
        + ∑ q : Fin 640, Ideal.exp (l r (colOf n q) - max o0 (Finset.univ.sup fun q : Fin 640 => l r (colOf n q)))
      = pSumExp l r (n % 50 + 1) := by
  rw [ho, hs, max_step n l r]
  exact (pSumExp_succ l hl r (n % 50) (Nat.mod_lt n (by omega))).symm

section Student

variable (X : (⟨2, ![4096, 2048]⟩ : Shape).Idx → EReal) (W : (⟨2, ![32000, 2048]⟩ : Shape).Idx → EReal)
  (n : ℕ) (hn : n < 200)
  (x0 : FVec Ideal S1024x2048 .bf16) (x1 : FVec Ideal S640x2048 .bf16)
  (hx0 : ∀ (p : Fin 1024) (k : Fin 2048), x0 (ix2 p k) = X (ix2 (rowOf n hn p) k))
  (hx1 : ∀ (q : Fin 640) (k : Fin 2048), x1 (ix2 q k) = W (ix2 (colOf n q) k))

include hx0 hx1

theorem stu_max (o : FVec Ideal S1024x1 .f32) (p : Fin 1024)
    (ho : o (ix2 p (0 : Fin 1)) = pMax (logit X W) (rowOf n hn p) (n % 50)) (q1 : Fin 1) :
    k0_pay13 (F := Ideal) x0 x1 o (ix2 p q1) = pMax (logit X W) (rowOf n hn p) (n % 50 + 1) := by
  rw [pay13_apply]
  simp only [blk_logit X W n hn x0 x1 hx0 hx1]
  exact new_max n (logit X W) (rowOf n hn p) _ ho

theorem stu_sum (hl : ∀ r v, ∃ x : ℝ, logit X W r v = (x : EReal)) (o s : FVec Ideal S1024x1 .f32) (p : Fin 1024)
    (ho : o (ix2 p (0 : Fin 1)) = pMax (logit X W) (rowOf n hn p) (n % 50))
    (hs : s (ix2 p (0 : Fin 1)) = pSumExp (logit X W) (rowOf n hn p) (n % 50)) (q1 : Fin 1) :
    k0_pay14 (F := Ideal) x0 x1 o s (ix2 p q1) = pSumExp (logit X W) (rowOf n hn p) (n % 50 + 1) := by
  rw [pay14_apply]
  simp only [blk_logit X W n hn x0 x1 hx0 hx1]
  exact new_sum n (logit X W) hl (rowOf n hn p) _ _ ho hs

theorem stu_tile (p : Fin 1024) (q : Fin 640) :
    k0_pay4 (F := Ideal) (k0_pay10 (F := Ideal) x0 x1) (ix2 p q) = logit X W (rowOf n hn p) (colOf n q) := by
  rw [pay4_apply, pay10_apply]
  exact blk_logit X W n hn x0 x1 hx0 hx1 p q

end Student

section Teacher

variable (X : (⟨2, ![4096, 4096]⟩ : Shape).Idx → EReal) (W : (⟨2, ![32000, 4096]⟩ : Shape).Idx → EReal)
  (n : ℕ) (hn : n < 200)
  (x2 : FVec Ideal S1024x4096 .bf16) (x3 : FVec Ideal S640x4096 .bf16)
  (hx2 : ∀ (p : Fin 1024) (k : Fin 4096), x2 (ix2 p k) = X (ix2 (rowOf n hn p) k))
  (hx3 : ∀ (q : Fin 640) (k : Fin 4096), x3 (ix2 q k) = W (ix2 (colOf n q) k))

include hx2 hx3

theorem tea_max (o : FVec Ideal S1024x1 .f32) (p : Fin 1024)
    (ho : o (ix2 p (0 : Fin 1)) = pMax (logit X W) (rowOf n hn p) (n % 50)) (q1 : Fin 1) :
    k0_pay2 (F := Ideal) (k0_pay11 (F := Ideal) x2 x3) o (ix2 p q1) = pMax (logit X W) (rowOf n hn p) (n % 50 + 1) := by
  rw [pay2_blk_apply]
  simp only [blk_logit X W n hn x2 x3 hx2 hx3]
  exact new_max n (logit X W) (rowOf n hn p) _ ho

theorem tea_sum (hl : ∀ r v, ∃ x : ℝ, logit X W r v = (x : EReal)) (o s : FVec Ideal S1024x1 .f32) (p : Fin 1024)
    (ho : o (ix2 p (0 : Fin 1)) = pMax (logit X W) (rowOf n hn p) (n % 50))
    (hs : s (ix2 p (0 : Fin 1)) = pSumExp (logit X W) (rowOf n hn p) (n % 50)) (q1 : Fin 1) :
    k0_pay3 (F := Ideal) (k0_pay11 (F := Ideal) x2 x3) o s (ix2 p q1) = pSumExp (logit X W) (rowOf n hn p) (n % 50 + 1) := by
  rw [pay3_blk_apply]
  simp only [blk_logit X W n hn x2 x3 hx2 hx3]
  exact new_sum n (logit X W) hl (rowOf n hn p) _ _ ho hs

theorem tea_tile (p : Fin 1024) (q : Fin 640) :
    k0_pay5 (F := Ideal) (k0_pay11 (F := Ideal) x2 x3) (ix2 p q) = logit X W (rowOf n hn p) (colOf n q) := by
  rw [pay5_apply, pay11_apply]
  exact blk_logit X W n hn x2 x3 hx2 hx3 p q

end Teacher

/-! ## The invariant of the six staging buffers -/

section Invariant

variable (V : (c : Dev nD) → (b : Ref sig .tc) → Buf (Elt Ideal) ((c : Thread nD τ).loc b)) (c : Dev nD)

/-- The student's logits, from the activation and weight arrays as the region finds them. -/
abbrev lsOf : Fin 4096 → Fin 32000 → EReal := logit (K := 2048) (V c main_v0) (V c main_v2)

/-- The teacher's logits. -/
abbrev ltOf : Fin 4096 → Fin 32000 → EReal := logit (K := 4096) (V c main_v1) (V c main_v3)

/-- After grid point n: the four columns at the running quantities over n % 50 + 1 stretches, the two tiles at
    stretch n % 50's logits, for the rows of row block n / 50. -/
def Inv (n : ℕ) (hN : n < cfg0.N) (hn : n < 200) : Prop :=
  (∀ (p : Fin 1024) (q1 : Fin 1), (outsAt0 V c n hN).1 (ix2 p q1) = pMax (lsOf V c) (rowOf n hn p) (n % 50 + 1))
  ∧ (∀ (p : Fin 1024) (q1 : Fin 1), (outsAt0 V c n hN).2.1 (ix2 p q1) = pSumExp (lsOf V c) (rowOf n hn p) (n % 50 + 1))
  ∧ (∀ (p : Fin 1024) (q1 : Fin 1), (outsAt0 V c n hN).2.2.1 (ix2 p q1) = pMax (ltOf V c) (rowOf n hn p) (n % 50 + 1))
  ∧ (∀ (p : Fin 1024) (q1 : Fin 1), (outsAt0 V c n hN).2.2.2.1 (ix2 p q1) = pSumExp (ltOf V c) (rowOf n hn p) (n % 50 + 1))
  ∧ (∀ (p : Fin 1024) (q : Fin 640), (outsAt0 V c n hN).2.2.2.2.1 (ix2 p q) = lsOf V c (rowOf n hn p) (colOf n q))
  ∧ (∀ (p : Fin 1024) (q : Fin 640), (outsAt0 V c n hN).2.2.2.2.2 (ix2 p q) = ltOf V c (rowOf n hn p) (colOf n q))

/-- The first stretch of a row block: the columns start from the bottom element and zero. -/
theorem inv_A (hX0 : ∀ i : (⟨2, ![4096, 2048]⟩ : Shape).Idx, ∃ a : ℝ, (V c main_v0 : (⟨2, ![4096, 2048]⟩ : Shape).Idx → EReal) i = (a : EReal))
    (hW0 : ∀ i : (⟨2, ![32000, 2048]⟩ : Shape).Idx, ∃ a : ℝ, (V c main_v2 : (⟨2, ![32000, 2048]⟩ : Shape).Idx → EReal) i = (a : EReal))
    (hX1 : ∀ i : (⟨2, ![4096, 4096]⟩ : Shape).Idx, ∃ a : ℝ, (V c main_v1 : (⟨2, ![4096, 4096]⟩ : Shape).Idx → EReal) i = (a : EReal))
    (hW1 : ∀ i : (⟨2, ![32000, 4096]⟩ : Shape).Idx, ∃ a : ℝ, (V c main_v3 : (⟨2, ![32000, 4096]⟩ : Shape).Idx → EReal) i = (a : EReal))
    (n : ℕ) (hN : n < cfg0.N) (hn : n < 200) (h0 : n % 50 = 0) : Inv V c n hN hn := by
  have hls := logit_real (K := 2048) (V c main_v0) (V c main_v2) hX0 hW0
  have hlt := logit_real (K := 4096) (V c main_v1) (V c main_v3) hX1 hW1
  unfold Inv
  rw [outsAt0_A V c ⟨n, hN⟩ h0]
  refine ⟨fun p q1 => ?_, fun p q1 => ?_, fun p q1 => ?_, fun p q1 => ?_, fun p q => ?_, fun p q => ?_⟩
  · dsimp only
    rw [out_A_4]
    exact stu_max (V c main_v0) (V c main_v2) n hn (iblk0 V c 0 ⟨n, hN⟩) (iblk0 V c 1 ⟨n, hN⟩) (fun p k => blk_0 V c ⟨n, hN⟩ hn p k) (fun q k => blk_1 V c ⟨n, hN⟩ hn q k) _ p (by rw [h0, pMax_zero]; exact pay6_apply _) q1
  · dsimp only
    rw [out_A_5]
    exact stu_sum (V c main_v0) (V c main_v2) n hn (iblk0 V c 0 ⟨n, hN⟩) (iblk0 V c 1 ⟨n, hN⟩) (fun p k => blk_0 V c ⟨n, hN⟩ hn p k) (fun q k => blk_1 V c ⟨n, hN⟩ hn q k) hls _ _ p (by rw [h0, pMax_zero]; exact pay6_apply _) (by rw [h0, pSumExp_zero]; exact pay7_apply _) q1
  · dsimp only
    rw [out_A_6]
    exact tea_max (V c main_v1) (V c main_v3) n hn (iblk0 V c 2 ⟨n, hN⟩) (iblk0 V c 3 ⟨n, hN⟩) (fun p k => blk_2 V c ⟨n, hN⟩ hn p k) (fun q k => blk_3 V c ⟨n, hN⟩ hn q k) _ p (by rw [h0, pMax_zero]; exact pay8_apply _) q1
  · dsimp only
    rw [out_A_7]
    exact tea_sum (V c main_v1) (V c main_v3) n hn (iblk0 V c 2 ⟨n, hN⟩) (iblk0 V c 3 ⟨n, hN⟩) (fun p k => blk_2 V c ⟨n, hN⟩ hn p k) (fun q k => blk_3 V c ⟨n, hN⟩ hn q k) hlt _ _ p (by rw [h0, pMax_zero]; exact pay8_apply _) (by rw [h0, pSumExp_zero]; exact pay9_apply _) q1
  · dsimp only
    rw [out_A_8]
    exact stu_tile (V c main_v0) (V c main_v2) n hn (iblk0 V c 0 ⟨n, hN⟩) (iblk0 V c 1 ⟨n, hN⟩) (fun p k => blk_0 V c ⟨n, hN⟩ hn p k) (fun q k => blk_1 V c ⟨n, hN⟩ hn q k) p q
  · dsimp only
    rw [out_A_9]
    exact tea_tile (V c main_v1) (V c main_v3) n hn (iblk0 V c 2 ⟨n, hN⟩) (iblk0 V c 3 ⟨n, hN⟩) (fun p k => blk_2 V c ⟨n, hN⟩ hn p k) (fun q k => blk_3 V c ⟨n, hN⟩ hn q k) p q

/-- A later stretch: the columns start from what the point before left, for the same rows. -/
theorem inv_B (hX0 : ∀ i : (⟨2, ![4096, 2048]⟩ : Shape).Idx, ∃ a : ℝ, (V c main_v0 : (⟨2, ![4096, 2048]⟩ : Shape).Idx → EReal) i = (a : EReal))
    (hW0 : ∀ i : (⟨2, ![32000, 2048]⟩ : Shape).Idx, ∃ a : ℝ, (V c main_v2 : (⟨2, ![32000, 2048]⟩ : Shape).Idx → EReal) i = (a : EReal))
    (hX1 : ∀ i : (⟨2, ![4096, 4096]⟩ : Shape).Idx, ∃ a : ℝ, (V c main_v1 : (⟨2, ![4096, 4096]⟩ : Shape).Idx → EReal) i = (a : EReal))
    (hW1 : ∀ i : (⟨2, ![32000, 4096]⟩ : Shape).Idx, ∃ a : ℝ, (V c main_v3 : (⟨2, ![32000, 4096]⟩ : Shape).Idx → EReal) i = (a : EReal))
    (n : ℕ) (hN : n + 1 < cfg0.N) (hn : n + 1 < 200) (h0 : ¬(n + 1) % 50 = 0)
    (ih : Inv V c n (Nat.lt_of_succ_lt hN) (Nat.lt_of_succ_lt hn)) : Inv V c (n + 1) hN hn := by
  have hls := logit_real (K := 2048) (V c main_v0) (V c main_v2) hX0 hW0
  have hlt := logit_real (K := 4096) (V c main_v1) (V c main_v3) hX1 hW1
  obtain ⟨i4, i5, i6, i7, -, -⟩ := ih
  have hrow : ∀ p : Fin 1024, rowOf n (Nat.lt_of_succ_lt hn) p = rowOf (n + 1) hn p := fun p =>
    Fin.ext (by simp only [rowOf]; omega)
  have hk : n % 50 + 1 = (n + 1) % 50 := by omega
  unfold Inv
  rw [outsAt0_B V c ⟨n + 1, hN⟩ h0]
  refine ⟨fun p q1 => ?_, fun p q1 => ?_, fun p q1 => ?_, fun p q1 => ?_, fun p q => ?_, fun p q => ?_⟩
  · dsimp only
    rw [out_B_4]
    exact stu_max (V c main_v0) (V c main_v2) (n + 1) hn (iblk0 V c 0 ⟨n + 1, hN⟩) (iblk0 V c 1 ⟨n + 1, hN⟩) (fun p k => blk_0 V c ⟨n + 1, hN⟩ hn p k) (fun q k => blk_1 V c ⟨n + 1, hN⟩ hn q k) _ p (by rw [← hk, ← hrow]; exact i4 p 0) q1
  · dsimp only
    rw [out_B_5]
    exact stu_sum (V c main_v0) (V c main_v2) (n + 1) hn (iblk0 V c 0 ⟨n + 1, hN⟩) (iblk0 V c 1 ⟨n + 1, hN⟩) (fun p k => blk_0 V c ⟨n + 1, hN⟩ hn p k) (fun q k => blk_1 V c ⟨n + 1, hN⟩ hn q k) hls _ _ p (by rw [← hk, ← hrow]; exact i4 p 0) (by rw [← hk, ← hrow]; exact i5 p 0) q1
  · dsimp only
    rw [out_B_6]
    exact tea_max (V c main_v1) (V c main_v3) (n + 1) hn (iblk0 V c 2 ⟨n + 1, hN⟩) (iblk0 V c 3 ⟨n + 1, hN⟩) (fun p k => blk_2 V c ⟨n + 1, hN⟩ hn p k) (fun q k => blk_3 V c ⟨n + 1, hN⟩ hn q k) _ p (by rw [← hk, ← hrow]; exact i6 p 0) q1
  · dsimp only
    rw [out_B_7]
    exact tea_sum (V c main_v1) (V c main_v3) (n + 1) hn (iblk0 V c 2 ⟨n + 1, hN⟩) (iblk0 V c 3 ⟨n + 1, hN⟩) (fun p k => blk_2 V c ⟨n + 1, hN⟩ hn p k) (fun q k => blk_3 V c ⟨n + 1, hN⟩ hn q k) hlt _ _ p (by rw [← hk, ← hrow]; exact i6 p 0) (by rw [← hk, ← hrow]; exact i7 p 0) q1
  · dsimp only
    rw [out_B_8]
    exact stu_tile (V c main_v0) (V c main_v2) (n + 1) hn (iblk0 V c 0 ⟨n + 1, hN⟩) (iblk0 V c 1 ⟨n + 1, hN⟩) (fun p k => blk_0 V c ⟨n + 1, hN⟩ hn p k) (fun q k => blk_1 V c ⟨n + 1, hN⟩ hn q k) p q
  · dsimp only
    rw [out_B_9]
    exact tea_tile (V c main_v1) (V c main_v3) (n + 1) hn (iblk0 V c 2 ⟨n + 1, hN⟩) (iblk0 V c 3 ⟨n + 1, hN⟩) (fun p k => blk_2 V c ⟨n + 1, hN⟩ hn p k) (fun q k => blk_3 V c ⟨n + 1, hN⟩ hn q k) p q

/-- The invariant holds after every grid point. -/
theorem inv (hX0 : ∀ i : (⟨2, ![4096, 2048]⟩ : Shape).Idx, ∃ a : ℝ, (V c main_v0 : (⟨2, ![4096, 2048]⟩ : Shape).Idx → EReal) i = (a : EReal))
    (hW0 : ∀ i : (⟨2, ![32000, 2048]⟩ : Shape).Idx, ∃ a : ℝ, (V c main_v2 : (⟨2, ![32000, 2048]⟩ : Shape).Idx → EReal) i = (a : EReal))
    (hX1 : ∀ i : (⟨2, ![4096, 4096]⟩ : Shape).Idx, ∃ a : ℝ, (V c main_v1 : (⟨2, ![4096, 4096]⟩ : Shape).Idx → EReal) i = (a : EReal))
    (hW1 : ∀ i : (⟨2, ![32000, 4096]⟩ : Shape).Idx, ∃ a : ℝ, (V c main_v3 : (⟨2, ![32000, 4096]⟩ : Shape).Idx → EReal) i = (a : EReal)) :
    ∀ (n : ℕ) (hN : n < cfg0.N) (hn : n < 200), Inv V c n hN hn
  | 0, hN, hn => inv_A V c hX0 hW0 hX1 hW1 0 hN hn rfl
  | n + 1, hN, hn => by
    by_cases h0 : (n + 1) % 50 = 0
    · exact inv_A V c hX0 hW0 hX1 hW1 (n + 1) hN hn h0
    · exact inv_B V c hX0 hW0 hX1 hW1 n hN hn h0 (inv hX0 hW0 hX1 hW1 n (Nat.lt_of_succ_lt hN) (Nat.lt_of_succ_lt hn))

theorem inv_4 (hX0 : ∀ i : (⟨2, ![4096, 2048]⟩ : Shape).Idx, ∃ a : ℝ, (V c main_v0 : (⟨2, ![4096, 2048]⟩ : Shape).Idx → EReal) i = (a : EReal))
    (hW0 : ∀ i : (⟨2, ![32000, 2048]⟩ : Shape).Idx, ∃ a : ℝ, (V c main_v2 : (⟨2, ![32000, 2048]⟩ : Shape).Idx → EReal) i = (a : EReal))
    (hX1 : ∀ i : (⟨2, ![4096, 4096]⟩ : Shape).Idx, ∃ a : ℝ, (V c main_v1 : (⟨2, ![4096, 4096]⟩ : Shape).Idx → EReal) i = (a : EReal))
    (hW1 : ∀ i : (⟨2, ![32000, 4096]⟩ : Shape).Idx, ∃ a : ℝ, (V c main_v3 : (⟨2, ![32000, 4096]⟩ : Shape).Idx → EReal) i = (a : EReal))
    (n : ℕ) (hN : n < cfg0.N) (hn : n < 200) (p : Fin 1024) (q1 : Fin 1) :
    (outsAt0 V c n hN).1 (ix2 p q1) = pMax (lsOf V c) (rowOf n hn p) (n % 50 + 1) :=
  (inv V c hX0 hW0 hX1 hW1 n hN hn).1 p q1

theorem inv_5 (hX0 : ∀ i : (⟨2, ![4096, 2048]⟩ : Shape).Idx, ∃ a : ℝ, (V c main_v0 : (⟨2, ![4096, 2048]⟩ : Shape).Idx → EReal) i = (a : EReal))
    (hW0 : ∀ i : (⟨2, ![32000, 2048]⟩ : Shape).Idx, ∃ a : ℝ, (V c main_v2 : (⟨2, ![32000, 2048]⟩ : Shape).Idx → EReal) i = (a : EReal))
    (hX1 : ∀ i : (⟨2, ![4096, 4096]⟩ : Shape).Idx, ∃ a : ℝ, (V c main_v1 : (⟨2, ![4096, 4096]⟩ : Shape).Idx → EReal) i = (a : EReal))
    (hW1 : ∀ i : (⟨2, ![32000, 4096]⟩ : Shape).Idx, ∃ a : ℝ, (V c main_v3 : (⟨2, ![32000, 4096]⟩ : Shape).Idx → EReal) i = (a : EReal))
    (n : ℕ) (hN : n < cfg0.N) (hn : n < 200) (p : Fin 1024) (q1 : Fin 1) :
    (outsAt0 V c n hN).2.1 (ix2 p q1) = pSumExp (lsOf V c) (rowOf n hn p) (n % 50 + 1) :=
  (inv V c hX0 hW0 hX1 hW1 n hN hn).2.1 p q1

theorem inv_6 (hX0 : ∀ i : (⟨2, ![4096, 2048]⟩ : Shape).Idx, ∃ a : ℝ, (V c main_v0 : (⟨2, ![4096, 2048]⟩ : Shape).Idx → EReal) i = (a : EReal))
    (hW0 : ∀ i : (⟨2, ![32000, 2048]⟩ : Shape).Idx, ∃ a : ℝ, (V c main_v2 : (⟨2, ![32000, 2048]⟩ : Shape).Idx → EReal) i = (a : EReal))
    (hX1 : ∀ i : (⟨2, ![4096, 4096]⟩ : Shape).Idx, ∃ a : ℝ, (V c main_v1 : (⟨2, ![4096, 4096]⟩ : Shape).Idx → EReal) i = (a : EReal))
    (hW1 : ∀ i : (⟨2, ![32000, 4096]⟩ : Shape).Idx, ∃ a : ℝ, (V c main_v3 : (⟨2, ![32000, 4096]⟩ : Shape).Idx → EReal) i = (a : EReal))
    (n : ℕ) (hN : n < cfg0.N) (hn : n < 200) (p : Fin 1024) (q1 : Fin 1) :
    (outsAt0 V c n hN).2.2.1 (ix2 p q1) = pMax (ltOf V c) (rowOf n hn p) (n % 50 + 1) :=
  (inv V c hX0 hW0 hX1 hW1 n hN hn).2.2.1 p q1

theorem inv_7 (hX0 : ∀ i : (⟨2, ![4096, 2048]⟩ : Shape).Idx, ∃ a : ℝ, (V c main_v0 : (⟨2, ![4096, 2048]⟩ : Shape).Idx → EReal) i = (a : EReal))
    (hW0 : ∀ i : (⟨2, ![32000, 2048]⟩ : Shape).Idx, ∃ a : ℝ, (V c main_v2 : (⟨2, ![32000, 2048]⟩ : Shape).Idx → EReal) i = (a : EReal))
    (hX1 : ∀ i : (⟨2, ![4096, 4096]⟩ : Shape).Idx, ∃ a : ℝ, (V c main_v1 : (⟨2, ![4096, 4096]⟩ : Shape).Idx → EReal) i = (a : EReal))
    (hW1 : ∀ i : (⟨2, ![32000, 4096]⟩ : Shape).Idx, ∃ a : ℝ, (V c main_v3 : (⟨2, ![32000, 4096]⟩ : Shape).Idx → EReal) i = (a : EReal))
    (n : ℕ) (hN : n < cfg0.N) (hn : n < 200) (p : Fin 1024) (q1 : Fin 1) :
    (outsAt0 V c n hN).2.2.2.1 (ix2 p q1) = pSumExp (ltOf V c) (rowOf n hn p) (n % 50 + 1) :=
  (inv V c hX0 hW0 hX1 hW1 n hN hn).2.2.2.1 p q1

theorem inv_8 (hX0 : ∀ i : (⟨2, ![4096, 2048]⟩ : Shape).Idx, ∃ a : ℝ, (V c main_v0 : (⟨2, ![4096, 2048]⟩ : Shape).Idx → EReal) i = (a : EReal))
    (hW0 : ∀ i : (⟨2, ![32000, 2048]⟩ : Shape).Idx, ∃ a : ℝ, (V c main_v2 : (⟨2, ![32000, 2048]⟩ : Shape).Idx → EReal) i = (a : EReal))
    (hX1 : ∀ i : (⟨2, ![4096, 4096]⟩ : Shape).Idx, ∃ a : ℝ, (V c main_v1 : (⟨2, ![4096, 4096]⟩ : Shape).Idx → EReal) i = (a : EReal))
    (hW1 : ∀ i : (⟨2, ![32000, 4096]⟩ : Shape).Idx, ∃ a : ℝ, (V c main_v3 : (⟨2, ![32000, 4096]⟩ : Shape).Idx → EReal) i = (a : EReal))
    (n : ℕ) (hN : n < cfg0.N) (hn : n < 200) (p : Fin 1024) (q : Fin 640) :
    (outsAt0 V c n hN).2.2.2.2.1 (ix2 p q) = lsOf V c (rowOf n hn p) (colOf n q) :=
  (inv V c hX0 hW0 hX1 hW1 n hN hn).2.2.2.2.1 p q

theorem inv_9 (hX0 : ∀ i : (⟨2, ![4096, 2048]⟩ : Shape).Idx, ∃ a : ℝ, (V c main_v0 : (⟨2, ![4096, 2048]⟩ : Shape).Idx → EReal) i = (a : EReal))
    (hW0 : ∀ i : (⟨2, ![32000, 2048]⟩ : Shape).Idx, ∃ a : ℝ, (V c main_v2 : (⟨2, ![32000, 2048]⟩ : Shape).Idx → EReal) i = (a : EReal))
    (hX1 : ∀ i : (⟨2, ![4096, 4096]⟩ : Shape).Idx, ∃ a : ℝ, (V c main_v1 : (⟨2, ![4096, 4096]⟩ : Shape).Idx → EReal) i = (a : EReal))
    (hW1 : ∀ i : (⟨2, ![32000, 4096]⟩ : Shape).Idx, ∃ a : ℝ, (V c main_v3 : (⟨2, ![32000, 4096]⟩ : Shape).Idx → EReal) i = (a : EReal))
    (n : ℕ) (hN : n < cfg0.N) (hn : n < 200) (p : Fin 1024) (q : Fin 640) :
    (outsAt0 V c n hN).2.2.2.2.2 (ix2 p q) = ltOf V c (rowOf n hn p) (colOf n q) :=
  (inv V c hX0 hW0 hX1 hW1 n hN hn).2.2.2.2.2 p q

end Invariant

end Cert.KernelIdeal.R0

end
-- ==== Proof.R1Pieces.lean ====
/-
  What one grid point of the divergence kernel leaves in its accumulator block.

  The body of the second kernel runs in two control cases.  At the first vocabulary stretch of a row block it
  stores a block of zeros into the accumulator, reads that block back, and stores the sum of the block it read
  and the stretch's divergence terms; at every later stretch it reads what the accumulator holds and stores that
  plus the stretch's terms.  Both cases end with one store covering the whole accumulator block, so what the
  block holds afterwards is that store's value: the body's arithmetic applied to the four input blocks and to
  the zero block (first stretch) or to the accumulator's earlier contents (later stretches).
-/
import proofs.«178291_j71159018160659_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.R1

open Cert.KernelIdeal Cert.KernelIdeal.Gen

variable {F : FTy → Type} [FloatOps F]

/-- The offsets of a store or load of a whole block. -/
theorem hz : (![0, 0] : Fin 2 → Nat) = fun _ => 0 := funext fun a => by fin_cases a <;> rfl

/-- A later stretch: the accumulator block ends holding the body's arithmetic of the two logits blocks, the two
    log-sum-exp blocks and the accumulator's earlier contents. -/
theorem out_B_4 (c : Dev nD) (i : grid1.Coords) (a2 : Memref sig .tc .vmem S1024x640 .bf16) (h2 : a2.IsWhole)
    (a3 : Memref sig .tc .vmem S1024x640 .bf16) (h3 : a3.IsWhole) (a4 : Memref sig .tc .vmem S1024x1 .f32) (h4 : a4.IsWhole)
    (a5 : Memref sig .tc .vmem S1024x1 .f32) (h5 : a5.IsWhole) (a6 : Memref sig .tc .vmem S1024x1 .f32) (h6 : a6.IsWhole)
    (hc : ¬cond1_0 i) (x0 x1 : Vec F S1024x640 .bf16) (x2 x3 xo4 : Vec F S1024x1 .f32) :
    out1_B_4 c i a2 h2 a3 h3 a4 h4 a5 h5 a6 h6 hc x0 x1 x2 x3 xo4 = k1_pay2 x0 x1 x2 x3 xo4 := by
  unfold out1_B_4
  rw [View.read_writes_eq_canon _ _ _ (cover1_B_4 c i a2 h2 a3 h3 a4 h4 a5 h5 a6 h6 hc x0 x1 x2 x3 xo4)]
  unfold kernelRun1_B
  dsimp only
  sl_unfold_words
  rw [View.canon_unit_zero hz]
  simp only [View.readAt_eq_ld, h2.read_unread, h3.read_unread, h4.read_unread, h5.read_unread, h6.read_unread,
    View.ld_unit_zero (S := S1024x640) hz, View.ld_unit_zero (S := S1024x1) hz]

/-- The first stretch: the body first stores the zero block, then reads it back as the accumulator. -/
theorem out_A_4 (c : Dev nD) (i : grid1.Coords) (a2 : Memref sig .tc .vmem S1024x640 .bf16) (h2 : a2.IsWhole)
    (a3 : Memref sig .tc .vmem S1024x640 .bf16) (h3 : a3.IsWhole) (a4 : Memref sig .tc .vmem S1024x1 .f32) (h4 : a4.IsWhole)
    (a5 : Memref sig .tc .vmem S1024x1 .f32) (h5 : a5.IsWhole) (a6 : Memref sig .tc .vmem S1024x1 .f32) (h6 : a6.IsWhole)
    (hc : cond1_0 i) (x0 x1 : Vec F S1024x640 .bf16) (x2 x3 : Vec F S1024x1 .f32) :
    out1_A_4 c i a2 h2 a3 h3 a4 h4 a5 h5 a6 h6 hc x0 x1 x2 x3 = k1_pay2 x0 x1 x2 x3 (k1_pay1 (F := F)) := by
  unfold out1_A_4
  rw [View.read_writes_eq_canon _ _ _ (cover1_A_4 c i a2 h2 a3 h3 a4 h4 a5 h5 a6 h6 hc x0 x1 x2 x3)]
  unfold kernelRun1_A
  dsimp only
  sl_unfold_words
  rw [View.canon_cons_unit_zero (S := S1024x1) hz, View.readCov_unit_zero (S := S1024x1) _ hz]
  simp only [View.readAt_eq_ld, h2.read_unread, h3.read_unread, h4.read_unread, h5.read_unread,
    View.ld_unit_zero (S := S1024x640) hz, View.ld_unit_zero (S := S1024x1) hz]

end Cert.KernelIdeal.R1

end
-- ==== Proof.R1Pay.lean ====
/-
  The divergence kernel's arithmetic at one row of a block.

  The body takes a block of student logits and a block of teacher logits (1024 rows by 640 vocabulary entries),
  the two columns of log-sum-exp values for those rows, and the accumulator column.  For each entry it forms the
  student's and the teacher's log-probability by subtracting the row's log-sum-exp, then the entry's share of the
  generalized Jensen–Shannon divergence, sums the shares along the row, and adds the accumulator's value for the
  row.  Read at row p this is the accumulator at p plus the sum over the 640 entries of the share function of the
  specification.  The reset block is zero everywhere.
-/
import proofs.«178291_j71159018160659_2_alg».proof.Proof.Gen.KernelIdeal.Skeleton
import proofs.«178291_j71159018160659_2_alg».proof.Proof.Spec
import proofs.«178291_j71159018160659_2_alg».proof.Proof.LibLayout

noncomputable section

namespace Cert.KernelIdeal.R1

open Idealize.ShloMosaic Idealize.ShloMosaic.ValueIdx Cert.KernelIdeal Cert.KernelIdeal.Gen

/-- The exponential of an array, at an index. -/
theorem exp_apply {s : Shape} {φ : FTy} (x : FVec Ideal s φ) (i : s.Idx) : exp x i = Ideal.exp (x i) := rfl

/-- The logarithm of an array, at an index. -/
theorem log_apply {s : Shape} {φ : FTy} (x : FVec Ideal s φ) (i : s.Idx) : log x i = Ideal.log (x i) := rfl

/-- The block the first stretch resets the accumulator to is zero at every entry. -/
theorem pay1_apply (j : S1024x1.Idx) : k1_pay1 (F := Ideal) j = 0 := by
  unfold k1_pay1
  exact Ideal.ofBits_zero_f32

/-- The body's result at row p: the accumulator's value there plus the row's 640 divergence shares. -/
theorem pay2_apply (s t : Vec Ideal S1024x640 .bf16) (a b acc : Vec Ideal S1024x1 .f32) (p : Fin 1024) (q1 : Fin 1) :
    k1_pay2 (F := Ideal) s t a b acc (ix2 p q1)
      = acc (ix2 p 0) + ∑ q : Fin 640, Cert.JSD.contrib (s (ix2 p q) - a (ix2 p 0)) (t (ix2 p q) - b (ix2 p 0)) := by
  obtain rfl : q1 = 0 := Subsingleton.elim _ _
  unfold k1_pay2
  dsimp only
  refine (addf_apply _ _ _).trans ?_
  refine congrArg₂ (· + ·) (congrFun (shapeCast_self acc _) _) ?_
  refine (Cert.LibLayout.shapeCast_a_a1_apply _ _ p 0).trans ?_
  refine (Cert.LibLayout.lane_sum_apply _ _ _ _ _ p).trans ?_
  refine Finset.sum_congr rfl fun q _ => ?_
  simp only [addf_apply, mulf_apply, subf_apply, exp_apply, log_apply, broadcast_apply, extf_apply, shapeCast_self,
    Cert.LibLayout.broadcastTo_a1_ab_apply, Ideal.ofBits_def]
  rfl

end Cert.KernelIdeal.R1

end
-- ==== Proof.R1Blocks.lean ====
/-
  The input blocks of the divergence kernel, at coordinates.

  The second kernel's grid has 200 points; point n works on row block n / 50 and vocabulary stretch n % 50.  Its
  two logits windows show it rows 1024 (n / 50) + p and vocabulary entries 640 (n % 50) + q of the two cached
  logits arrays, and its two log-sum-exp windows show it rows 1024 (n / 50) + p of the two columns.  The window
  index maps are decided once over the grid; a block's element sits in its array at block index times block size
  plus the element's own coordinate.
-/
import proofs.«178291_j71159018160659_2_alg».proof.Proof.Gen.KernelIdeal.Frame
import proofs.«178291_j71159018160659_2_alg».proof.Proof.Spec
import Idealize.ShloMosaic.Lib.Pipeline.Value

noncomputable section

namespace Cert.KernelIdeal.R1

open Idealize.ShloMosaic Idealize.ShloMosaic.TcCoe Idealize.ShloMosaic.ValueIdx Idealize.SL.Sem
open Cert.KernelIdeal Cert.KernelIdeal.Gen Cert.JSD

variable {F : FTy → Type} [FloatOps F]
variable (V : (c : Dev nD) → (b : Ref sig .tc) → Buf (Elt F) ((c : Thread nD τ).loc b))

/-- The windows' block indices at every grid point: row block n / 50 for all five, stretch n % 50 for the two
    logits windows, 0 for the three columns. -/
theorem idx_facts : ∀ t : Fin cfg1.N,
    (win1_0.index t 0 = t.val / 50 ∧ win1_0.index t 1 = t.val % 50)
    ∧ (win1_1.index t 0 = t.val / 50 ∧ win1_1.index t 1 = t.val % 50)
    ∧ (win1_2.index t 0 = t.val / 50 ∧ win1_2.index t 1 = 0)
    ∧ (win1_3.index t 0 = t.val / 50 ∧ win1_3.index t 1 = 0)
    ∧ (win1_4.index t 0 = t.val / 50 ∧ win1_4.index t 1 = 0) :=
  (by decide +kernel : ∀ t : Fin grid1.N,
    (win1_0.index t 0 = t.val / 50 ∧ win1_0.index t 1 = t.val % 50)
    ∧ (win1_1.index t 0 = t.val / 50 ∧ win1_1.index t 1 = t.val % 50)
    ∧ (win1_2.index t 0 = t.val / 50 ∧ win1_2.index t 1 = 0)
    ∧ (win1_3.index t 0 = t.val / 50 ∧ win1_3.index t 1 = 0)
    ∧ (win1_4.index t 0 = t.val / 50 ∧ win1_4.index t 1 = 0))

/-- The student logits block at point n holds rows 1024 (n / 50) + p, entries 640 (n % 50) + q of the student cache. -/
theorem iblk_0 (c : Dev nD) (t : Fin cfg1.N) (hn : t.val < 200) (p : Fin 1024) (q : Fin 640) :
    (iblk1 V c 0 t : Vec F S1024x640 .bf16) (ix2 p q) = V c main_v4_4 (ix2 (rowOf t.val hn p) (colOf t.val q)) := by
  unfold iblk1
  rw [View.read_apply]
  show V c main_v4_4 _ = V c main_v4_4 _
  refine congrArg (V c main_v4_4) (funext fun a => Fin.ext ?_)
  match a with
  | ⟨0, _⟩ =>
    show win1_0.index t 0 * 1024 + 1 * p.val = 1024 * (t.val / 50) + p.val
    rw [(idx_facts t).1.1]; omega
  | ⟨1, _⟩ =>
    show win1_0.index t 1 * 640 + 1 * q.val = 640 * (t.val % 50) + q.val
    rw [(idx_facts t).1.2]; omega

/-- The teacher logits block at point n holds the same rows and entries of the teacher cache. -/
theorem iblk_1 (c : Dev nD) (t : Fin cfg1.N) (hn : t.val < 200) (p : Fin 1024) (q : Fin 640) :
    (iblk1 V c 1 t : Vec F S1024x640 .bf16) (ix2 p q) = V c main_v4_5 (ix2 (rowOf t.val hn p) (colOf t.val q)) := by
  unfold iblk1
  rw [View.read_apply]
  show V c main_v4_5 _ = V c main_v4_5 _
  refine congrArg (V c main_v4_5) (funext fun a => Fin.ext ?_)
  match a with
  | ⟨0, _⟩ =>
    show win1_1.index t 0 * 1024 + 1 * p.val = 1024 * (t.val / 50) + p.val
    rw [(idx_facts t).2.1.1]; omega
  | ⟨1, _⟩ =>
    show win1_1.index t 1 * 640 + 1 * q.val = 640 * (t.val % 50) + q.val
    rw [(idx_facts t).2.1.2]; omega

/-- The student log-sum-exp block at point n holds rows 1024 (n / 50) + p of the student column. -/
theorem iblk_2 (c : Dev nD) (t : Fin cfg1.N) (hn : t.val < 200) (p : Fin 1024) (q1 : Fin 1) :
    (iblk1 V c 2 t : Vec F S1024x1 .f32) (ix2 p q1) = V c main_v6 (ix2 (rowOf t.val hn p) q1) := by
  unfold iblk1
  rw [View.read_apply]
  show V c main_v6 _ = V c main_v6 _
  refine congrArg (V c main_v6) (funext fun a => Fin.ext ?_)
  match a with
  | ⟨0, _⟩ =>
    show win1_2.index t 0 * 1024 + 1 * p.val = 1024 * (t.val / 50) + p.val
    rw [(idx_facts t).2.2.1.1]; omega
  | ⟨1, _⟩ =>
    show win1_2.index t 1 * 1 + 1 * q1.val = q1.val
    rw [(idx_facts t).2.2.1.2]; omega

/-- The teacher log-sum-exp block at point n holds the same rows of the teacher column. -/
theorem iblk_3 (c : Dev nD) (t : Fin cfg1.N) (hn : t.val < 200) (p : Fin 1024) (q1 : Fin 1) :
    (iblk1 V c 3 t : Vec F S1024x1 .f32) (ix2 p q1) = V c main_v8 (ix2 (rowOf t.val hn p) q1) := by
  unfold iblk1
  rw [View.read_apply]
  show V c main_v8 _ = V c main_v8 _
  refine congrArg (V c main_v8) (funext fun a => Fin.ext ?_)
  match a with
  | ⟨0, _⟩ =>
    show win1_3.index t 0 * 1024 + 1 * p.val = 1024 * (t.val / 50) + p.val
    rw [(idx_facts t).2.2.2.1.1]; omega
  | ⟨1, _⟩ =>
    show win1_3.index t 1 * 1 + 1 * q1.val = q1.val
    rw [(idx_facts t).2.2.2.1.2]; omega

end Cert.KernelIdeal.R1

end
-- ==== Proof.R1Inv.lean ====
/-
  What the divergence accumulator holds after each grid point.

  Write S and T for the two cached logits arrays as functions of token row and vocabulary entry, and cs and ct
  for the two log-sum-exp columns as functions of the row.  After the body at grid point n (row block n / 50,
  vocabulary stretch n % 50) the accumulator block holds, at its row p, the divergence of token row
  1024 (n / 50) + p over the first n % 50 + 1 stretches of the vocabulary.  At stretch 0 the body starts from the
  zero block, so the accumulator holds the first stretch's shares; at a later stretch it adds that stretch's
  shares to what the point before left, which is the same token row's divergence over one stretch fewer.
-/
import proofs.«178291_j71159018160659_2_alg».proof.Proof.R1Pieces
import proofs.«178291_j71159018160659_2_alg».proof.Proof.R1Pay
import proofs.«178291_j71159018160659_2_alg».proof.Proof.R1Blocks
import proofs.«178291_j71159018160659_2_alg».proof.Proof.Online

noncomputable section

namespace Cert.KernelIdeal.R1

open Idealize.ShloMosaic Idealize.ShloMosaic.TcCoe Idealize.ShloMosaic.ValueIdx Idealize.SL.Sem
open Cert.KernelIdeal Cert.KernelIdeal.Gen Cert.JSD

variable (V : (c : Dev nD) → (b : Ref sig .tc) → Buf (Elt Ideal) ((c : Thread nD τ).loc b))

/-- The cached student logits, by token row and vocabulary entry. -/
abbrev sLog (c : Dev nD) (r : Fin 4096) (v : Fin 32000) : EReal := V c main_v4_4 (ix2 r v)
/-- The cached teacher logits, by token row and vocabulary entry. -/
abbrev tLog (c : Dev nD) (r : Fin 4096) (v : Fin 32000) : EReal := V c main_v4_5 (ix2 r v)
/-- The student log-sum-exp of a token row. -/
abbrev sLse (c : Dev nD) (r : Fin 4096) : EReal := V c main_v6 (ix2 r (0 : Fin 1))
/-- The teacher log-sum-exp of a token row. -/
abbrev tLse (c : Dev nD) (r : Fin 4096) : EReal := V c main_v8 (ix2 r (0 : Fin 1))

/-- The body's arithmetic on the blocks of grid point n, at row p: the accumulator's value plus the shares of
    token row 1024 (n / 50) + p over stretch n % 50. -/
theorem step_apply (c : Dev nD) (t : Fin cfg1.N) (hn : t.val < 200) (acc : Vec Ideal S1024x1 .f32) (p : Fin 1024) (q1 : Fin 1) :
    k1_pay2 (F := Ideal) (iblk1 V c 0 t) (iblk1 V c 1 t) (iblk1 V c 2 t) (iblk1 V c 3 t) acc (ix2 p q1)
      = acc (ix2 p 0) + ∑ q : Fin 640, contrib (sLog V c (rowOf t.val hn p) (colOf t.val q) - sLse V c (rowOf t.val hn p))
          (tLog V c (rowOf t.val hn p) (colOf t.val q) - tLse V c (rowOf t.val hn p)) := by
  refine (pay2_apply (iblk1 V c 0 t) (iblk1 V c 1 t) (iblk1 V c 2 t) (iblk1 V c 3 t) acc p q1).trans ?_
  refine congrArg₂ (· + ·) rfl (Finset.sum_congr rfl fun q _ => ?_)
  rw [iblk_0 V c t hn p q, iblk_1 V c t hn p q, iblk_2 V c t hn p 0, iblk_3 V c t hn p 0]

/-- If the accumulator holds the row's divergence over the first n % 50 stretches, the body at point n leaves
    the divergence over one stretch more. -/
theorem point_eq (c : Dev nD) (t : Fin cfg1.N) (hn : t.val < 200) (acc : Vec Ideal S1024x1 .f32) (p : Fin 1024) (q1 : Fin 1)
    (hacc : acc (ix2 p 0) = pJsd (sLog V c) (tLog V c) (sLse V c) (tLse V c) (rowOf t.val hn p) (t.val % 50)) :
    k1_pay2 (F := Ideal) (iblk1 V c 0 t) (iblk1 V c 1 t) (iblk1 V c 2 t) (iblk1 V c 3 t) acc (ix2 p q1)
      = pJsd (sLog V c) (tLog V c) (sLse V c) (tLse V c) (rowOf t.val hn p) (t.val % 50 + 1) := by
  rw [pJsd_succ _ _ _ _ _ (t.val % 50) (Nat.mod_lt _ (by omega)), ← hacc]
  exact step_apply V c t hn acc p q1

/-- Over no stretch at all a row's divergence is zero. -/
theorem pJsd_zero (ls lt : Fin 4096 → Fin 32000 → EReal) (cs ct : Fin 4096 → EReal) (r : Fin 4096) :
    pJsd ls lt cs ct r 0 = 0 := by
  unfold pJsd; rw [pre_zero, Finset.sum_empty]

/-- A point at stretch 0. -/
theorem outsAt_first (c : Dev nD) (t : Fin cfg1.N) (hn : t.val < 200) (h0 : t.val % 50 = 0) (p : Fin 1024) (q1 : Fin 1) :
    outsAt1 V c t.val t.isLt (ix2 p q1)
      = pJsd (sLog V c) (tLog V c) (sLse V c) (tLse V c) (rowOf t.val hn p) (t.val % 50 + 1) := by
  rw [outsAt1_A V c t h0]
  refine (congrFun (out_A_4 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t) (iblk1 V c 3 t)) (ix2 p q1)).trans ?_
  refine point_eq V c t hn (k1_pay1 (F := Ideal)) p q1 ?_
  rw [pay1_apply, h0, pJsd_zero]

/-- A point at a later stretch, given the point before. -/
theorem outsAt_later (c : Dev nD) (t : Fin cfg1.N) (hn : t.val < 200) (h0 : ¬t.val % 50 = 0) (p : Fin 1024) (q1 : Fin 1)
    (ih : ∀ (hN' : t.val - 1 < cfg1.N) (hn' : t.val - 1 < 200), outsAt1 V c (t.val - 1) hN' (ix2 p 0)
      = pJsd (sLog V c) (tLog V c) (sLse V c) (tLse V c) (rowOf (t.val - 1) hn' p) ((t.val - 1) % 50 + 1)) :
    outsAt1 V c t.val t.isLt (ix2 p q1)
      = pJsd (sLog V c) (tLog V c) (sLse V c) (tLse V c) (rowOf t.val hn p) (t.val % 50 + 1) := by
  rw [outsAt1_B V c t h0]
  refine (congrFun (out_B_4 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (iblk1 V c 3 t)
    (outsAt1 V c (t.val - 1) (Nat.lt_of_le_of_lt (Nat.sub_le _ _) t.isLt))) (ix2 p q1)).trans ?_
  refine point_eq V c t hn _ p q1 ?_
  rw [ih _ (by omega)]
  have e1 : (t.val - 1) % 50 + 1 = t.val % 50 := by omega
  have e2 : rowOf (t.val - 1) (by omega) p = rowOf t.val hn p := Fin.ext (by simp only [rowOf]; omega)
  rw [e1, e2]

/-- After the body at point n the accumulator's row p holds the divergence of token row 1024 (n / 50) + p over the
    first n % 50 + 1 stretches. -/
theorem outsAt_apply (c : Dev nD) : ∀ (n : ℕ) (hN : n < cfg1.N) (hn : n < 200) (p : Fin 1024) (q1 : Fin 1),
    outsAt1 V c n hN (ix2 p q1)
      = pJsd (sLog V c) (tLog V c) (sLse V c) (tLse V c) (rowOf n hn p) (n % 50 + 1) := by
  intro n
  induction n with
  | zero =>
    intro hN hn p q1
    exact outsAt_first V c ⟨0, hN⟩ hn rfl p q1
  | succ n ih =>
    intro hN hn p q1
    by_cases h0 : (n + 1) % 50 = 0
    · exact outsAt_first V c ⟨n + 1, hN⟩ hn h0 p q1
    · exact outsAt_later V c ⟨n + 1, hN⟩ hn h0 p q1 (fun hN' hn' => ih hN' hn' p 0)

end Cert.KernelIdeal.R1

end
-- ==== Proof.R1Arr.lean ====
/-
  The divergence kernel's result column.

  The accumulator window keeps its block over the 50 vocabulary stretches of a row block and is written back at
  the last of them, the grid points n with n % 50 = 49.  There the accumulator's row p holds the divergence of
  token row 1024 (n / 50) + p over all 50 stretches, that is over the whole vocabulary.  The four write-backs cover
  the column: token row r lies in the block written at point 50 (r / 1024) + 49.  So after the kernel the column
  holds every token row's divergence over the whole vocabulary.
-/
import proofs.«178291_j71159018160659_2_alg».proof.Proof.R1Inv
import Idealize.ShloMosaic.Lib.Pipeline.Value

noncomputable section

namespace Cert.KernelIdeal.R1

open Idealize.ShloMosaic Idealize.ShloMosaic.TcCoe Idealize.ShloMosaic.ValueIdx Idealize.SL.Sem
open Idealize.ShloMosaic.Pipeline (Dat)
open Cert.KernelIdeal Cert.KernelIdeal.Gen Cert.JSD

variable (V : (c : Dev nD) → (b : Ref sig .tc) → Buf (Elt Ideal) ((c : Thread nD τ).loc b))

/-- The result column: every token row's divergence over the whole vocabulary. -/
def rowsJsd (c : Dev nD) : Buf (Elt Ideal) ((c : Thread nD τ).loc main_v9) :=
  fun i : S4096x1.Idx => rowJsd (sLog V c) (tLog V c) (sLse V c) (tLse V c) (i 0)

/-- The result column at an index is the divergence of the index's token row. -/
theorem rowsJsd_apply (c : Dev nD) (i : S4096x1.Idx) :
    rowsJsd V c i = rowJsd (sLog V c) (tLog V c) (sLse V c) (tLse V c) (i 0) := rfl

/-- An index of the column is in the block written at point t iff each coordinate is in the block's range. -/
theorem mem_blk (t : Fin cfg1.N) (i : S4096x1.Idx) :
    i ∈ ((cfg1.win 4).blk t).view.set ↔ ∀ a : Fin 2, win1_4.index t a * S1024x1.size a ≤ (i a).val
      ∧ (i a).val < win1_4.index t a * S1024x1.size a + S1024x1.size a := by
  show i ∈ ((View.whole main_v9).slice (win1_4.rect t)).set ↔ _
  rw [View.set_slice_whole, Rect.mem_set_unit]
  exact Iff.rfl

/-- What a write-back writes is its block of any column that holds, at every index, the divergence of the
    index's token row over the whole vocabulary. -/
theorem flushed_eq_of (c : Dev nD) (t : Fin cfg1.N) (hf : (cfg1.win 4).flush t = true)
    (G : Buf (Elt Ideal) ((c : Thread nD τ).loc main_v9))
    (hG : ∀ i : S4096x1.Idx, G i = rowJsd (sLog V c) (tLog V c) (sLse V c) (tLse V c) (i 0)) :
    (dat1 (F := Ideal) V c).flushed 4 t = ((cfg1.win 4).blk t).view.read (Elt Ideal) G := by
  have hN : t.val < 200 := lt_of_lt_of_eq t.isLt (show cfg1.N = 200 from N_1)
  have h49 : t.val % 50 = 49 := (flush1_4 t).mp hf
  show (cfg1.win 4).cut (grid1.coords t) ((dat1 V c).after 4 t) = _
  rw [after1_4]
  funext j
  have hj0 : (j 0).val < 1024 := (j 0).isLt
  have hj1 : (j 1).val < 1 := (j 1).isLt
  have ej : (cfg1.win 4).xinj (grid1.coords t) j = ix2 (⟨(j 0).val, hj0⟩ : Fin 1024) (⟨(j 1).val, hj1⟩ : Fin 1) := by
    funext a; apply Fin.ext
    match a with
    | ⟨0, _⟩ => rfl
    | ⟨1, _⟩ => rfl
  show outsAt1 V c t.val t.isLt ((cfg1.win 4).xinj (grid1.coords t) j) = _
  rw [ej, outsAt_apply V c t.val t.isLt hN ⟨(j 0).val, hj0⟩ ⟨(j 1).val, hj1⟩, View.read_apply]
  have e50 : t.val % 50 + 1 = 50 := by omega
  rw [e50]
  refine (pJsd_fifty _ _ _ _ _).trans ?_
  show _ = G (((cfg1.win 4).blk t).view.emb j)
  refine Eq.trans ?_ (hG _).symm
  refine congrArg (rowJsd (sLog V c) (tLog V c) (sLse V c) (tLse V c)) (Fin.ext ?_)
  show 1024 * (t.val / 50) + (j 0).val = win1_4.index t 0 * 1024 + 1 * (j 0).val
  rw [(idx_facts t).2.2.2.2.1]; omega

/-- What a write-back writes is its block of the result column. -/
theorem flushed_eq (c : Dev nD) (t : Fin cfg1.N) (hf : (cfg1.win 4).flush t = true) :
    (dat1 (F := Ideal) V c).flushed 4 t = ((cfg1.win 4).blk t).view.read (Elt Ideal) (rowsJsd V c) :=
  flushed_eq_of V c t hf (rowsJsd V c) (rowsJsd_apply V c)

/-- After the kernel the column holds the result column: the four write-backs cover it. -/
theorem arr_eq (c : Dev nD) : (dat1 (F := Ideal) V c).arrAt 4 cfg1.N = rowsJsd V c :=
  (dat1 (F := Ideal) V c).arrAt_eq_of_cover 4 (rowsJsd V c) (flushed_eq V c) fun i => by
    have hi0 : (i 0).val < 4096 := (i 0).isLt
    have hi1 : (i 1).val < 1 := (i 1).isLt
    have hlt : 50 * ((i 0).val / 1024) + 49 < cfg1.N :=
      lt_of_lt_of_eq (by omega : 50 * ((i 0).val / 1024) + 49 < 200) (show cfg1.N = 200 from N_1).symm
    obtain ⟨-, -, -, -, e0, e1⟩ := idx_facts ⟨50 * ((i 0).val / 1024) + 49, hlt⟩
    refine ⟨⟨50 * ((i 0).val / 1024) + 49, hlt⟩, (flush1_4 _).mpr (by show (50 * ((i 0).val / 1024) + 49) % 50 = 49; omega), ?_⟩
    refine (mem_blk _ i).mpr fun a => ?_
    match a with
    | ⟨0, _⟩ =>
      show win1_4.index ⟨50 * ((i 0).val / 1024) + 49, hlt⟩ 0 * 1024 ≤ (i 0).val
        ∧ (i 0).val < win1_4.index ⟨50 * ((i 0).val / 1024) + 49, hlt⟩ 0 * 1024 + 1024
      rw [e0]
      show (50 * ((i 0).val / 1024) + 49) / 50 * 1024 ≤ (i 0).val ∧ (i 0).val < (50 * ((i 0).val / 1024) + 49) / 50 * 1024 + 1024
      omega
    | ⟨1, _⟩ =>
      show win1_4.index ⟨50 * ((i 0).val / 1024) + 49, hlt⟩ 1 * 1 ≤ (i 1).val
        ∧ (i 1).val < win1_4.index ⟨50 * ((i 0).val / 1024) + 49, hlt⟩ 1 * 1 + 1
      rw [e1]; omega

/-- Read at a token row: the column after the kernel holds that row's divergence over the whole vocabulary. -/
theorem arr_4 (c : Dev nD) : ∀ (r : Fin 4096) (q1 : Fin 1),
    (dat1 (F := Ideal) V c).arrAt 4 cfg1.N (ix2 r q1) = rowJsd (sLog V c) (tLog V c) (sLse V c) (tLse V c) r :=
  fun r q1 => (congrFun (arr_eq V c) (ix2 r q1)).trans rfl

end Cert.KernelIdeal.R1

end
-- ==== Proof.KValue.lean ====
/-
  The idealized program's result as mathematics.  The first region leaves, for every token row, the largest
  logit and the shifted sum of exponentials of each side, and the two logits matrices; the host operations turn
  the former into the two log-sum-exp columns; the second region leaves every row's divergence; the last host
  stretch forms half the mean cross-entropy plus half the mean divergence.  Put together, the result buffer holds
  the loss in its streaming arrangement, as a function of the five argument arrays.
-/
import proofs.«178291_j71159018160659_2_alg».proof.Proof.TailValue
import proofs.«178291_j71159018160659_2_alg».proof.Proof.Mid
import proofs.«178291_j71159018160659_2_alg».proof.Proof.R0Arr
import proofs.«178291_j71159018160659_2_alg».proof.Proof.R0Inv
import proofs.«178291_j71159018160659_2_alg».proof.Proof.R1Arr

set_option maxRecDepth 16384

noncomputable section

namespace Cert.KernelIdeal.KValue

open Cert.KernelIdeal Cert.KernelIdeal.Gen Cert.JSD
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

/-- The student activations, the teacher activations, the labels and the two weight matrices as launched. -/
abbrev aX0 : FVec Ideal S4096x2048 .f32 := m ((c : Thread nD τ).loc main_arg0)
abbrev aX1 : FVec Ideal S4096x4096 .f32 := m ((c : Thread nD τ).loc main_arg1)
abbrev aTG : IVec S4096 32 := m ((c : Thread nD τ).loc main_arg2)
abbrev aW0 : FVec Ideal S32000x2048 .f32 := m ((c : Thread nD τ).loc main_arg3)
abbrev aW1 : FVec Ideal S32000x4096 .f32 := m ((c : Thread nD τ).loc main_arg4)

/-- The student's and the teacher's logits of the launched arrays. -/
abbrev ls : Fin 4096 → Fin 32000 → EReal := logit (K := 2048) (aX0 m c) (aW0 m c)
abbrev lt : Fin 4096 → Fin 32000 → EReal := logit (K := 4096) (aX1 m c) (aW1 m c)

/-- The logits the first region works with are the logits of the launched arrays: narrowing is the identity. -/
theorem lsOf_eq : R0.lsOf (V1 m ρ) c = ls m c := by
  show logit (K := 2048) (V1 m ρ c main_v0) (V1 m ρ c main_v2) = _
  rw [Mid.V1_v0, Mid.V1_v2]
  rfl
theorem ltOf_eq : R0.ltOf (V1 m ρ) c = lt m c := by
  show logit (K := 4096) (V1 m ρ c main_v1) (V1 m ρ c main_v3) = _
  rw [Mid.V1_v1, Mid.V1_v3]
  rfl

section Finite

variable (h0 : ∀ i, ∃ a : ℝ, aX0 m c i = (a : EReal)) (h1 : ∀ i, ∃ a : ℝ, aX1 m c i = (a : EReal))
  (h3 : ∀ i, ∃ a : ℝ, aW0 m c i = (a : EReal)) (h4 : ∀ i, ∃ a : ℝ, aW1 m c i = (a : EReal))

include h0 h1 h3 h4

theorem fin0 : ∀ i : (⟨2, ![4096, 2048]⟩ : Shape).Idx, ∃ a : ℝ, (V1 m ρ c main_v0 : (⟨2, ![4096, 2048]⟩ : Shape).Idx → EReal) i = (a : EReal) := by
  intro i; rw [Mid.V1_v0]; exact h0 i
theorem fin1 : ∀ i : (⟨2, ![4096, 4096]⟩ : Shape).Idx, ∃ a : ℝ, (V1 m ρ c main_v1 : (⟨2, ![4096, 4096]⟩ : Shape).Idx → EReal) i = (a : EReal) := by
  intro i; rw [Mid.V1_v1]; exact h1 i
theorem fin2 : ∀ i : (⟨2, ![32000, 2048]⟩ : Shape).Idx, ∃ a : ℝ, (V1 m ρ c main_v2 : (⟨2, ![32000, 2048]⟩ : Shape).Idx → EReal) i = (a : EReal) := by
  intro i; rw [Mid.V1_v2]; exact h3 i
theorem fin3 : ∀ i : (⟨2, ![32000, 4096]⟩ : Shape).Idx, ∃ a : ℝ, (V1 m ρ c main_v3 : (⟨2, ![32000, 4096]⟩ : Shape).Idx → EReal) i = (a : EReal) := by
  intro i; rw [Mid.V1_v3]; exact h4 i

/-! ## What the first region leaves -/

theorem maxS (r : Fin 4096) (q : Fin 1) :
    (W2 m ρ c (Proc.devRef .tc main_v4_0) : S4096x1.Idx → EReal) (ix2 r q) = rowMax (ls m c) r := by
  have e : W2 m ρ c (Proc.devRef .tc main_v4_0) = (dat0 (V1 m ρ) c).arrAt 4 cfg0.N := W2_arr m ρ c 4
  rw [e, ← lsOf_eq m ρ c]
  refine R0.arr_col4 (V1 m ρ) c (fun r => rowMax (R0.lsOf (V1 m ρ) c) r) (fun n hn hN h49 p q => ?_) r q
  rw [after0_4]
  refine (R0.inv_4 (V1 m ρ) c (fin0 m ρ c h0 h1 h3 h4) (fin2 m ρ c h0 h1 h3 h4) (fin1 m ρ c h0 h1 h3 h4) (fin3 m ρ c h0 h1 h3 h4) n hN hn p q).trans ?_
  rw [h49]; exact pMax_fifty _ _
theorem sumS (r : Fin 4096) (q : Fin 1) :
    (W2 m ρ c (Proc.devRef .tc main_v4_1) : S4096x1.Idx → EReal) (ix2 r q) = rowSumExp (ls m c) r := by
  have e : W2 m ρ c (Proc.devRef .tc main_v4_1) = (dat0 (V1 m ρ) c).arrAt 5 cfg0.N := W2_arr m ρ c 5
  rw [e, ← lsOf_eq m ρ c]
  refine R0.arr_col5 (V1 m ρ) c (fun r => rowSumExp (R0.lsOf (V1 m ρ) c) r) (fun n hn hN h49 p q => ?_) r q
  rw [after0_5]
  refine (R0.inv_5 (V1 m ρ) c (fin0 m ρ c h0 h1 h3 h4) (fin2 m ρ c h0 h1 h3 h4) (fin1 m ρ c h0 h1 h3 h4) (fin3 m ρ c h0 h1 h3 h4) n hN hn p q).trans ?_
  rw [h49]; exact pSumExp_fifty _ _
theorem maxT (r : Fin 4096) (q : Fin 1) :
    (W2 m ρ c (Proc.devRef .tc main_v4_2) : S4096x1.Idx → EReal) (ix2 r q) = rowMax (lt m c) r := by
  have e : W2 m ρ c (Proc.devRef .tc main_v4_2) = (dat0 (V1 m ρ) c).arrAt 6 cfg0.N := W2_arr m ρ c 6
  rw [e, ← ltOf_eq m ρ c]
  refine R0.arr_col6 (V1 m ρ) c (fun r => rowMax (R0.ltOf (V1 m ρ) c) r) (fun n hn hN h49 p q => ?_) r q
  rw [after0_6]
  refine (R0.inv_6 (V1 m ρ) c (fin0 m ρ c h0 h1 h3 h4) (fin2 m ρ c h0 h1 h3 h4) (fin1 m ρ c h0 h1 h3 h4) (fin3 m ρ c h0 h1 h3 h4) n hN hn p q).trans ?_
  rw [h49]; exact pMax_fifty _ _
theorem sumT (r : Fin 4096) (q : Fin 1) :
    (W2 m ρ c (Proc.devRef .tc main_v4_3) : S4096x1.Idx → EReal) (ix2 r q) = rowSumExp (lt m c) r := by
  have e : W2 m ρ c (Proc.devRef .tc main_v4_3) = (dat0 (V1 m ρ) c).arrAt 7 cfg0.N := W2_arr m ρ c 7
  rw [e, ← ltOf_eq m ρ c]
  refine R0.arr_col7 (V1 m ρ) c (fun r => rowSumExp (R0.ltOf (V1 m ρ) c) r) (fun n hn hN h49 p q => ?_) r q
  rw [after0_7]
  refine (R0.inv_7 (V1 m ρ) c (fin0 m ρ c h0 h1 h3 h4) (fin2 m ρ c h0 h1 h3 h4) (fin1 m ρ c h0 h1 h3 h4) (fin3 m ρ c h0 h1 h3 h4) n hN hn p q).trans ?_
  rw [h49]; exact pSumExp_fifty _ _
theorem cacheS (r : Fin 4096) (v : Fin 32000) :
    (W2 m ρ c (Proc.devRef .tc main_v4_4) : S4096x32000.Idx → EReal) (ix2 r v) = ls m c r v := by
  have e : W2 m ρ c (Proc.devRef .tc main_v4_4) = (dat0 (V1 m ρ) c).arrAt 8 cfg0.N := W2_arr m ρ c 8
  rw [e, ← lsOf_eq m ρ c]
  refine R0.arr_tile8 (V1 m ρ) c (fun r v => R0.lsOf (V1 m ρ) c r v) (fun n hn hN p q => ?_) r v
  rw [after0_8]
  exact R0.inv_8 (V1 m ρ) c (fin0 m ρ c h0 h1 h3 h4) (fin2 m ρ c h0 h1 h3 h4) (fin1 m ρ c h0 h1 h3 h4) (fin3 m ρ c h0 h1 h3 h4) n hN hn p q
theorem cacheT (r : Fin 4096) (v : Fin 32000) :
    (W2 m ρ c (Proc.devRef .tc main_v4_5) : S4096x32000.Idx → EReal) (ix2 r v) = lt m c r v := by
  have e : W2 m ρ c (Proc.devRef .tc main_v4_5) = (dat0 (V1 m ρ) c).arrAt 9 cfg0.N := W2_arr m ρ c 9
  rw [e, ← ltOf_eq m ρ c]
  refine R0.arr_tile9 (V1 m ρ) c (fun r v => R0.ltOf (V1 m ρ) c r v) (fun n hn hN p q => ?_) r v
  rw [after0_9]
  exact R0.inv_9 (V1 m ρ) c (fin0 m ρ c h0 h1 h3 h4) (fin2 m ρ c h0 h1 h3 h4) (fin1 m ρ c h0 h1 h3 h4) (fin3 m ρ c h0 h1 h3 h4) n hN hn p q

/-! ## What the second region reads and leaves -/

theorem lseS (r : Fin 4096) : (V3 m ρ c main_v6 : S4096x1.Idx → EReal) (ix2 r (0 : Fin 1)) = lse (ls m c) r := by
  rw [Mid.V3_v6, Mid.lseCol_apply, maxS m ρ c h0 h1 h3 h4, sumS m ρ c h0 h1 h3 h4]
  rfl
theorem lseT (r : Fin 4096) : (V3 m ρ c main_v8 : S4096x1.Idx → EReal) (ix2 r (0 : Fin 1)) = lse (lt m c) r := by
  rw [Mid.V3_v8, Mid.lseCol_apply, maxT m ρ c h0 h1 h3 h4, sumT m ρ c h0 h1 h3 h4]
  rfl

theorem sLog_eq : R1.sLog (V3 m ρ) c = ls m c := by
  funext r v
  show (V3 m ρ c main_v4_4 : S4096x32000.Idx → EReal) (ix2 r v) = _
  rw [Mid.V3_v4_4]; exact cacheS m ρ c h0 h1 h3 h4 r v
theorem tLog_eq : R1.tLog (V3 m ρ) c = lt m c := by
  funext r v
  show (V3 m ρ c main_v4_5 : S4096x32000.Idx → EReal) (ix2 r v) = _
  rw [Mid.V3_v4_5]; exact cacheT m ρ c h0 h1 h3 h4 r v
theorem sLse_eq : R1.sLse (V3 m ρ) c = lse (ls m c) := funext fun r => lseS m ρ c h0 h1 h3 h4 r
theorem tLse_eq : R1.tLse (V3 m ρ) c = lse (lt m c) := funext fun r => lseT m ρ c h0 h1 h3 h4 r

theorem jsdCol (r : Fin 4096) (q : Fin 1) :
    (W4 m ρ c (Proc.devRef .tc main_v9) : S4096x1.Idx → EReal) (ix2 r q)
      = rowJsd (ls m c) (lt m c) (lse (ls m c)) (lse (lt m c)) r := by
  have e : W4 m ρ c (Proc.devRef .tc main_v9) = (dat1 (V3 m ρ) c).arrAt 4 cfg1.N := W4_arr m ρ c 4
  rw [e]
  refine (R1.arr_4 (V3 m ρ) c r q).trans ?_
  rw [sLog_eq m ρ c h0 h1 h3 h4, tLog_eq m ρ c h0 h1 h3 h4, sLse_eq m ρ c h0 h1 h3 h4, tLse_eq m ρ c h0 h1 h3 h4]

theorem lseCol6 (r : Fin 4096) :
    (W4 m ρ c (Proc.devRef .tc main_v6) : S4096x1.Idx → EReal) (ix2 r (0 : Fin 1)) = lse (ls m c) r := by
  have e : W4 m ρ c (Proc.devRef .tc main_v6) = V3 m ρ c main_v6 :=
    (W4_arr m ρ c 2).trans (((dat1 (V3 m ρ) c).arrAt_in 2 rfl cfg1.N).trans (A_eq1 (V3 m ρ) c 2))
  rw [e]
  exact lseS m ρ c h0 h1 h3 h4 r

/-! ## The result -/

/-- The result buffer of the idealized program holds the loss in its streaming arrangement. -/
theorem result (hr : ∀ r : Fin 4096, -32000 ≤ (aTG m c (ix1 r)).toInt ∧ (aTG m c (ix1 r)).toInt < 32000) :
    (W8 m ρ c (Proc.devRef .tc main_v29) : S_.Idx → EReal) = fun _ => streamLoss (ls m c) (lt m c) (aTG m c) := by
  rw [HostTail.result_eq, Mid.W4_main_arg0, Mid.W4_main_arg2, Mid.W4_main_arg3]
  funext j
  rw [HostTail.tail_apply _ _ _ _ _ hr j]
  unfold streamLoss
  have e6 : ∀ r : Fin 4096, (W4 m ρ c (Proc.devRef .tc main_v6) : S4096x1.Idx → EReal) (ix2 r (0 : Fin 1)) = lse (ls m c) r :=
    lseCol6 m ρ c h0 h1 h3 h4
  have e9 : ∀ r : Fin 4096, (W4 m ρ c (Proc.devRef .tc main_v9) : S4096x1.Idx → EReal) (ix2 r (0 : Fin 1))
      = rowJsd (ls m c) (lt m c) (lse (ls m c)) (lse (lt m c)) r := fun r => jsdCol m ρ c h0 h1 h3 h4 r 0
  simp only [e6, e9]

end Finite

end Cert.KernelIdeal.KValue

end
-- ==== Proof.LibLossAlgebra.lean ====
/-
  General facts on the extended reals used to bring both programs' per-point terms to the
  normal forms of the loss specification: the logistic function is monotone (so it commutes with
  a minimum), the two spellings of the hard indicator ("the count of satisfied conditions exceeds
  2.5" and "the count divided by 3 equals 1") both say that all three conditions hold, and the two
  spellings of the cross entropy against a 0/1 label agree.
-/
import Mathlib.Tactic
import Idealize.ShloMosaic.PureOps.Ideal

noncomputable section

namespace Cert.LossAlgebra

open Idealize.ShloMosaic

/-! ### The logistic function is monotone -/

/-- The logistic function takes values in [0, 1]: it is nonnegative. -/
theorem logistic_nonneg (x : EReal) : 0 ≤ Ideal.logistic x := by
  induction x using EReal.rec with
  | bot => rw [Ideal.logistic_bot]
  | coe r =>
    rw [Ideal.logistic_coe]
    have h : (0 : ℝ) ≤ (1 + Real.exp (-r))⁻¹ := by positivity
    exact_mod_cast h
  | top => rw [Ideal.logistic_top]; exact zero_le_one

/-- The logistic function takes values in [0, 1]: it is at most one. -/
theorem logistic_le_one (x : EReal) : Ideal.logistic x ≤ 1 := by
  induction x using EReal.rec with
  | bot => rw [Ideal.logistic_bot]; exact zero_le_one
  | coe r =>
    rw [Ideal.logistic_coe]
    have h : (1 + Real.exp (-r))⁻¹ ≤ (1 : ℝ) := by
      apply inv_le_one_of_one_le₀
      have := Real.exp_pos (-r)
      linarith
    exact_mod_cast h
  | top => rw [Ideal.logistic_top]

/-- The logistic function x ↦ 1 / (1 + exp (-x)) is monotone on the extended reals
    (with ⊥ ↦ 0 and ⊤ ↦ 1). -/
theorem logistic_mono : Monotone Ideal.logistic := by
  intro a b hab
  induction a using EReal.rec with
  | bot => rw [Ideal.logistic_bot]; exact logistic_nonneg b
  | coe r =>
    induction b using EReal.rec with
    | bot => exact absurd hab (by simp)
    | coe s =>
      rw [Ideal.logistic_coe, Ideal.logistic_coe]
      have hrs : r ≤ s := by exact_mod_cast hab
      have h : (1 + Real.exp (-r))⁻¹ ≤ (1 + Real.exp (-s))⁻¹ := by
        apply inv_anti₀
        · have := Real.exp_pos (-s); linarith
        · have : Real.exp (-s) ≤ Real.exp (-r) := Real.exp_le_exp.mpr (by linarith)
          linarith
      exact_mod_cast h
    | top => rw [Ideal.logistic_top]; exact logistic_le_one _
  | top =>
    have hb : b = ⊤ := top_le_iff.mp hab
    rw [hb]

/-- The logistic function commutes with a minimum of two. -/
theorem logistic_min (a b : EReal) :
    Ideal.logistic (min a b) = min (Ideal.logistic a) (Ideal.logistic b) :=
  logistic_mono.map_min

/-- The logistic function commutes with a maximum of two. -/
theorem logistic_max (a b : EReal) :
    Ideal.logistic (max a b) = max (Ideal.logistic a) (Ideal.logistic b) :=
  logistic_mono.map_max

/-- The logistic function commutes with a minimum of three. -/
theorem logistic_min3 (a b c : EReal) :
    Ideal.logistic (min (min a b) c)
      = min (min (Ideal.logistic a) (Ideal.logistic b)) (Ideal.logistic c) := by
  rw [logistic_min, logistic_min]

/-- The same, with the minimum started from ⊤ and associated to the left. -/
theorem logistic_min3_top_left (a b c : EReal) :
    Ideal.logistic (min (min a b) c)
      = min (min (min ⊤ (Ideal.logistic a)) (Ideal.logistic b)) (Ideal.logistic c) := by
  rw [logistic_min3, top_inf_eq]

/-- The same, with the minimum ended at ⊤ and associated to the right. -/
theorem logistic_min3_top_right (a b c : EReal) :
    Ideal.logistic (min (min a b) c)
      = min (Ideal.logistic a) (min (Ideal.logistic b) (min (Ideal.logistic c) ⊤)) := by
  rw [logistic_min3, inf_top_eq, min_assoc]

/-- A fold of min over the three indices of Fin 3 from an initial value is the nested minimum. -/
theorem fold_min_univ_fin3 (init : EReal) (f : Fin 3 → EReal) :
    (Finset.univ : Finset (Fin 3)).fold min init f = min init (min (min (f 0) (f 1)) (f 2)) := by
  have h : (Finset.univ : Finset (Fin 3)) = insert 0 (insert 1 {2}) := by decide
  rw [h, Finset.fold_insert (by decide), Finset.fold_insert (by decide), Finset.fold_singleton]
  ac_rfl

/-- A fold of min from ⊤ over Fin 3 is the minimum of the three values. -/
theorem fold_min_top_univ_fin3 (f : Fin 3 → EReal) :
    (Finset.univ : Finset (Fin 3)).fold min ⊤ f = min (min (f 0) (f 1)) (f 2) := by
  rw [fold_min_univ_fin3, top_inf_eq]

/-- The least of the three logistic values, as a fold of min from ⊤ over Fin 3, is the
    logistic value of the least argument. -/
theorem fold_min_top_logistic_fin3 (c : Fin 3 → EReal) :
    (Finset.univ : Finset (Fin 3)).fold min ⊤ (fun k => Ideal.logistic (c k))
      = Ideal.logistic (min (min (c 0) (c 1)) (c 2)) := by
  rw [fold_min_top_univ_fin3, logistic_min3]

/-! ### A 0/1 label and the cross entropy against it -/

section Label

variable (p : Prop) [Decidable p]

/-- Subtracting from zero is negation. -/
theorem zero_sub_eq_neg (L : EReal) : 0 - L = -L := by rw [sub_eq_add_neg, zero_add]

/-- One minus one is zero. -/
theorem one_sub_one : (1 : EReal) - 1 = 0 := by
  rw [← EReal.coe_one, ← EReal.coe_sub, sub_self, EReal.coe_zero]

/-- A 0/1 label is zero or one. -/
theorem ind_eq_zero_or_one : (if p then (1 : EReal) else 0) = 0 ∨ (if p then (1 : EReal) else 0) = 1 := by
  by_cases h : p
  · right; rw [if_pos h]
  · left; rw [if_neg h]

/-- A 0/1 label is one exactly when its condition holds. -/
theorem ind_eq_one_iff : (if p then (1 : EReal) else 0) = 1 ↔ p := by
  by_cases h : p
  · rw [if_pos h]; exact iff_of_true rfl h
  · rw [if_neg h]; exact iff_of_false zero_ne_one h

/-- A 0/1 label is zero exactly when its condition fails. -/
theorem ind_eq_zero_iff : (if p then (1 : EReal) else 0) = 0 ↔ ¬p := by
  by_cases h : p
  · rw [if_pos h]; exact iff_of_false one_ne_zero (not_not.mpr h)
  · rw [if_neg h]; exact iff_of_true rfl h

/-- A threshold in [0, 1) is below a 0/1 label exactly when the label's condition holds. -/
theorem lt_ind_iff {t : EReal} (h0 : 0 ≤ t) (h1 : t < 1) :
    t < (if p then (1 : EReal) else 0) ↔ p := by
  by_cases h : p
  · rw [if_pos h]; exact iff_of_true h1 h
  · rw [if_neg h]; exact iff_of_false (not_lt.mpr h0) h

/-- One half is below a 0/1 label exactly when the label's condition holds. -/
theorem half_lt_ind_iff : ((1 / 2 : ℝ) : EReal) < (if p then (1 : EReal) else 0) ↔ p := by
  apply lt_ind_iff
  · exact_mod_cast (by norm_num : (0 : ℝ) ≤ 1 / 2)
  · exact_mod_cast (by norm_num : (1 / 2 : ℝ) < 1)

/-- Cross entropy against a 0/1 label g: (-g) * L1 - (1 - g) * L2 is -L1 when g = 1 and -L2 when
    g = 0 (the products by zero vanish even when the other factor is infinite). -/
theorem ce_label (L1 L2 : EReal) :
    (-(if p then (1 : EReal) else 0)) * L1 - (1 - (if p then (1 : EReal) else 0)) * L2
      = -(if p then L1 else L2) := by
  by_cases h : p
  · simp only [if_pos h]
    rw [neg_mul, one_mul, one_sub_one, zero_mul, sub_zero]
  · simp only [if_neg h]
    rw [neg_zero, zero_mul, sub_zero, one_mul, zero_sub_eq_neg]

/-- The same with the two logarithms of the reference spelled out: the cross entropy is minus the
    logarithm of (the chosen probability plus the offset). -/
theorem ce_label_log (A B e : EReal) :
    (-(if p then (1 : EReal) else 0)) * Ideal.log (A + e)
        - (1 - (if p then (1 : EReal) else 0)) * Ideal.log (B + e)
      = -(Ideal.log ((if p then A else B) + e)) := by
  rw [ce_label]
  by_cases h : p
  · simp only [if_pos h]
  · simp only [if_neg h]

/-- The product of a value and a 0/1 label is the value or zero. -/
theorem mul_ind (x : EReal) : x * (if p then (1 : EReal) else 0) = if p then x else 0 := by
  by_cases h : p
  · simp only [if_pos h, mul_one]
  · simp only [if_neg h, mul_zero]

end Label

/-! ### The hard indicator: all three conditions hold -/

section Hard

variable (p0 p1 p2 : Prop) [Decidable p0] [Decidable p1] [Decidable p2]

/-- The number of the three conditions that hold. -/
def count3 : ℕ := (if p0 then 1 else 0) + (if p1 then 1 else 0) + (if p2 then 1 else 0)

/-- At most three of three conditions hold. -/
theorem count3_le_three : count3 p0 p1 p2 ≤ 3 := by
  unfold count3; split_ifs <;> omega

/-- Three of three conditions hold exactly when each does. -/
theorem count3_eq_three_iff : count3 p0 p1 p2 = 3 ↔ (p0 ∧ p1 ∧ p2) := by
  unfold count3
  by_cases h0 : p0 <;> by_cases h1 : p1 <;> by_cases h2 : p2 <;> simp [h0, h1, h2]

/-- A 0/1 label on the extended reals is the cast of the 0/1 natural number. -/
theorem ind_eq_natCast (p : Prop) [Decidable p] :
    (if p then (1 : EReal) else 0) = ((if p then 1 else 0 : ℕ) : EReal) := by
  split_ifs <;> simp

/-- The sum of three 0/1 labels is the number of conditions that hold. -/
theorem sum3_eq_count3 :
    (if p0 then (1 : EReal) else 0) + (if p1 then (1 : EReal) else 0) + (if p2 then (1 : EReal) else 0)
      = ((count3 p0 p1 p2 : ℕ) : EReal) := by
  unfold count3
  rw [Nat.cast_add, Nat.cast_add, ← ind_eq_natCast, ← ind_eq_natCast, ← ind_eq_natCast]

/-- A threshold in [2, 3) is below the count of the conditions that hold exactly when all three
    hold. -/
theorem lt_count3_iff {t : EReal} (h2 : 2 ≤ t) (h3 : t < 3) :
    t < ((count3 p0 p1 p2 : ℕ) : EReal) ↔ (p0 ∧ p1 ∧ p2) := by
  rw [← count3_eq_three_iff]
  constructor
  · intro h
    by_contra hne
    have hle : count3 p0 p1 p2 ≤ 2 := by have := count3_le_three p0 p1 p2; omega
    have hc : ((count3 p0 p1 p2 : ℕ) : EReal) ≤ ((2 : ℕ) : EReal) := EReal.natCast_le_iff.mpr hle
    rw [Nat.cast_ofNat] at hc
    exact absurd h (not_lt.mpr (hc.trans h2))
  · intro h
    rw [h, Nat.cast_ofNat]
    exact h3

/-- The kernel's spelling: a threshold in [2, 3) is below ((0 + i0) + i1) + i2, the i's 0/1 labels,
    exactly when all three conditions hold. -/
theorem lt_sum3_iff {t : EReal} (h2 : 2 ≤ t) (h3 : t < 3) :
    t < ((0 + (if p0 then (1 : EReal) else 0)) + (if p1 then (1 : EReal) else 0))
          + (if p2 then (1 : EReal) else 0) ↔ (p0 ∧ p1 ∧ p2) := by
  rw [zero_add, sum3_eq_count3, lt_count3_iff p0 p1 p2 h2 h3]

/-- Two is at most five halves, on the extended reals. -/
theorem two_le_five_halves : (2 : EReal) ≤ ((5 / 2 : ℝ) : EReal) := by
  rw [show (2 : EReal) = ((2 : ℝ) : EReal) by norm_cast]
  exact EReal.coe_le_coe_iff.mpr (by norm_num)

/-- Five halves is less than three, on the extended reals. -/
theorem five_halves_lt_three : ((5 / 2 : ℝ) : EReal) < 3 := by
  rw [show (3 : EReal) = ((3 : ℝ) : EReal) by norm_cast]
  exact EReal.coe_lt_coe_iff.mpr (by norm_num)

/-- The kernel's spelling at its threshold 2.5. -/
theorem five_halves_lt_sum3_iff :
    ((5 / 2 : ℝ) : EReal) < ((0 + (if p0 then (1 : EReal) else 0)) + (if p1 then (1 : EReal) else 0))
          + (if p2 then (1 : EReal) else 0) ↔ (p0 ∧ p1 ∧ p2) :=
  lt_sum3_iff p0 p1 p2 two_le_five_halves five_halves_lt_three

/-- A natural number divided by three, on the extended reals, is the real quotient. -/
theorem div3_natCast (n : ℕ) : Ideal.div ((n : ℕ) : EReal) 3 = (((n : ℝ) / 3 : ℝ) : EReal) := by
  rw [show (3 : EReal) = ((3 : ℝ) : EReal) by norm_cast, Ideal.div_coe (by norm_num),
    ← EReal.coe_coe_eq_natCast, ← EReal.coe_mul]
  congr 1
  ring

/-- A count of at most three divided by three equals one exactly when the count is three. -/
theorem div3_natCast_eq_one_iff (n : ℕ) : Ideal.div ((n : ℕ) : EReal) 3 = 1 ↔ n = 3 := by
  rw [div3_natCast, show (1 : EReal) = ((1 : ℝ) : EReal) by norm_cast, EReal.coe_eq_coe_iff]
  constructor
  · intro h
    have h3 : (n : ℝ) = 3 := by linarith
    exact_mod_cast h3
  · intro h
    rw [h]; norm_num

/-- The reference's spelling: (0 + (i0 + i1 + i2)) / 3 = 1, the i's 0/1 labels, exactly when all
    three conditions hold. -/
theorem div3_sum3_eq_one_iff :
    Ideal.div (0 + ((if p0 then (1 : EReal) else 0) + (if p1 then (1 : EReal) else 0)
          + (if p2 then (1 : EReal) else 0))) 3 = 1 ↔ (p0 ∧ p1 ∧ p2) := by
  rw [zero_add, sum3_eq_count3, div3_natCast_eq_one_iff, count3_eq_three_iff]

/-- The count divided by three is one of 0, 1/3, 2/3, 1. -/
theorem div3_sum3_mem :
    let q := Ideal.div (0 + ((if p0 then (1 : EReal) else 0) + (if p1 then (1 : EReal) else 0)
          + (if p2 then (1 : EReal) else 0))) 3
    q = 0 ∨ q = ((1 / 3 : ℝ) : EReal) ∨ q = ((2 / 3 : ℝ) : EReal) ∨ q = 1 := by
  intro q
  have hq : q = (((count3 p0 p1 p2 : ℝ) / 3 : ℝ) : EReal) := by
    show Ideal.div _ 3 = _
    rw [zero_add, sum3_eq_count3, div3_natCast]
  have hle := count3_le_three p0 p1 p2
  rw [hq]
  have h1 : (1 : EReal) = ((1 : ℝ) : EReal) := by norm_cast
  have h0 : (0 : EReal) = ((0 : ℝ) : EReal) := by norm_cast
  rw [h1, h0]
  simp only [EReal.coe_eq_coe_iff]
  interval_cases (count3 p0 p1 p2) <;> norm_num

end Hard

/-- All of three conditions indexed by Fin 3 hold exactly when the three hold. -/
theorem forall_fin3_iff (p : Fin 3 → Prop) : (∀ c, p c) ↔ (p 0 ∧ p 1 ∧ p 2) := by
  constructor
  · intro h; exact ⟨h 0, h 1, h 2⟩
  · rintro ⟨a, b, c⟩ i
    fin_cases i
    · exact a
    · exact b
    · exact c

/-- The reference's spelling with the sum over Fin 3: (0 + ∑ c, i c) / 3 = 1 exactly when every
    condition holds. -/
theorem div3_sumFin3_eq_one_iff (p : Fin 3 → Prop) [∀ c, Decidable (p c)] :
    Ideal.div (0 + ∑ c : Fin 3, (if p c then (1 : EReal) else 0)) 3 = 1 ↔ ∀ c, p c := by
  rw [Fin.sum_univ_three, div3_sum3_eq_one_iff, forall_fin3_iff]

/-- The kernel's spelling against conditions indexed by Fin 3. -/
theorem five_halves_lt_sumFin3_iff (p : Fin 3 → Prop) [∀ c, Decidable (p c)] :
    ((5 / 2 : ℝ) : EReal) < ((0 + (if p 0 then (1 : EReal) else 0)) + (if p 1 then (1 : EReal) else 0))
          + (if p 2 then (1 : EReal) else 0) ↔ ∀ c, p c := by
  rw [five_halves_lt_sum3_iff, forall_fin3_iff]

/-! ### The float words the programs spell, as extended reals -/

/-- The word of 3.0 denotes three. -/
theorem ofBits_three_f32 : Ideal.ofBits .f32 0x40400000#32 = 3 := by
  rw [show (3 : EReal) = ((3 : ℝ) : EReal) by norm_cast]
  simp [Ideal.ofBits, Ideal.ieee, -EReal.coe_mul]; norm_num

/-- The word of 2.5 denotes five halves. -/
theorem ofBits_five_halves_f32 : Ideal.ofBits .f32 0x40200000#32 = ((5 / 2 : ℝ) : EReal) := by
  simp [Ideal.ofBits, Ideal.ieee, -EReal.coe_mul]; norm_num

/-- The word of 0.5 denotes one half. -/
theorem ofBits_half_f32 : Ideal.ofBits .f32 0x3F000000#32 = ((1 / 2 : ℝ) : EReal) := by
  simp [Ideal.ofBits, Ideal.ieee, -EReal.coe_mul]; norm_num

/-- The word of +inf denotes the top element. -/
theorem ofBits_top_f32 : Ideal.ofBits .f32 0x7F800000#32 = ⊤ := by
  simp [Ideal.ofBits, Ideal.ieee]

/-- The word of 100.0 denotes one hundred. -/
theorem ofBits_hundred_f32 : Ideal.ofBits .f32 0x42C80000#32 = ((100 : ℝ) : EReal) := by
  simp [Ideal.ofBits, Ideal.ieee, -EReal.coe_mul]; norm_num

/-- The word of -20.0 denotes minus twenty. -/
theorem ofBits_neg_twenty_f32 : Ideal.ofBits .f32 0xC1A00000#32 = ((-20 : ℝ) : EReal) := by
  simp [Ideal.ofBits, Ideal.ieee, -EReal.coe_mul, -EReal.coe_neg]; norm_num

/-- The word of 20.0 denotes twenty. -/
theorem ofBits_twenty_f32 : Ideal.ofBits .f32 0x41A00000#32 = ((20 : ℝ) : EReal) := by
  simp [Ideal.ofBits, Ideal.ieee, -EReal.coe_mul]; norm_num

/-- The word of the offset 1e-8 denotes the dyadic rational 11258999 / 2^50. -/
theorem ofBits_eps_f32 : Ideal.ofBits .f32 0x322BCC77#32 = ((11258999 / 2 ^ 50 : ℝ) : EReal) := by
  simp [Ideal.ofBits, Ideal.ieee, -EReal.coe_mul]; norm_num

/-- The scale 100 is a real number. -/
theorem exists_real_hundred : ∃ r : ℝ, Ideal.ofBits .f32 0x42C80000#32 = (r : EReal) :=
  ⟨_, ofBits_hundred_f32⟩

/-- The lower clip bound -20 is a real number. -/
theorem exists_real_neg_twenty : ∃ r : ℝ, Ideal.ofBits .f32 0xC1A00000#32 = (r : EReal) :=
  ⟨_, ofBits_neg_twenty_f32⟩

/-- The upper clip bound 20 is a real number. -/
theorem exists_real_twenty : ∃ r : ℝ, Ideal.ofBits .f32 0x41A00000#32 = (r : EReal) :=
  ⟨_, ofBits_twenty_f32⟩

/-- The offset is a positive real number. -/
theorem exists_real_eps : ∃ r : ℝ, 0 < r ∧ Ideal.ofBits .f32 0x322BCC77#32 = (r : EReal) :=
  ⟨_, by positivity, ofBits_eps_f32⟩

/-- The offset is positive. -/
theorem eps_pos : 0 < Ideal.ofBits .f32 0x322BCC77#32 := by
  rw [ofBits_eps_f32]
  exact EReal.coe_pos.mpr (by positivity)

/-- The lower clip bound is below the upper one. -/
theorem neg_twenty_le_twenty : Ideal.ofBits .f32 0xC1A00000#32 ≤ Ideal.ofBits .f32 0x41A00000#32 := by
  rw [ofBits_neg_twenty_f32, ofBits_twenty_f32]
  exact EReal.coe_le_coe_iff.mpr (by norm_num)

/-- The kernel's threshold test, on the program's own word of 2.5. -/
theorem word_five_halves_lt_sum3_iff (p0 p1 p2 : Prop) [Decidable p0] [Decidable p1] [Decidable p2] :
    Ideal.ofBits .f32 0x40200000#32
        < ((0 + (if p0 then (1 : EReal) else 0)) + (if p1 then (1 : EReal) else 0))
          + (if p2 then (1 : EReal) else 0) ↔ (p0 ∧ p1 ∧ p2) := by
  rw [ofBits_five_halves_f32]; exact five_halves_lt_sum3_iff p0 p1 p2

/-- The kernel's label test, on the program's own word of 0.5. -/
theorem word_half_lt_ind_iff (p : Prop) [Decidable p] :
    Ideal.ofBits .f32 0x3F000000#32 < (if p then (1 : EReal) else 0) ↔ p := by
  rw [ofBits_half_f32]; exact half_lt_ind_iff p

/-- The reference's quotient test, on the program's own word of 3.0. -/
theorem word_div3_sumFin3_eq_one_iff (p : Fin 3 → Prop) [∀ c, Decidable (p c)] :
    Ideal.div (0 + ∑ c : Fin 3, (if p c then (1 : EReal) else 0)) (Ideal.ofBits .f32 0x40400000#32) = 1
      ↔ ∀ c, p c := by
  rw [ofBits_three_f32]; exact div3_sumFin3_eq_one_iff p

/-! ### Sums -/

section Sums

open Finset

variable {M : Type*} [AddCommMonoid M]

/-- A sum over K + K indices is the sum over the first K plus the sum over the last K, the two
    halves enumerated by any maps onto the indices l and K + l. -/
theorem sum_fin_split {K N : ℕ} (hN : N = K + K) (f : Fin N → M) (g0 g1 : Fin K → Fin N)
    (h0 : ∀ l, (g0 l).val = l.val) (h1 : ∀ l, (g1 l).val = K + l.val) :
    ∑ n, f n = ∑ l, f (g0 l) + ∑ l, f (g1 l) := by
  subst hN
  rw [Fin.sum_univ_add]
  congr 1
  · apply Finset.sum_congr rfl
    intro l _
    congr 1
    apply Fin.ext
    rw [h0, Fin.coe_castAdd]
  · apply Finset.sum_congr rfl
    intro l _
    congr 1
    apply Fin.ext
    rw [h1, Fin.coe_natAdd]

/-- A sum over K + K indices splits into its two halves. -/
theorem sum_fin_add_self (K : ℕ) (f : Fin (K + K) → M) :
    ∑ n, f n = ∑ l : Fin K, f ⟨l.val, by omega⟩ + ∑ l : Fin K, f ⟨K + l.val, by omega⟩ :=
  sum_fin_split rfl f _ _ (fun _ => rfl) (fun _ => rfl)

/-- A sum over 40960 points is the sum over the first 20480 plus the sum over the last 20480. -/
theorem sum_fin_40960 (f : Fin 40960 → M) :
    ∑ n, f n = ∑ l : Fin 20480, f ⟨l.val, by omega⟩ + ∑ l : Fin 20480, f ⟨20480 + l.val, by omega⟩ :=
  sum_fin_split (K := 20480) (by norm_num) f _ _ (fun _ => rfl) (fun _ => rfl)

/-- A factor that is 0 or 1 comes out of a sum of products on the right (no distributivity is
    needed: multiplying by 0 kills every term and multiplying by 1 changes none). -/
theorem sum_mul_of_zero_or_one {ι : Type*} (s : Finset ι) (f : ι → EReal) {h : EReal}
    (hh : h = 0 ∨ h = 1) : ∑ n ∈ s, f n * h = (∑ n ∈ s, f n) * h := by
  rcases hh with rfl | rfl
  · simp only [mul_zero, Finset.sum_const_zero]
  · simp only [mul_one]

/-- A factor that is 0 or 1 comes out of a sum of products on the left. -/
theorem mul_sum_of_zero_or_one {ι : Type*} (s : Finset ι) (f : ι → EReal) {h : EReal}
    (hh : h = 0 ∨ h = 1) : ∑ n ∈ s, h * f n = h * ∑ n ∈ s, f n := by
  rcases hh with rfl | rfl
  · simp only [zero_mul, Finset.sum_const_zero]
  · simp only [one_mul]

/-- A 0/1 label comes out of a sum of products. -/
theorem sum_mul_ind {ι : Type*} (s : Finset ι) (f : ι → EReal) (p : Prop) [Decidable p] :
    ∑ n ∈ s, f n * (if p then (1 : EReal) else 0) = (∑ n ∈ s, f n) * (if p then (1 : EReal) else 0) :=
  sum_mul_of_zero_or_one s f (ind_eq_zero_or_one p)

/-- The triple sum of terms each multiplied by a 0/1 factor of the outer two indices is the double
    sum of the inner sums multiplied by that factor. -/
theorem sum3_mul_of_zero_or_one {B H N : ℕ} (f : Fin B → Fin H → Fin N → EReal)
    (w : Fin B → Fin H → EReal) (hw : ∀ b h, w b h = 0 ∨ w b h = 1) :
    ∑ b, ∑ h, ∑ n, f b h n * w b h = ∑ b, ∑ h, (∑ n, f b h n) * w b h := by
  apply Finset.sum_congr rfl; intro b _
  apply Finset.sum_congr rfl; intro h _
  exact sum_mul_of_zero_or_one _ _ (hw b h)

/-- A sum over a product of three index ranges is the iterated sum. -/
theorem sum_prod3 {B H N : ℕ} (f : Fin B × Fin H × Fin N → M) :
    ∑ i, f i = ∑ b, ∑ h, ∑ n, f (b, h, n) := by
  rw [Fintype.sum_prod_type]
  apply Finset.sum_congr rfl; intro b _
  rw [Fintype.sum_prod_type]

/-- The iterated sum with the two outer indices paired is the threefold iterated sum. -/
theorem sum_prod2_sum {B H N : ℕ} (f : Fin B × Fin H → Fin N → M) :
    ∑ i, ∑ n, f i n = ∑ b, ∑ h, ∑ n, f (b, h) n := by
  rw [Fintype.sum_prod_type]

end Sums

end Cert.LossAlgebra

end
-- ==== Proof.PreDecode.lean ====
/-
  The precondition read back: the printed predicate is a conjunction of five "all entries" tests; when it
  holds, every entry of the four float arrays is a real number (its absolute value is below +∞) and every
  label lies in [-32000, 32000).
-/
import proofs.«178291_j71159018160659_2_alg».proof.Pre_finite_inputs
import proofs.«178291_j71159018160659_2_alg».proof.Proof.Gen.Pre_finite_inputs
import proofs.«178291_j71159018160659_2_alg».proof.Proof.LibLossAlgebra
import Idealize.ShloMosaic.Lib.ReduceAll
import Idealize.ShloMosaic.Lib.ValueIdx
import Idealize.ShloMosaic.PureOps.Ideal

noncomputable section

namespace Cert.Pre_finite_inputs.Decode

open Idealize.ShloMosaic Idealize.ShloMosaic.ValueIdx Cert.Pre_finite_inputs

instance : Subsingleton S_.Idx := ⟨fun a b => funext fun d => d.elim0⟩

/-- An extended real whose absolute value is below the +∞ word is a real number. -/
theorem real_of_bit (x : EReal)
    (h : FloatOps.cmpf (F := Ideal) (φ := .f32) .olt (FloatOps.hostAbsf (F := Ideal) (φ := .f32) x)
      (Ideal.ofBits .f32 0x7F800000#32) = 1#1) : ∃ a : ℝ, x = (a : EReal) := by
  have h2 : BitVec.ofBool (decide (max x (-x) < (⊤ : EReal))) = 1#1 := by
    rw [← Cert.LossAlgebra.ofBits_top_f32]; exact h
  have h3 : max x (-x) < ⊤ := by
    by_contra hc
    rw [decide_eq_false hc] at h2
    exact absurd h2 (by decide)
  have hx : x ≠ ⊤ := fun e => by subst e; simp at h3
  have hx' : x ≠ ⊥ := fun e => by subst e; simp at h3
  exact ⟨x.toReal, (EReal.coe_toReal hx hx').symm⟩

/-- A 32-bit word between the words -32000 and 32000 in the signed order. -/
theorem range_of_bits (w : BitVec 32) (h0 : IntOp.cmpi .sge w 4294935296#32 = 1#1) (h1 : IntOp.cmpi .slt w 32000#32 = 1#1) :
    -32000 ≤ w.toInt ∧ w.toInt < 32000 := by
  have a := IntOp.cmpi_sge.mp h0
  have b := IntOp.cmpi_slt.mp h1
  have c0 : (4294935296#32 : BitVec 32).toInt = -32000 := by decide
  have c1 : (32000#32 : BitVec 32).toInt = 32000 := by decide
  rw [c0] at a; rw [c1] at b
  exact ⟨a, b⟩

/-- The precondition, entry by entry. -/
theorem decode (x0 : FVec Ideal S4096x2048 .f32) (x1 : FVec Ideal S4096x4096 .f32) (x2 : IVec S4096 32)
    (x3 : FVec Ideal S32000x2048 .f32) (x4 : FVec Ideal S32000x4096 .f32)
    (h : Cert.Pre_finite_inputs.fn (F := Ideal) x0 x1 x2 x3 x4 = fun _ => 1#1) :
    (∀ i, ∃ a : ℝ, x0 i = (a : EReal)) ∧ (∀ i, ∃ a : ℝ, x1 i = (a : EReal)) ∧ (∀ i, ∃ a : ℝ, x3 i = (a : EReal))
      ∧ (∀ i, ∃ a : ℝ, x4 i = (a : EReal))
      ∧ (∀ r : Fin 4096, -32000 ≤ (x2 (ix1 r)).toInt ∧ (x2 (ix1 r)).toInt < 32000) := by
  have e := congrFun h ix0
  dsimp only [Cert.Pre_finite_inputs.fn, Cert.Pre_finite_inputs.fn_part1] at e
  simp only [andi, IntOp.andi_eq_one] at e
  obtain ⟨⟨⟨⟨e0, e1⟩, e3⟩, e4⟩, e2⟩ := e
  refine ⟨fun i => ?_, fun i => ?_, fun i => ?_, fun i => ?_, fun r => ?_⟩
  · exact real_of_bit _ (Host.reduce_andi_all _ _ _ _ _ e0 i)
  · exact real_of_bit _ (Host.reduce_andi_all _ _ _ _ _ e1 i)
  · exact real_of_bit _ (Host.reduce_andi_all _ _ _ _ _ e3 i)
  · exact real_of_bit _ (Host.reduce_andi_all _ _ _ _ _ e4 i)
  · have b := Host.reduce_andi_all _ _ _ _ _ e2 (ix1 r)
    obtain ⟨b0, b1⟩ := IntOp.andi_eq_one.mp b
    exact range_of_bits _ b0 b1

end Cert.Pre_finite_inputs.Decode

end
-- ==== Proof.RefRunOps.lean ====
/-
  The reference program as a list of its host operations.  The whole computation is a straight line of 115
  array operations: two matrix products giving the student's and the teacher's logits, a log-softmax of each,
  the labels' chain with the label's log-probability picked out and averaged over the valid tokens, the two
  Kullback-Leibler sums against the even mixture, and the half-and-half combination.  The line is cut into six
  stretches at the buffers that later stretches read again (the two logits arrays, the two log-softmax arrays,
  the cross-entropy mean, the divergence mean), so that what each stretch leaves can be read back by itself.
-/
import proofs.«178291_j71159018160659_2_alg».proof.Proof.Gen.ReferenceIdeal
import Idealize.ShloMosaic.Lib.StableHlo.Run
import Idealize.ShloMosaic.Lib.Pipeline.Frame

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The two logits arrays: each side's activations against its transposed vocabulary matrix, over a temperature of one. -/
abbrev ops1 : List (HloOp τ sig (Elt F)) :=
  [ unary main_arg3 main_v0 ((transpose S2048x32000 [1, 0] · transposes_S32000x2048_S2048x32000_1_0) : (⟨S32000x2048, .f32⟩ : BufTy).Contents (Elt F) → (⟨S2048x32000, .f32⟩ : BufTy).Contents (Elt F)),
    binary main_arg0 main_v0 main_v1 ((fun l r => Host.dotGeneral dot_S4096x2048_S2048x32000_S4096x32000_1_0_0_1_n_n none l r) : (⟨S4096x2048, .f32⟩ : BufTy).Contents (Elt F) → (⟨S2048x32000, .f32⟩ : BufTy).Contents (Elt F) → (⟨S4096x32000, .f32⟩ : BufTy).Contents (Elt F)),
    nullary main_cst (constant S_ .f32 0x3F800000#32),
    unary main_cst main_v2 (broadcastInDim S4096x32000 ![] bcast_S_S4096x32000 : (⟨S_, .f32⟩ : BufTy).Contents (Elt F) → (⟨S4096x32000, .f32⟩ : BufTy).Contents (Elt F)),
    binary main_v1 main_v2 main_v3 (Host.divf : (⟨S4096x32000, .f32⟩ : BufTy).Contents (Elt F) → (⟨S4096x32000, .f32⟩ : BufTy).Contents (Elt F) → (⟨S4096x32000, .f32⟩ : BufTy).Contents (Elt F)),
    unary main_arg4 main_v4 ((transpose S4096x32000 [1, 0] · transposes_S32000x4096_S4096x32000_1_0) : (⟨S32000x4096, .f32⟩ : BufTy).Contents (Elt F) → (⟨S4096x32000, .f32⟩ : BufTy).Contents (Elt F)),
    binary main_arg1 main_v4 main_v5 ((fun l r => Host.dotGeneral dot_S4096x4096_S4096x32000_S4096x32000_1_0_0_1_n_n none l r) : (⟨S4096x4096, .f32⟩ : BufTy).Contents (Elt F) → (⟨S4096x32000, .f32⟩ : BufTy).Contents (Elt F) → (⟨S4096x32000, .f32⟩ : BufTy).Contents (Elt F)),
    nullary main_cst_0 (constant S_ .f32 0x3F800000#32),
    unary main_cst_0 main_v6 (broadcastInDim S4096x32000 ![] bcast_S_S4096x32000 : (⟨S_, .f32⟩ : BufTy).Contents (Elt F) → (⟨S4096x32000, .f32⟩ : BufTy).Contents (Elt F)),
    binary main_v5 main_v6 main_v7 (Host.divf : (⟨S4096x32000, .f32⟩ : BufTy).Contents (Elt F) → (⟨S4096x32000, .f32⟩ : BufTy).Contents (Elt F) → (⟨S4096x32000, .f32⟩ : BufTy).Contents (Elt F)) ]

/-- The student's log-softmax: the logits less their row maximum, less the logarithm of the row sum of exponentials. -/
abbrev ops2 : List (HloOp τ sig (Elt F)) :=
  [ TRef.nullary (TRef.of (T := ⟨S_, .f32⟩) main_call0_cst) (constant S_ .f32 0xFF800000#32),
    TRef.binary (TRef.of (T := ⟨S4096x32000, .f32⟩) main_v3) (TRef.of (T := ⟨S_, .f32⟩) main_call0_cst) (TRef.of (T := ⟨S4096, .f32⟩) main_call0_v0) (fun x v => Host.reduce FloatOps.maximumf x v reducesTo_S4096x32000_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x32000, .f32⟩) main_call0_v4) (broadcastInDim S4096x32000 ![0, 1] bcast_S4096x1_S4096x32000_0_1),
    TRef.binary (TRef.of (T := ⟨S4096x32000, .f32⟩) main_v3) (TRef.of (T := ⟨S4096x32000, .f32⟩) main_call0_v4) (TRef.of (T := ⟨S4096x32000, .f32⟩) main_call0_v5) subf,
    TRef.unary (TRef.of (T := ⟨S4096x32000, .f32⟩) main_call0_v5) (TRef.of (T := ⟨S4096x32000, .f32⟩) main_call0_v6) Host.exp,
    TRef.nullary (TRef.of (T := ⟨S_, .f32⟩) main_call0_cst_1) (constant S_ .f32 0x00000000#32),
    TRef.binary (TRef.of (T := ⟨S4096x32000, .f32⟩) main_call0_v6) (TRef.of (T := ⟨S_, .f32⟩) main_call0_cst_1) (TRef.of (T := ⟨S4096, .f32⟩) main_call0_v7) (fun x v => Host.reduceAdd x v reducesTo_S4096x32000_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x32000, .f32⟩) main_call0_v10) (broadcastInDim S4096x32000 ![0, 1] bcast_S4096x1_S4096x32000_0_1),
    TRef.binary (TRef.of (T := ⟨S4096x32000, .f32⟩) main_call0_v5) (TRef.of (T := ⟨S4096x32000, .f32⟩) main_call0_v10) (TRef.of (T := ⟨S4096x32000, .f32⟩) main_v8) subf ]

/-- The teacher's log-softmax, in the same way. -/
abbrev ops3 : List (HloOp τ sig (Elt F)) :=
  [ TRef.nullary (TRef.of (T := ⟨S_, .f32⟩) main_call1_cst) (constant S_ .f32 0xFF800000#32),
    TRef.binary (TRef.of (T := ⟨S4096x32000, .f32⟩) main_v7) (TRef.of (T := ⟨S_, .f32⟩) main_call1_cst) (TRef.of (T := ⟨S4096, .f32⟩) main_call1_v0) (fun x v => Host.reduce FloatOps.maximumf x v reducesTo_S4096x32000_S4096_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S4096, .f32⟩) main_call1_v1) (broadcastInDim S4096 ![] bcast_S_S4096),
    TRef.binary (TRef.of (T := ⟨S4096, .f32⟩) main_call1_v1) (TRef.of (T := ⟨S4096, .f32⟩) main_call1_v0) (TRef.of (T := ⟨S4096, .f32⟩) main_call1_v2) maximumf,
    TRef.unary (TRef.of (T := ⟨S4096, .f32⟩) main_call1_v2) (TRef.of (T := ⟨S4096x1, .f32⟩) main_call1_v3) (broadcastInDim S4096x1 ![0] bcast_S4096_S4096x1_0),
    TRef.unary (TRef.of (T := ⟨S4096x1, .f32⟩) main_call1_v3) (TRef.of (T := ⟨S4096x32000, .f32⟩) main_call1_v4) (broadcastInDim S4096x32000 ![0, 1] bcast_S4096x1_S4096x32000_0_1),
    TRef.binary (TRef.of (T := ⟨S4096x32000, .f32⟩) main_v7) (TRef.of (T := ⟨S4096x32000, .f32⟩) main_call1_v4) (TRef.of (T := ⟨S4096x32000, .f32⟩) main_call1_v5) subf,
    TRef.unary (TRef.of (T := ⟨S4096x32000, .f32⟩) main_call1_v5) (TRef.of (T := ⟨S4096x32000, .f32⟩) main_call1_v6) Host.exp,
    TRef.nullary (TRef.of (T := ⟨S_, .f32⟩) main_call1_cst_1) (constant S_ .f32 0x00000000#32),
    TRef.binary (TRef.of (T := ⟨S4096x32000, .f32⟩) main_call1_v6) (TRef.of (T := ⟨S_, .f32⟩) main_call1_cst_1) (TRef.of (T := ⟨S4096, .f32⟩) main_call1_v7) (fun x v => Host.reduceAdd x v reducesTo_S4096x32000_S4096_d1 h_S_),
    TRef.unary (TRef.of (T := ⟨S4096, .f32⟩) main_call1_v7) (TRef.of (T := ⟨S4096x1, .f32⟩) main_call1_v8) (broadcastInDim S4096x1 ![0] bcast_S4096_S4096x1_0),
    TRef.unary (TRef.of (T := ⟨S4096x1, .f32⟩) main_call1_v8) (TRef.of (T := ⟨S4096x1, .f32⟩) main_call1_v9) Host.log,
    TRef.unary (TRef.of (T := ⟨S4096x1, .f32⟩) main_call1_v9) (TRef.of (T := ⟨S4096x32000, .f32⟩) main_call1_v10) (broadcastInDim S4096x32000 ![0, 1] bcast_S4096x1_S4096x32000_0_1),
    TRef.binary (TRef.of (T := ⟨S4096x32000, .f32⟩) main_call1_v5) (TRef.of (T := ⟨S4096x32000, .f32⟩) main_call1_v10) (TRef.of (T := ⟨S4096x32000, .f32⟩) main_v9) subf ]

/-- The labels: validity, the ignore value replaced, a negative label wrapped, the label's student log-probability picked out and negated, its mean over the valid tokens. -/
abbrev ops4 : List (HloOp τ sig (Elt F)) :=
  [ nullary main_c (constantI S_ 32 4294967196#32),
    unary main_c main_v10 (broadcastInDim S4096 ![] bcast_S_S4096 : (⟨S_, .i32⟩ : BufTy).Contents (Elt F) → (⟨S4096, .i32⟩ : BufTy).Contents (Elt F)),
    binary main_arg2 main_v10 main_v11 (cmpi .ne : (⟨S4096, .i32⟩ : BufTy).Contents (Elt F) → (⟨S4096, .i32⟩ : BufTy).Contents (Elt F) → (⟨S4096, .i1⟩ : BufTy).Contents (Elt F)),
    nullary main_c_1 (constantI S_ 32 0#32),
    TRef.unary (TRef.of (T := ⟨S_, .i32⟩) main_c_1) (TRef.of (T := ⟨S_, .i32⟩) main_call2_v0) id,
    TRef.unary (TRef.of (T := ⟨S_, .i32⟩) main_call2_v0) (TRef.of (T := ⟨S4096, .i32⟩) main_call2_v1) (broadcastInDim S4096 ![] bcast_S_S4096),
    TRef.ternary (TRef.of (T := ⟨S4096, .i1⟩) main_v11) (TRef.of (T := ⟨S4096, .i32⟩) main_arg2) (TRef.of (T := ⟨S4096, .i32⟩) main_call2_v1) (TRef.of (T := ⟨S4096, .i32⟩) main_v12) select,
    unary main_v12 main_v13 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S4096x1, .i32⟩) main_call3_v0) (broadcastInDim S4096x1 ![] bcast_S_S4096x1),
    TRef.binary (TRef.of (T := ⟨S4096x1, .i32⟩) main_v13) (TRef.of (T := ⟨S4096x1, .i32⟩) main_call3_v0) (TRef.of (T := ⟨S4096x1, .i1⟩) main_call3_v1) (cmpi .slt),
    TRef.nullary (TRef.of (T := ⟨S_, .i32⟩) main_call3_c_0) (constantI S_ 32 32000#32),
    TRef.unary (TRef.of (T := ⟨S_, .i32⟩) main_call3_c_0) (TRef.of (T := ⟨S4096x1, .i32⟩) main_call3_v2) (broadcastInDim S4096x1 ![] bcast_S_S4096x1),
    TRef.binary (TRef.of (T := ⟨S4096x1, .i32⟩) main_v13) (TRef.of (T := ⟨S4096x1, .i32⟩) main_call3_v2) (TRef.of (T := ⟨S4096x1, .i32⟩) main_call3_v3) addi,
    TRef.ternary (TRef.of (T := ⟨S4096x1, .i1⟩) main_call3_v1) (TRef.of (T := ⟨S4096x1, .i32⟩) main_call3_v3) (TRef.of (T := ⟨S4096x1, .i32⟩) main_v13) (TRef.of (T := ⟨S4096x1, .i32⟩) main_call3_v4) select,
    TRef.reshape (TRef.of (T := ⟨S4096x1, .i32⟩) main_call3_v4) (TRef.of (T := ⟨S4096x1x1, .i32⟩) main_call3_v5) rfl shapeCasts_S4096x1_S4096x1x1,
    TRef.nullary (TRef.of (T := ⟨S1, .i32⟩) main_call3_c_1) (constantI S1 32 31999#32),
    TRef.nullary (TRef.of (T := ⟨S_, .i32⟩) main_call3_c_2) (constantI S_ 32 0#32),
    TRef.unary (TRef.of (T := ⟨S_, .i32⟩) main_call3_c_2) (TRef.of (T := ⟨S4096x1x1, .i32⟩) main_call3_v6) (broadcastInDim S4096x1x1 ![] bcast_S_S4096x1x1),
    TRef.binary (TRef.of (T := ⟨S4096x1x1, .i32⟩) main_call3_v5) (TRef.of (T := ⟨S4096x1x1, .i32⟩) main_call3_v6) (TRef.of (T := ⟨S4096x1x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S4096x1x1, .i32⟩) main_call3_v9) (broadcastInDim S4096x1x1 ![0, 1, 2] bcast_S1x1x1_S4096x1x1_0_1_2),
    TRef.binary (TRef.of (T := ⟨S4096x1x1, .i32⟩) main_call3_v5) (TRef.of (T := ⟨S4096x1x1, .i32⟩) main_call3_v9) (TRef.of (T := ⟨S4096x1x1, .i1⟩) main_call3_v10) (cmpi .sle),
    TRef.binary (TRef.of (T := ⟨S4096x1x1, .i1⟩) main_call3_v7) (TRef.of (T := ⟨S4096x1x1, .i1⟩) main_call3_v10) (TRef.of (T := ⟨S4096x1x1, .i1⟩) main_call3_v11) andi,
    TRef.nullary (TRef.of (T := ⟨S_, .i1⟩) main_call3_c_3) (constantI S_ 1 1#1),
    TRef.binary (TRef.of (T := ⟨S4096x1x1, .i1⟩) main_call3_v11) (TRef.of (T := ⟨S_, .i1⟩) main_call3_c_3) (TRef.of (T := ⟨S4096x1, .i1⟩) main_call3_v12) (fun x v => Host.reduce IntOp.andi x v reducesTo_S4096x1x1_S4096x1_d2 h_S_),
    TRef.binary (TRef.of (T := ⟨S4096x32000, .f32⟩) main_v8) (TRef.of (T := ⟨S4096x1x1, .i32⟩) main_call3_v5) (TRef.of (T := ⟨S4096x1, .f32⟩) main_call3_v13) (fun x i => Host.gather gather_S4096x32000_S4096x1x1_S4096x1_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S4096x1, .f32⟩) main_call3_v14) (broadcastInDim S4096x1 ![] bcast_S_S4096x1),
    TRef.ternary (TRef.of (T := ⟨S4096x1, .i1⟩) main_call3_v12) (TRef.of (T := ⟨S4096x1, .f32⟩) main_call3_v13) (TRef.of (T := ⟨S4096x1, .f32⟩) main_call3_v14) (TRef.of (T := ⟨S4096x1, .f32⟩) main_v14) select,
    reshape main_v14 main_v15 rfl shapeCasts_S4096x1_S4096,
    unary main_v15 main_v16 (Host.negf : (⟨S4096, .f32⟩ : BufTy).Contents (Elt F) → (⟨S4096, .f32⟩ : BufTy).Contents (Elt F)),
    unary main_v11 main_v17 ((extui 32 · natLt_1_32) : (⟨S4096, .i1⟩ : BufTy).Contents (Elt F) → (⟨S4096, .i32⟩ : BufTy).Contents (Elt F)),
    nullary main_c_2 (constantI S_ 32 0#32),
    binary main_v17 main_c_2 main_v18 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)),
    nullary main_c_3 (constantI S_ 32 1#32),
    binary main_v18 main_c_3 main_v19 (maxsi : (⟨S_, .i32⟩ : BufTy).Contents (Elt F) → (⟨S_, .i32⟩ : BufTy).Contents (Elt F) → (⟨S_, .i32⟩ : BufTy).Contents (Elt F)),
    nullary main_cst_4 (constant S_ .f32 0x00000000#32),
    TRef.unary (TRef.of (T := ⟨S_, .f32⟩) main_cst_4) (TRef.of (T := ⟨S_, .f32⟩) main_call4_v0) id,
    TRef.unary (TRef.of (T := ⟨S_, .f32⟩) main_call4_v0) (TRef.of (T := ⟨S4096, .f32⟩) main_call4_v1) (broadcastInDim S4096 ![] bcast_S_S4096),
    TRef.ternary (TRef.of (T := ⟨S4096, .i1⟩) main_v11) (TRef.of (T := ⟨S4096, .f32⟩) main_v16) (TRef.of (T := ⟨S4096, .f32⟩) main_call4_v1) (TRef.of (T := ⟨S4096, .f32⟩) main_v20) select,
    nullary main_cst_5 (constant S_ .f32 0x00000000#32),
    binary main_v20 main_cst_5 main_v21 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    unary main_v19 main_v22 (sitofp .f32 : (⟨S_, .i32⟩ : BufTy).Contents (Elt F) → (⟨S_, .f32⟩ : BufTy).Contents (Elt F)),
    binary main_v21 main_v22 main_v23 (Host.divf : (⟨S_, .f32⟩ : BufTy).Contents (Elt F) → (⟨S_, .f32⟩ : BufTy).Contents (Elt F) → (⟨S_, .f32⟩ : BufTy).Contents (Elt F)) ]

/-- The divergence: both Kullback-Leibler sums against the logarithm of the even mixture, halved, added, over the number of tokens. -/
abbrev ops5 : List (HloOp τ sig (Elt F)) :=
  [ unary main_v9 main_v24 (Host.exp : (⟨S4096x32000, .f32⟩ : BufTy).Contents (Elt F) → (⟨S4096x32000, .f32⟩ : BufTy).Contents (Elt F)),
    unary main_v8 main_v25 (Host.exp : (⟨S4096x32000, .f32⟩ : BufTy).Contents (Elt F) → (⟨S4096x32000, .f32⟩ : BufTy).Contents (Elt F)),
    nullary main_cst_6 (constant S_ .f32 0x3F000000#32),
    unary main_cst_6 main_v26 (broadcastInDim S4096x32000 ![] bcast_S_S4096x32000 : (⟨S_, .f32⟩ : BufTy).Contents (Elt F) → (⟨S4096x32000, .f32⟩ : BufTy).Contents (Elt F)),
    binary main_v26 main_v24 main_v27 (mulf : (⟨S4096x32000, .f32⟩ : BufTy).Contents (Elt F) → (⟨S4096x32000, .f32⟩ : BufTy).Contents (Elt F) → (⟨S4096x32000, .f32⟩ : BufTy).Contents (Elt F)),
    nullary main_cst_7 (constant S_ .f32 0x3F000000#32),
    unary main_cst_7 main_v28 (broadcastInDim S4096x32000 ![] bcast_S_S4096x32000 : (⟨S_, .f32⟩ : BufTy).Contents (Elt F) → (⟨S4096x32000, .f32⟩ : BufTy).Contents (Elt F)),
    binary main_v28 main_v25 main_v29 (mulf : (⟨S4096x32000, .f32⟩ : BufTy).Contents (Elt F) → (⟨S4096x32000, .f32⟩ : BufTy).Contents (Elt F) → (⟨S4096x32000, .f32⟩ : BufTy).Contents (Elt F)),
    binary main_v27 main_v29 main_v30 (addf : (⟨S4096x32000, .f32⟩ : BufTy).Contents (Elt F) → (⟨S4096x32000, .f32⟩ : BufTy).Contents (Elt F) → (⟨S4096x32000, .f32⟩ : BufTy).Contents (Elt F)),
    unary main_v30 main_v31 (Host.log : (⟨S4096x32000, .f32⟩ : BufTy).Contents (Elt F) → (⟨S4096x32000, .f32⟩ : BufTy).Contents (Elt F)),
    binary main_v9 main_v31 main_v32 (subf : (⟨S4096x32000, .f32⟩ : BufTy).Contents (Elt F) → (⟨S4096x32000, .f32⟩ : BufTy).Contents (Elt F) → (⟨S4096x32000, .f32⟩ : BufTy).Contents (Elt F)),
    binary main_v24 main_v32 main_v33 (mulf : (⟨S4096x32000, .f32⟩ : BufTy).Contents (Elt F) → (⟨S4096x32000, .f32⟩ : BufTy).Contents (Elt F) → (⟨S4096x32000, .f32⟩ : BufTy).Contents (Elt F)),
    nullary main_cst_8 (constant S_ .f32 0x00000000#32),
    binary main_v33 main_cst_8 main_v34 ((fun x v => Host.reduceAdd x v reducesTo_S4096x32000_S_d0_1 h_S_) : (⟨S4096x32000, .f32⟩ : BufTy).Contents (Elt F) → (⟨S_, .f32⟩ : BufTy).Contents (Elt F) → (⟨S_, .f32⟩ : BufTy).Contents (Elt F)),
    nullary main_cst_9 (constant S_ .f32 0x3F000000#32),
    binary main_cst_9 main_v34 main_v35 (mulf : (⟨S_, .f32⟩ : BufTy).Contents (Elt F) → (⟨S_, .f32⟩ : BufTy).Contents (Elt F) → (⟨S_, .f32⟩ : BufTy).Contents (Elt F)),
    binary main_v8 main_v31 main_v36 (subf : (⟨S4096x32000, .f32⟩ : BufTy).Contents (Elt F) → (⟨S4096x32000, .f32⟩ : BufTy).Contents (Elt F) → (⟨S4096x32000, .f32⟩ : BufTy).Contents (Elt F)),
    binary main_v25 main_v36 main_v37 (mulf : (⟨S4096x32000, .f32⟩ : BufTy).Contents (Elt F) → (⟨S4096x32000, .f32⟩ : BufTy).Contents (Elt F) → (⟨S4096x32000, .f32⟩ : BufTy).Contents (Elt F)),
    nullary main_cst_10 (constant S_ .f32 0x00000000#32),
    binary main_v37 main_cst_10 main_v38 ((fun x v => Host.reduceAdd x v reducesTo_S4096x32000_S_d0_1 h_S_) : (⟨S4096x32000, .f32⟩ : BufTy).Contents (Elt F) → (⟨S_, .f32⟩ : BufTy).Contents (Elt F) → (⟨S_, .f32⟩ : BufTy).Contents (Elt F)),
    nullary main_cst_11 (constant S_ .f32 0x3F000000#32),
    binary main_cst_11 main_v38 main_v39 (mulf : (⟨S_, .f32⟩ : BufTy).Contents (Elt F) → (⟨S_, .f32⟩ : BufTy).Contents (Elt F) → (⟨S_, .f32⟩ : BufTy).Contents (Elt F)),
    binary main_v35 main_v39 main_v40 (addf : (⟨S_, .f32⟩ : BufTy).Contents (Elt F) → (⟨S_, .f32⟩ : BufTy).Contents (Elt F) → (⟨S_, .f32⟩ : BufTy).Contents (Elt F)),
    nullary main_cst_12 (constant S_ .f32 0x45800000#32),
    binary main_v40 main_cst_12 main_v41 (Host.divf : (⟨S_, .f32⟩ : BufTy).Contents (Elt F) → (⟨S_, .f32⟩ : BufTy).Contents (Elt F) → (⟨S_, .f32⟩ : BufTy).Contents (Elt F)) ]

/-- The loss: half the cross-entropy mean plus half the divergence mean. -/
abbrev ops6 : List (HloOp τ sig (Elt F)) :=
  [ nullary main_cst_13 (constant S_ .f32 0x3F000000#32),
    binary main_cst_13 main_v23 main_v42 (mulf : (⟨S_, .f32⟩ : BufTy).Contents (Elt F) → (⟨S_, .f32⟩ : BufTy).Contents (Elt F) → (⟨S_, .f32⟩ : BufTy).Contents (Elt F)),
    nullary main_cst_14 (constant S_ .f32 0x3F000000#32),
    binary main_cst_14 main_v41 main_v43 (mulf : (⟨S_, .f32⟩ : BufTy).Contents (Elt F) → (⟨S_, .f32⟩ : BufTy).Contents (Elt F) → (⟨S_, .f32⟩ : BufTy).Contents (Elt F)),
    binary main_v42 main_v43 main_v44 (addf : (⟨S_, .f32⟩ : BufTy).Contents (Elt F) → (⟨S_, .f32⟩ : BufTy).Contents (Elt F) → (⟨S_, .f32⟩ : BufTy).Contents (Elt F)) ]

/-- The program's 115 operations, in order (a called function's operations stand in its call's place). -/
abbrev ops : List (HloOp τ sig (Elt F)) :=
  [ unary main_arg3 main_v0 ((transpose S2048x32000 [1, 0] · transposes_S32000x2048_S2048x32000_1_0) : (⟨S32000x2048, .f32⟩ : BufTy).Contents (Elt F) → (⟨S2048x32000, .f32⟩ : BufTy).Contents (Elt F)),
    binary main_arg0 main_v0 main_v1 ((fun l r => Host.dotGeneral dot_S4096x2048_S2048x32000_S4096x32000_1_0_0_1_n_n none l r) : (⟨S4096x2048, .f32⟩ : BufTy).Contents (Elt F) → (⟨S2048x32000, .f32⟩ : BufTy).Contents (Elt F) → (⟨S4096x32000, .f32⟩ : BufTy).Contents (Elt F)),
    nullary main_cst (constant S_ .f32 0x3F800000#32),
    unary main_cst main_v2 (broadcastInDim S4096x32000 ![] bcast_S_S4096x32000 : (⟨S_, .f32⟩ : BufTy).Contents (Elt F) → (⟨S4096x32000, .f32⟩ : BufTy).Contents (Elt F)),
    binary main_v1 main_v2 main_v3 (Host.divf : (⟨S4096x32000, .f32⟩ : BufTy).Contents (Elt F) → (⟨S4096x32000, .f32⟩ : BufTy).Contents (Elt F) → (⟨S4096x32000, .f32⟩ : BufTy).Contents (Elt F)),
    unary main_arg4 main_v4 ((transpose S4096x32000 [1, 0] · transposes_S32000x4096_S4096x32000_1_0) : (⟨S32000x4096, .f32⟩ : BufTy).Contents (Elt F) → (⟨S4096x32000, .f32⟩ : BufTy).Contents (Elt F)),
    binary main_arg1 main_v4 main_v5 ((fun l r => Host.dotGeneral dot_S4096x4096_S4096x32000_S4096x32000_1_0_0_1_n_n none l r) : (⟨S4096x4096, .f32⟩ : BufTy).Contents (Elt F) → (⟨S4096x32000, .f32⟩ : BufTy).Contents (Elt F) → (⟨S4096x32000, .f32⟩ : BufTy).Contents (Elt F)),
    nullary main_cst_0 (constant S_ .f32 0x3F800000#32),
    unary main_cst_0 main_v6 (broadcastInDim S4096x32000 ![] bcast_S_S4096x32000 : (⟨S_, .f32⟩ : BufTy).Contents (Elt F) → (⟨S4096x32000, .f32⟩ : BufTy).Contents (Elt F)),
    binary main_v5 main_v6 main_v7 (Host.divf : (⟨S4096x32000, .f32⟩ : BufTy).Contents (Elt F) → (⟨S4096x32000, .f32⟩ : BufTy).Contents (Elt F) → (⟨S4096x32000, .f32⟩ : BufTy).Contents (Elt F)),
    TRef.nullary (TRef.of (T := ⟨S_, .f32⟩) main_call0_cst) (constant S_ .f32 0xFF800000#32),
    TRef.binary (TRef.of (T := ⟨S4096x32000, .f32⟩) main_v3) (TRef.of (T := ⟨S_, .f32⟩) main_call0_cst) (TRef.of (T := ⟨S4096, .f32⟩) main_call0_v0) (fun x v => Host.reduce FloatOps.maximumf x v reducesTo_S4096x32000_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x32000, .f32⟩) main_call0_v4) (broadcastInDim S4096x32000 ![0, 1] bcast_S4096x1_S4096x32000_0_1),
    TRef.binary (TRef.of (T := ⟨S4096x32000, .f32⟩) main_v3) (TRef.of (T := ⟨S4096x32000, .f32⟩) main_call0_v4) (TRef.of (T := ⟨S4096x32000, .f32⟩) main_call0_v5) subf,
    TRef.unary (TRef.of (T := ⟨S4096x32000, .f32⟩) main_call0_v5) (TRef.of (T := ⟨S4096x32000, .f32⟩) main_call0_v6) Host.exp,
    TRef.nullary (TRef.of (T := ⟨S_, .f32⟩) main_call0_cst_1) (constant S_ .f32 0x00000000#32),
    TRef.binary (TRef.of (T := ⟨S4096x32000, .f32⟩) main_call0_v6) (TRef.of (T := ⟨S_, .f32⟩) main_call0_cst_1) (TRef.of (T := ⟨S4096, .f32⟩) main_call0_v7) (fun x v => Host.reduceAdd x v reducesTo_S4096x32000_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x32000, .f32⟩) main_call0_v10) (broadcastInDim S4096x32000 ![0, 1] bcast_S4096x1_S4096x32000_0_1),
    TRef.binary (TRef.of (T := ⟨S4096x32000, .f32⟩) main_call0_v5) (TRef.of (T := ⟨S4096x32000, .f32⟩) main_call0_v10) (TRef.of (T := ⟨S4096x32000, .f32⟩) main_v8) subf,
    TRef.nullary (TRef.of (T := ⟨S_, .f32⟩) main_call1_cst) (constant S_ .f32 0xFF800000#32),
    TRef.binary (TRef.of (T := ⟨S4096x32000, .f32⟩) main_v7) (TRef.of (T := ⟨S_, .f32⟩) main_call1_cst) (TRef.of (T := ⟨S4096, .f32⟩) main_call1_v0) (fun x v => Host.reduce FloatOps.maximumf x v reducesTo_S4096x32000_S4096_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S4096, .f32⟩) main_call1_v1) (broadcastInDim S4096 ![] bcast_S_S4096),
    TRef.binary (TRef.of (T := ⟨S4096, .f32⟩) main_call1_v1) (TRef.of (T := ⟨S4096, .f32⟩) main_call1_v0) (TRef.of (T := ⟨S4096, .f32⟩) main_call1_v2) maximumf,
    TRef.unary (TRef.of (T := ⟨S4096, .f32⟩) main_call1_v2) (TRef.of (T := ⟨S4096x1, .f32⟩) main_call1_v3) (broadcastInDim S4096x1 ![0] bcast_S4096_S4096x1_0),
    TRef.unary (TRef.of (T := ⟨S4096x1, .f32⟩) main_call1_v3) (TRef.of (T := ⟨S4096x32000, .f32⟩) main_call1_v4) (broadcastInDim S4096x32000 ![0, 1] bcast_S4096x1_S4096x32000_0_1),
    TRef.binary (TRef.of (T := ⟨S4096x32000, .f32⟩) main_v7) (TRef.of (T := ⟨S4096x32000, .f32⟩) main_call1_v4) (TRef.of (T := ⟨S4096x32000, .f32⟩) main_call1_v5) subf,
    TRef.unary (TRef.of (T := ⟨S4096x32000, .f32⟩) main_call1_v5) (TRef.of (T := ⟨S4096x32000, .f32⟩) main_call1_v6) Host.exp,
    TRef.nullary (TRef.of (T := ⟨S_, .f32⟩) main_call1_cst_1) (constant S_ .f32 0x00000000#32),
    TRef.binary (TRef.of (T := ⟨S4096x32000, .f32⟩) main_call1_v6) (TRef.of (T := ⟨S_, .f32⟩) main_call1_cst_1) (TRef.of (T := ⟨S4096, .f32⟩) main_call1_v7) (fun x v => Host.reduceAdd x v reducesTo_S4096x32000_S4096_d1 h_S_),
    TRef.unary (TRef.of (T := ⟨S4096, .f32⟩) main_call1_v7) (TRef.of (T := ⟨S4096x1, .f32⟩) main_call1_v8) (broadcastInDim S4096x1 ![0] bcast_S4096_S4096x1_0),
    TRef.unary (TRef.of (T := ⟨S4096x1, .f32⟩) main_call1_v8) (TRef.of (T := ⟨S4096x1, .f32⟩) main_call1_v9) Host.log,
    TRef.unary (TRef.of (T := ⟨S4096x1, .f32⟩) main_call1_v9) (TRef.of (T := ⟨S4096x32000, .f32⟩) main_call1_v10) (broadcastInDim S4096x32000 ![0, 1] bcast_S4096x1_S4096x32000_0_1),
    TRef.binary (TRef.of (T := ⟨S4096x32000, .f32⟩) main_call1_v5) (TRef.of (T := ⟨S4096x32000, .f32⟩) main_call1_v10) (TRef.of (T := ⟨S4096x32000, .f32⟩) main_v9) subf,
    nullary main_c (constantI S_ 32 4294967196#32),
    unary main_c main_v10 (broadcastInDim S4096 ![] bcast_S_S4096 : (⟨S_, .i32⟩ : BufTy).Contents (Elt F) → (⟨S4096, .i32⟩ : BufTy).Contents (Elt F)),
    binary main_arg2 main_v10 main_v11 (cmpi .ne : (⟨S4096, .i32⟩ : BufTy).Contents (Elt F) → (⟨S4096, .i32⟩ : BufTy).Contents (Elt F) → (⟨S4096, .i1⟩ : BufTy).Contents (Elt F)),
    nullary main_c_1 (constantI S_ 32 0#32),
    TRef.unary (TRef.of (T := ⟨S_, .i32⟩) main_c_1) (TRef.of (T := ⟨S_, .i32⟩) main_call2_v0) id,
    TRef.unary (TRef.of (T := ⟨S_, .i32⟩) main_call2_v0) (TRef.of (T := ⟨S4096, .i32⟩) main_call2_v1) (broadcastInDim S4096 ![] bcast_S_S4096),
    TRef.ternary (TRef.of (T := ⟨S4096, .i1⟩) main_v11) (TRef.of (T := ⟨S4096, .i32⟩) main_arg2) (TRef.of (T := ⟨S4096, .i32⟩) main_call2_v1) (TRef.of (T := ⟨S4096, .i32⟩) main_v12) select,
    unary main_v12 main_v13 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S4096x1, .i32⟩) main_call3_v0) (broadcastInDim S4096x1 ![] bcast_S_S4096x1),
    TRef.binary (TRef.of (T := ⟨S4096x1, .i32⟩) main_v13) (TRef.of (T := ⟨S4096x1, .i32⟩) main_call3_v0) (TRef.of (T := ⟨S4096x1, .i1⟩) main_call3_v1) (cmpi .slt),
    TRef.nullary (TRef.of (T := ⟨S_, .i32⟩) main_call3_c_0) (constantI S_ 32 32000#32),
    TRef.unary (TRef.of (T := ⟨S_, .i32⟩) main_call3_c_0) (TRef.of (T := ⟨S4096x1, .i32⟩) main_call3_v2) (broadcastInDim S4096x1 ![] bcast_S_S4096x1),
    TRef.binary (TRef.of (T := ⟨S4096x1, .i32⟩) main_v13) (TRef.of (T := ⟨S4096x1, .i32⟩) main_call3_v2) (TRef.of (T := ⟨S4096x1, .i32⟩) main_call3_v3) addi,
    TRef.ternary (TRef.of (T := ⟨S4096x1, .i1⟩) main_call3_v1) (TRef.of (T := ⟨S4096x1, .i32⟩) main_call3_v3) (TRef.of (T := ⟨S4096x1, .i32⟩) main_v13) (TRef.of (T := ⟨S4096x1, .i32⟩) main_call3_v4) select,
    TRef.reshape (TRef.of (T := ⟨S4096x1, .i32⟩) main_call3_v4) (TRef.of (T := ⟨S4096x1x1, .i32⟩) main_call3_v5) rfl shapeCasts_S4096x1_S4096x1x1,
    TRef.nullary (TRef.of (T := ⟨S1, .i32⟩) main_call3_c_1) (constantI S1 32 31999#32),
    TRef.nullary (TRef.of (T := ⟨S_, .i32⟩) main_call3_c_2) (constantI S_ 32 0#32),
    TRef.unary (TRef.of (T := ⟨S_, .i32⟩) main_call3_c_2) (TRef.of (T := ⟨S4096x1x1, .i32⟩) main_call3_v6) (broadcastInDim S4096x1x1 ![] bcast_S_S4096x1x1),
    TRef.binary (TRef.of (T := ⟨S4096x1x1, .i32⟩) main_call3_v5) (TRef.of (T := ⟨S4096x1x1, .i32⟩) main_call3_v6) (TRef.of (T := ⟨S4096x1x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S4096x1x1, .i32⟩) main_call3_v9) (broadcastInDim S4096x1x1 ![0, 1, 2] bcast_S1x1x1_S4096x1x1_0_1_2),
    TRef.binary (TRef.of (T := ⟨S4096x1x1, .i32⟩) main_call3_v5) (TRef.of (T := ⟨S4096x1x1, .i32⟩) main_call3_v9) (TRef.of (T := ⟨S4096x1x1, .i1⟩) main_call3_v10) (cmpi .sle),
    TRef.binary (TRef.of (T := ⟨S4096x1x1, .i1⟩) main_call3_v7) (TRef.of (T := ⟨S4096x1x1, .i1⟩) main_call3_v10) (TRef.of (T := ⟨S4096x1x1, .i1⟩) main_call3_v11) andi,
    TRef.nullary (TRef.of (T := ⟨S_, .i1⟩) main_call3_c_3) (constantI S_ 1 1#1),
    TRef.binary (TRef.of (T := ⟨S4096x1x1, .i1⟩) main_call3_v11) (TRef.of (T := ⟨S_, .i1⟩) main_call3_c_3) (TRef.of (T := ⟨S4096x1, .i1⟩) main_call3_v12) (fun x v => Host.reduce IntOp.andi x v reducesTo_S4096x1x1_S4096x1_d2 h_S_),
    TRef.binary (TRef.of (T := ⟨S4096x32000, .f32⟩) main_v8) (TRef.of (T := ⟨S4096x1x1, .i32⟩) main_call3_v5) (TRef.of (T := ⟨S4096x1, .f32⟩) main_call3_v13) (fun x i => Host.gather gather_S4096x32000_S4096x1x1_S4096x1_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S4096x1, .f32⟩) main_call3_v14) (broadcastInDim S4096x1 ![] bcast_S_S4096x1),
    TRef.ternary (TRef.of (T := ⟨S4096x1, .i1⟩) main_call3_v12) (TRef.of (T := ⟨S4096x1, .f32⟩) main_call3_v13) (TRef.of (T := ⟨S4096x1, .f32⟩) main_call3_v14) (TRef.of (T := ⟨S4096x1, .f32⟩) main_v14) select,
    reshape main_v14 main_v15 rfl shapeCasts_S4096x1_S4096,
    unary main_v15 main_v16 (Host.negf : (⟨S4096, .f32⟩ : BufTy).Contents (Elt F) → (⟨S4096, .f32⟩ : BufTy).Contents (Elt F)),
    unary main_v11 main_v17 ((extui 32 · natLt_1_32) : (⟨S4096, .i1⟩ : BufTy).Contents (Elt F) → (⟨S4096, .i32⟩ : BufTy).Contents (Elt F)),
    nullary main_c_2 (constantI S_ 32 0#32),
    binary main_v17 main_c_2 main_v18 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)),
    nullary main_c_3 (constantI S_ 32 1#32),
    binary main_v18 main_c_3 main_v19 (maxsi : (⟨S_, .i32⟩ : BufTy).Contents (Elt F) → (⟨S_, .i32⟩ : BufTy).Contents (Elt F) → (⟨S_, .i32⟩ : BufTy).Contents (Elt F)),
    nullary main_cst_4 (constant S_ .f32 0x00000000#32),
    TRef.unary (TRef.of (T := ⟨S_, .f32⟩) main_cst_4) (TRef.of (T := ⟨S_, .f32⟩) main_call4_v0) id,
    TRef.unary (TRef.of (T := ⟨S_, .f32⟩) main_call4_v0) (TRef.of (T := ⟨S4096, .f32⟩) main_call4_v1) (broadcastInDim S4096 ![] bcast_S_S4096),
    TRef.ternary (TRef.of (T := ⟨S4096, .i1⟩) main_v11) (TRef.of (T := ⟨S4096, .f32⟩) main_v16) (TRef.of (T := ⟨S4096, .f32⟩) main_call4_v1) (TRef.of (T := ⟨S4096, .f32⟩) main_v20) select,
    nullary main_cst_5 (constant S_ .f32 0x00000000#32),
    binary main_v20 main_cst_5 main_v21 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    unary main_v19 main_v22 (sitofp .f32 : (⟨S_, .i32⟩ : BufTy).Contents (Elt F) → (⟨S_, .f32⟩ : BufTy).Contents (Elt F)),
    binary main_v21 main_v22 main_v23 (Host.divf : (⟨S_, .f32⟩ : BufTy).Contents (Elt F) → (⟨S_, .f32⟩ : BufTy).Contents (Elt F) → (⟨S_, .f32⟩ : BufTy).Contents (Elt F)),
    unary main_v9 main_v24 (Host.exp : (⟨S4096x32000, .f32⟩ : BufTy).Contents (Elt F) → (⟨S4096x32000, .f32⟩ : BufTy).Contents (Elt F)),
    unary main_v8 main_v25 (Host.exp : (⟨S4096x32000, .f32⟩ : BufTy).Contents (Elt F) → (⟨S4096x32000, .f32⟩ : BufTy).Contents (Elt F)),
    nullary main_cst_6 (constant S_ .f32 0x3F000000#32),
    unary main_cst_6 main_v26 (broadcastInDim S4096x32000 ![] bcast_S_S4096x32000 : (⟨S_, .f32⟩ : BufTy).Contents (Elt F) → (⟨S4096x32000, .f32⟩ : BufTy).Contents (Elt F)),
    binary main_v26 main_v24 main_v27 (mulf : (⟨S4096x32000, .f32⟩ : BufTy).Contents (Elt F) → (⟨S4096x32000, .f32⟩ : BufTy).Contents (Elt F) → (⟨S4096x32000, .f32⟩ : BufTy).Contents (Elt F)),
    nullary main_cst_7 (constant S_ .f32 0x3F000000#32),
    unary main_cst_7 main_v28 (broadcastInDim S4096x32000 ![] bcast_S_S4096x32000 : (⟨S_, .f32⟩ : BufTy).Contents (Elt F) → (⟨S4096x32000, .f32⟩ : BufTy).Contents (Elt F)),
    binary main_v28 main_v25 main_v29 (mulf : (⟨S4096x32000, .f32⟩ : BufTy).Contents (Elt F) → (⟨S4096x32000, .f32⟩ : BufTy).Contents (Elt F) → (⟨S4096x32000, .f32⟩ : BufTy).Contents (Elt F)),
    binary main_v27 main_v29 main_v30 (addf : (⟨S4096x32000, .f32⟩ : BufTy).Contents (Elt F) → (⟨S4096x32000, .f32⟩ : BufTy).Contents (Elt F) → (⟨S4096x32000, .f32⟩ : BufTy).Contents (Elt F)),
    unary main_v30 main_v31 (Host.log : (⟨S4096x32000, .f32⟩ : BufTy).Contents (Elt F) → (⟨S4096x32000, .f32⟩ : BufTy).Contents (Elt F)),
    binary main_v9 main_v31 main_v32 (subf : (⟨S4096x32000, .f32⟩ : BufTy).Contents (Elt F) → (⟨S4096x32000, .f32⟩ : BufTy).Contents (Elt F) → (⟨S4096x32000, .f32⟩ : BufTy).Contents (Elt F)),
    binary main_v24 main_v32 main_v33 (mulf : (⟨S4096x32000, .f32⟩ : BufTy).Contents (Elt F) → (⟨S4096x32000, .f32⟩ : BufTy).Contents (Elt F) → (⟨S4096x32000, .f32⟩ : BufTy).Contents (Elt F)),
    nullary main_cst_8 (constant S_ .f32 0x00000000#32),
    binary main_v33 main_cst_8 main_v34 ((fun x v => Host.reduceAdd x v reducesTo_S4096x32000_S_d0_1 h_S_) : (⟨S4096x32000, .f32⟩ : BufTy).Contents (Elt F) → (⟨S_, .f32⟩ : BufTy).Contents (Elt F) → (⟨S_, .f32⟩ : BufTy).Contents (Elt F)),
    nullary main_cst_9 (constant S_ .f32 0x3F000000#32),
    binary main_cst_9 main_v34 main_v35 (mulf : (⟨S_, .f32⟩ : BufTy).Contents (Elt F) → (⟨S_, .f32⟩ : BufTy).Contents (Elt F) → (⟨S_, .f32⟩ : BufTy).Contents (Elt F)),
    binary main_v8 main_v31 main_v36 (subf : (⟨S4096x32000, .f32⟩ : BufTy).Contents (Elt F) → (⟨S4096x32000, .f32⟩ : BufTy).Contents (Elt F) → (⟨S4096x32000, .f32⟩ : BufTy).Contents (Elt F)),
    binary main_v25 main_v36 main_v37 (mulf : (⟨S4096x32000, .f32⟩ : BufTy).Contents (Elt F) → (⟨S4096x32000, .f32⟩ : BufTy).Contents (Elt F) → (⟨S4096x32000, .f32⟩ : BufTy).Contents (Elt F)),
    nullary main_cst_10 (constant S_ .f32 0x00000000#32),
    binary main_v37 main_cst_10 main_v38 ((fun x v => Host.reduceAdd x v reducesTo_S4096x32000_S_d0_1 h_S_) : (⟨S4096x32000, .f32⟩ : BufTy).Contents (Elt F) → (⟨S_, .f32⟩ : BufTy).Contents (Elt F) → (⟨S_, .f32⟩ : BufTy).Contents (Elt F)),
    nullary main_cst_11 (constant S_ .f32 0x3F000000#32),
    binary main_cst_11 main_v38 main_v39 (mulf : (⟨S_, .f32⟩ : BufTy).Contents (Elt F) → (⟨S_, .f32⟩ : BufTy).Contents (Elt F) → (⟨S_, .f32⟩ : BufTy).Contents (Elt F)),
    binary main_v35 main_v39 main_v40 (addf : (⟨S_, .f32⟩ : BufTy).Contents (Elt F) → (⟨S_, .f32⟩ : BufTy).Contents (Elt F) → (⟨S_, .f32⟩ : BufTy).Contents (Elt F)),
    nullary main_cst_12 (constant S_ .f32 0x45800000#32),
    binary main_v40 main_cst_12 main_v41 (Host.divf : (⟨S_, .f32⟩ : BufTy).Contents (Elt F) → (⟨S_, .f32⟩ : BufTy).Contents (Elt F) → (⟨S_, .f32⟩ : BufTy).Contents (Elt F)),
    nullary main_cst_13 (constant S_ .f32 0x3F000000#32),
    binary main_cst_13 main_v23 main_v42 (mulf : (⟨S_, .f32⟩ : BufTy).Contents (Elt F) → (⟨S_, .f32⟩ : BufTy).Contents (Elt F) → (⟨S_, .f32⟩ : BufTy).Contents (Elt F)),
    nullary main_cst_14 (constant S_ .f32 0x3F000000#32),
    binary main_cst_14 main_v41 main_v43 (mulf : (⟨S_, .f32⟩ : BufTy).Contents (Elt F) → (⟨S_, .f32⟩ : BufTy).Contents (Elt F) → (⟨S_, .f32⟩ : BufTy).Contents (Elt F)),
    binary main_v42 main_v43 main_v44 (addf : (⟨S_, .f32⟩ : BufTy).Contents (Elt F) → (⟨S_, .f32⟩ : BufTy).Contents (Elt F) → (⟨S_, .f32⟩ : BufTy).Contents (Elt F)) ]

/-- The line is its six stretches, one after the other. -/
theorem ops_split : (ops : List (HloOp τ sig (Elt F))) = ops1 ++ (ops2 ++ (ops3 ++ (ops4 ++ (ops5 ++ ops6)))) := rfl

set_option maxRecDepth 8192 in
set_option maxHeartbeats 4000000 in
/-- The printed program is this line of operations. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation touches TensorCore buffers only. -/
theorem ops_sub : (ops : List (HloOp τ sig (Elt F))).Forall fun op => op.bufs ⊆ tcRefs τ sig :=
  ⟨unary_bufs_sub .., binary_bufs_sub .., nullary_bufs_sub .., unary_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., unary_bufs_sub .., nullary_bufs_sub .., binary_bufs_sub .., nullary_bufs_sub .., binary_bufs_sub .., nullary_bufs_sub .., unary_bufs_sub .., unary_bufs_sub .., ternary_bufs_sub .., nullary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., binary_bufs_sub .., nullary_bufs_sub .., binary_bufs_sub .., nullary_bufs_sub .., binary_bufs_sub .., nullary_bufs_sub .., binary_bufs_sub .., binary_bufs_sub ..⟩

/-- What the whole line leaves is what the six stretches leave, each started from what the one before left. -/
theorem after_ops (W : Valuation τ sig (Elt F)) :
    after ops W = after ops6 (after ops5 (after ops4 (after ops3 (after ops2 (after ops1 W))))) := by
  rw [ops_split, StableHlo.after_append, StableHlo.after_append, StableHlo.after_append, StableHlo.after_append,
    StableHlo.after_append]

end Cert.ReferenceIdeal.RunH

end
-- ==== Proof.RefRunParts.lean ====
/-
  What each of the reference's six stretches of host operations leaves, read back by itself.  A stretch is
  started from arbitrary buffer contents W; the buffers it reads from earlier stretches are assumed to hold the
  corresponding stage of the computation (a function of the program's five arguments), and the buffer it
  hands on is shown to hold the next stage.  Inside a called function every value is carried to its buffer's
  own type and back, which changes nothing; once those transports are removed, the stretch's composed term and
  the stage's definition are the same operations in the same order.  A buffer a stretch does not write keeps its
  contents.
-/
import proofs.«178291_j71159018160659_2_alg».proof.Proof.RefRunOps
import proofs.«178291_j71159018160659_2_alg».proof.Proof.RefRead
import Idealize.ShloMosaic.Lib.StableHlo.Run

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- Transporting contents to a buffer's type and back changes nothing. -/
theorem tref_ofBuf_toBuf {Val : EltTy → Type} {T : BufTy} (x : TRef sig T) (v : T.Contents Val) : x.ofBuf (x.toBuf v) = v := by
  obtain ⟨r, h, _, _⟩ := x
  subst h
  rfl

/-! Carrying contents to the type of a literal buffer, or back, is the identity: the buffer's declared type is the value's. -/
theorem ofBuf_main_v3 (v : (⟨S4096x32000, .f32⟩ : BufTy).Contents (Elt F)) : (TRef.of (T := ⟨S4096x32000, .f32⟩) main_v3).ofBuf v = v := rfl
theorem ofBuf_main_v7 (v : (⟨S4096x32000, .f32⟩ : BufTy).Contents (Elt F)) : (TRef.of (T := ⟨S4096x32000, .f32⟩) main_v7).ofBuf v = v := rfl
theorem ofBuf_main_c_1 (v : (⟨S_, .i32⟩ : BufTy).Contents (Elt F)) : (TRef.of (T := ⟨S_, .i32⟩) main_c_1).ofBuf v = v := rfl
theorem ofBuf_main_v11 (v : (⟨S4096, .i1⟩ : BufTy).Contents (Elt F)) : (TRef.of (T := ⟨S4096, .i1⟩) main_v11).ofBuf v = v := rfl
theorem ofBuf_main_arg2 (v : (⟨S4096, .i32⟩ : BufTy).Contents (Elt F)) : (TRef.of (T := ⟨S4096, .i32⟩) main_arg2).ofBuf v = v := rfl
theorem ofBuf_main_v13 (v : (⟨S4096x1, .i32⟩ : BufTy).Contents (Elt F)) : (TRef.of (T := ⟨S4096x1, .i32⟩) main_v13).ofBuf v = v := rfl
theorem ofBuf_main_v8 (v : (⟨S4096x32000, .f32⟩ : BufTy).Contents (Elt F)) : (TRef.of (T := ⟨S4096x32000, .f32⟩) main_v8).ofBuf v = v := rfl
theorem ofBuf_main_cst_4 (v : (⟨S_, .f32⟩ : BufTy).Contents (Elt F)) : (TRef.of (T := ⟨S_, .f32⟩) main_cst_4).ofBuf v = v := rfl
theorem ofBuf_main_v16 (v : (⟨S4096, .f32⟩ : BufTy).Contents (Elt F)) : (TRef.of (T := ⟨S4096, .f32⟩) main_v16).ofBuf v = v := rfl
theorem toBuf_main_v8 (v : (⟨S4096x32000, .f32⟩ : BufTy).Contents (Elt F)) : (TRef.of (T := ⟨S4096x32000, .f32⟩) main_v8).toBuf v = v := rfl
theorem toBuf_main_v9 (v : (⟨S4096x32000, .f32⟩ : BufTy).Contents (Elt F)) : (TRef.of (T := ⟨S4096x32000, .f32⟩) main_v9).toBuf v = v := rfl
theorem toBuf_main_v12 (v : (⟨S4096, .i32⟩ : BufTy).Contents (Elt F)) : (TRef.of (T := ⟨S4096, .i32⟩) main_v12).toBuf v = v := rfl
theorem toBuf_main_v14 (v : (⟨S4096x1, .f32⟩ : BufTy).Contents (Elt F)) : (TRef.of (T := ⟨S4096x1, .f32⟩) main_v14).toBuf v = v := rfl
theorem toBuf_main_v20 (v : (⟨S4096, .f32⟩ : BufTy).Contents (Elt F)) : (TRef.of (T := ⟨S4096, .f32⟩) main_v20).toBuf v = v := rfl

set_option maxHeartbeats 4000000 in
/-- The student's logits after the first stretch. -/
theorem c1_v3 (W : Valuation τ sig (Elt F)) :
    after ops1 W (Proc.devRef .tc main_v3) = Read.val_main_v3 (F := F) (W (Proc.devRef .tc main_arg0)) (W (Proc.devRef .tc main_arg3)) := by
  after_results_simp
  rfl

set_option maxHeartbeats 4000000 in
/-- The teacher's logits after the first stretch. -/
theorem c1_v7 (W : Valuation τ sig (Elt F)) :
    after ops1 W (Proc.devRef .tc main_v7) = Read.val_main_v7 (F := F) (W (Proc.devRef .tc main_arg1)) (W (Proc.devRef .tc main_arg4)) := by
  after_results_simp
  rfl

/-- Stretch 1 does not write main_arg2. -/
theorem c1_keep_arg2 (W : Valuation τ sig (Elt F)) : after ops1 W (Proc.devRef .tc main_arg2) = W (Proc.devRef .tc main_arg2) := by
  after_results_simp

set_option maxHeartbeats 4000000 in
/-- The student's log-softmax after the second stretch, from the student's logits. -/
theorem c2_v8 (W : Valuation τ sig (Elt F)) (x0 : (⟨S4096x2048, .f32⟩ : BufTy).Contents (Elt F)) (x3 : (⟨S32000x2048, .f32⟩ : BufTy).Contents (Elt F))
    (h3 : W (Proc.devRef .tc main_v3) = Read.val_main_v3 (F := F) x0 x3) :
    after ops2 W (Proc.devRef .tc main_v8) = Read.val_main_v8 (F := F) x0 x3 := by
  after_results_simp
  rw [h3]
  simp only [tref_ofBuf_toBuf, ofBuf_main_v3, toBuf_main_v8]
  rfl

/-- Stretch 2 does not write main_v7. -/
theorem c2_keep_v7 (W : Valuation τ sig (Elt F)) : after ops2 W (Proc.devRef .tc main_v7) = W (Proc.devRef .tc main_v7) := by
  after_results_simp

/-- Stretch 2 does not write main_arg2. -/
theorem c2_keep_arg2 (W : Valuation τ sig (Elt F)) : after ops2 W (Proc.devRef .tc main_arg2) = W (Proc.devRef .tc main_arg2) := by
  after_results_simp

set_option maxHeartbeats 4000000 in
/-- The teacher's log-softmax after the third stretch, from the teacher's logits. -/
theorem c3_v9 (W : Valuation τ sig (Elt F)) (x1 : (⟨S4096x4096, .f32⟩ : BufTy).Contents (Elt F)) (x4 : (⟨S32000x4096, .f32⟩ : BufTy).Contents (Elt F))
    (h7 : W (Proc.devRef .tc main_v7) = Read.val_main_v7 (F := F) x1 x4) :
    after ops3 W (Proc.devRef .tc main_v9) = Read.val_main_v9 (F := F) x1 x4 := by
  after_results_simp
  rw [h7]
  simp only [tref_ofBuf_toBuf, ofBuf_main_v7, toBuf_main_v9]
  rfl

/-- Stretch 3 does not write main_v8. -/
theorem c3_keep_v8 (W : Valuation τ sig (Elt F)) : after ops3 W (Proc.devRef .tc main_v8) = W (Proc.devRef .tc main_v8) := by
  after_results_simp

/-- Stretch 3 does not write main_arg2. -/
theorem c3_keep_arg2 (W : Valuation τ sig (Elt F)) : after ops3 W (Proc.devRef .tc main_arg2) = W (Proc.devRef .tc main_arg2) := by
  after_results_simp

set_option maxHeartbeats 4000000 in
/-- The cross-entropy mean after the fourth stretch, from the labels and the student's log-softmax. -/
theorem c4_v23 (W : Valuation τ sig (Elt F)) (x0 : (⟨S4096x2048, .f32⟩ : BufTy).Contents (Elt F)) (x2 : (⟨S4096, .i32⟩ : BufTy).Contents (Elt F)) (x3 : (⟨S32000x2048, .f32⟩ : BufTy).Contents (Elt F))
    (h8 : W (Proc.devRef .tc main_v8) = Read.val_main_v8 (F := F) x0 x3) (h2 : W (Proc.devRef .tc main_arg2) = x2) :
    after ops4 W (Proc.devRef .tc main_v23) = Read.val_main_v23 (F := F) x0 x2 x3 := by
  after_results_simp
  rw [h8, h2]
  simp only [tref_ofBuf_toBuf, ofBuf_main_c_1, ofBuf_main_v11, ofBuf_main_arg2, ofBuf_main_v13, ofBuf_main_v8, ofBuf_main_cst_4, ofBuf_main_v16, toBuf_main_v12, toBuf_main_v14, toBuf_main_v20]
  rfl

/-- Stretch 4 does not write main_v8. -/
theorem c4_keep_v8 (W : Valuation τ sig (Elt F)) : after ops4 W (Proc.devRef .tc main_v8) = W (Proc.devRef .tc main_v8) := by
  after_results_simp

/-- Stretch 4 does not write main_v9. -/
theorem c4_keep_v9 (W : Valuation τ sig (Elt F)) : after ops4 W (Proc.devRef .tc main_v9) = W (Proc.devRef .tc main_v9) := by
  after_results_simp

set_option maxHeartbeats 4000000 in
/-- The divergence mean after the fifth stretch, from the two log-softmax arrays. -/
theorem c5_v41 (W : Valuation τ sig (Elt F)) (x0 : (⟨S4096x2048, .f32⟩ : BufTy).Contents (Elt F)) (x1 : (⟨S4096x4096, .f32⟩ : BufTy).Contents (Elt F)) (x3 : (⟨S32000x2048, .f32⟩ : BufTy).Contents (Elt F)) (x4 : (⟨S32000x4096, .f32⟩ : BufTy).Contents (Elt F))
    (h8 : W (Proc.devRef .tc main_v8) = Read.val_main_v8 (F := F) x0 x3) (h9 : W (Proc.devRef .tc main_v9) = Read.val_main_v9 (F := F) x1 x4) :
    after ops5 W (Proc.devRef .tc main_v41) = Read.val_main_v41 (F := F) x0 x1 x3 x4 := by
  after_results_simp
  rw [h8, h9]
  rfl

/-- Stretch 5 does not write main_v23. -/
theorem c5_keep_v23 (W : Valuation τ sig (Elt F)) : after ops5 W (Proc.devRef .tc main_v23) = W (Proc.devRef .tc main_v23) := by
  after_results_simp

set_option maxHeartbeats 4000000 in
/-- The loss after the last stretch, from the two means. -/
theorem c6_v44 (W : Valuation τ sig (Elt F)) (x0 : (⟨S4096x2048, .f32⟩ : BufTy).Contents (Elt F)) (x1 : (⟨S4096x4096, .f32⟩ : BufTy).Contents (Elt F)) (x2 : (⟨S4096, .i32⟩ : BufTy).Contents (Elt F)) (x3 : (⟨S32000x2048, .f32⟩ : BufTy).Contents (Elt F)) (x4 : (⟨S32000x4096, .f32⟩ : BufTy).Contents (Elt F))
    (h23 : W (Proc.devRef .tc main_v23) = Read.val_main_v23 (F := F) x0 x2 x3)
    (h41 : W (Proc.devRef .tc main_v41) = Read.val_main_v41 (F := F) x0 x1 x3 x4) :
    after ops6 W (Proc.devRef .tc main_v44) = Read.val_main_v44 (F := F) x0 x1 x2 x3 x4 := by
  after_results_simp
  rw [h23, h41]
  rfl

end Cert.ReferenceIdeal.RunH

end
-- ==== Proof.RefRunH.lean ====
/-
  The reference program's run.  Every weakly fair execution of the straight line of host operations terminates;
  the result buffer then holds the last stage of the computation as a function of the five arguments' launch
  contents, and the arguments are unchanged.  The result is read back stretch by stretch: each stretch finds in
  the buffers it reads the stages the earlier stretches left there, and the buffers in between are not written.
-/
import proofs.«178291_j71159018160659_2_alg».proof.Proof.RefRunParts
import Idealize.ShloMosaic.Lib.StableHlo.Run

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- What the whole line leaves in the result buffer, from any starting contents: the composition of the stages. -/
theorem result_eq (W : Valuation τ sig (Elt F)) :
    after ops W (Proc.devRef .tc main_v44)
      = Read.val_main_v44 (F := F) (W (Proc.devRef .tc main_arg0)) (W (Proc.devRef .tc main_arg1)) (W (Proc.devRef .tc main_arg2)) (W (Proc.devRef .tc main_arg3)) (W (Proc.devRef .tc main_arg4)) := by
  rw [after_ops]
  have a3 := c1_v3 W
  have a7 := c1_v7 W
  have a2 := c1_keep_arg2 W
  have b8 := c2_v8 (after ops1 W) _ _ a3
  have b7 := (c2_keep_v7 (after ops1 W)).trans a7
  have b2 := (c2_keep_arg2 (after ops1 W)).trans a2
  have c9 := c3_v9 (after ops2 (after ops1 W)) _ _ b7
  have c8 := (c3_keep_v8 (after ops2 (after ops1 W))).trans b8
  have c2 := (c3_keep_arg2 (after ops2 (after ops1 W))).trans b2
  have d23 := c4_v23 (after ops3 (after ops2 (after ops1 W))) _ _ _ c8 c2
  have d8 := (c4_keep_v8 (after ops3 (after ops2 (after ops1 W)))).trans c8
  have d9 := (c4_keep_v9 (after ops3 (after ops2 (after ops1 W)))).trans c9
  have e41 := c5_v41 (after ops4 (after ops3 (after ops2 (after ops1 W)))) _ _ _ _ d8 d9
  have e23 := (c5_keep_v23 (after ops4 (after ops3 (after ops2 (after ops1 W))))).trans d23
  exact c6_v44 (after ops5 (after ops4 (after ops3 (after ops2 (after ops1 W))))) _ _ _ _ _ e23 e41

set_option maxRecDepth 8192 in
set_option maxHeartbeats 46000000 in
/-- On every device, for any float values, from any memory with zero counters: every weakly fair execution of
    the program terminates with the result at the composition of the stages of the arguments' launch contents,
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44)
        = Read.val_main_v44 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v44).trans (result_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.RunH

end
-- ==== Proof.RefLogits.lean ====
/-
  The plain program's two vocabulary projections. Each is the product of the activations with the transposed
  weight matrix, divided by the literal one: at row r and vocabulary entry v it is the inner product of
  activation row r with weight row v.
-/
import proofs.«178291_j71159018160659_2_alg».proof.Proof.RefRead
import proofs.«178291_j71159018160659_2_alg».proof.Proof.Spec
import proofs.«178291_j71159018160659_2_alg».proof.Proof.RefLib

noncomputable section

open scoped BigOperators

namespace Cert.ReferenceIdeal.RefValue

open Cert.ReferenceIdeal Cert.ReferenceIdeal.Gen Cert.ReferenceIdeal.Read Idealize.ShloMosaic Idealize.ShloMosaic.ValueIdx Cert.JSD

/-- The student projection at (r, v) is the inner product of student row r with student weight row v. -/
theorem s_logits (x0 : (⟨S4096x2048, .f32⟩ : BufTy).Contents (Elt Ideal)) (x3 : (⟨S32000x2048, .f32⟩ : BufTy).Contents (Elt Ideal))
    (r : Fin 4096) (v : Fin 32000) :
    val_main_v3 (F := Ideal) x0 x3 (ix2 r v) = logit x0 x3 r v := by
  rw [val_main_v3_apply, val_main_v1_apply, val_main_v2_apply, val_main_cst_apply]
  simp only [Ideal.hostDivf_def, Ideal.ofBits_def, ofBits_one_f32, div_one]
  unfold logit
  refine Finset.sum_congr rfl fun k _ => ?_
  rw [val_main_v0_apply]
  have el : lidx_main_v1 (ix2 r v) k = ix2 r k := funext fun a => Fin.ext (by
    match a with
    | ⟨0, _⟩ => rfl
    | ⟨1, _⟩ => rfl)
  have er : idx_main_v0 (ridx_main_v1 (ix2 r v) k) = ix2 v k := funext fun a => Fin.ext (by
    match a with
    | ⟨0, _⟩ => rfl
    | ⟨1, _⟩ => rfl)
  rw [el, er]

/-- The teacher projection at (r, v) is the inner product of teacher row r with teacher weight row v. -/
theorem t_logits (x1 : (⟨S4096x4096, .f32⟩ : BufTy).Contents (Elt Ideal)) (x4 : (⟨S32000x4096, .f32⟩ : BufTy).Contents (Elt Ideal))
    (r : Fin 4096) (v : Fin 32000) :
    val_main_v7 (F := Ideal) x1 x4 (ix2 r v) = logit x1 x4 r v := by
  rw [val_main_v7_apply, val_main_v5_apply, val_main_v6_apply, val_main_cst_0_apply]
  simp only [Ideal.hostDivf_def, Ideal.ofBits_def, ofBits_one_f32, div_one]
  unfold logit
  refine Finset.sum_congr rfl fun k _ => ?_
  rw [val_main_v4_apply]
  have el : lidx_main_v5 (ix2 r v) k = ix2 r k := funext fun a => Fin.ext (by
    match a with
    | ⟨0, _⟩ => rfl
    | ⟨1, _⟩ => rfl)
  have er : idx_main_v4 (ridx_main_v5 (ix2 r v) k) = ix2 v k := funext fun a => Fin.ext (by
    match a with
    | ⟨0, _⟩ => rfl
    | ⟨1, _⟩ => rfl)
  rw [el, er]

end Cert.ReferenceIdeal.RefValue

end
-- ==== Proof.RefSoftmax.lean ====
/-
  The plain program's two log-softmaxes. Each row's largest logit is taken by a reduction by the maximum from
  negative infinity (and compared once more against negative infinity, which changes nothing); the logits are
  shifted by it, exponentiated and summed along the row; the log-probability is the shifted logit less the
  logarithm of that sum.
-/
import proofs.«178291_j71159018160659_2_alg».proof.Proof.RefLogits

noncomputable section

open scoped BigOperators

namespace Cert.ReferenceIdeal.RefValue

open Cert.ReferenceIdeal Cert.ReferenceIdeal.Gen Cert.ReferenceIdeal.Read Idealize.ShloMosaic Idealize.ShloMosaic.ValueIdx Cert.JSD

/-- The largest student logit of row r, as the plain program takes it: the row's reduction by the maximum from
    negative infinity, then once more against negative infinity. -/
theorem s_max (x0 : (⟨S4096x2048, .f32⟩ : BufTy).Contents (Elt Ideal)) (x3 : (⟨S32000x2048, .f32⟩ : BufTy).Contents (Elt Ideal)) (r : Fin 4096) :
    val_main_call0_v2 (F := Ideal) x0 x3 (ix1 r) = rowMax (logit x0 x3) r := by
  rw [val_main_call0_v2_apply, val_main_call0_v1_apply, val_main_call0_cst_0_apply]
  unfold val_main_call0_v0
  rw [reduce_row_max (val_main_v3 (F := Ideal) x0 x3) (val_main_call0_cst (F := Ideal)) reducesTo_S4096x32000_S4096_d1
    (by decide) h_S_ (by rw [val_main_call0_cst_apply]; exact ofBits_neg_inf_f32) r]
  simp only [Ideal.maximumf_def, Ideal.ofBits_def, ofBits_neg_inf_f32, s_logits]
  unfold rowMax
  exact max_eq_right bot_le

/-- The shifted student logit at (r, v): the logit less the row's largest. -/
theorem s_shift (x0 : (⟨S4096x2048, .f32⟩ : BufTy).Contents (Elt Ideal)) (x3 : (⟨S32000x2048, .f32⟩ : BufTy).Contents (Elt Ideal))
    (r : Fin 4096) (v : Fin 32000) :
    val_main_call0_v5 (F := Ideal) x0 x3 (ix2 r v) = logit x0 x3 r v - rowMax (logit x0 x3) r := by
  rw [val_main_call0_v5_apply, val_main_call0_v4_apply, val_main_call0_v3_apply, s_logits]
  have e : idx_main_call0_v3 (idx_main_call0_v4 (ix2 r v)) = ix1 r := funext fun a => Fin.ext (by
    match a with
    | ⟨0, _⟩ => rfl)
  rw [e, s_max]
  simp only [Ideal.subf_def]

/-- The student row's sum of shifted exponentials. -/
theorem s_sumexp (x0 : (⟨S4096x2048, .f32⟩ : BufTy).Contents (Elt Ideal)) (x3 : (⟨S32000x2048, .f32⟩ : BufTy).Contents (Elt Ideal)) (r : Fin 4096) :
    val_main_call0_v7 (F := Ideal) x0 x3 (ix1 r) = rowSumExp (logit x0 x3) r := by
  rw [val_main_call0_v7_apply, val_main_call0_cst_1_apply]
  simp only [Ideal.ofBits_def, Ideal.ofBits_zero_f32, zero_add]
  unfold rowSumExp
  refine Finset.sum_congr rfl fun k _ => ?_
  have e : idx_main_call0_v7 (ix1 r) k = ix2 r k := funext fun a => Fin.ext (by
    match a with
    | ⟨0, _⟩ => rfl
    | ⟨1, _⟩ => rfl)
  rw [e, val_main_call0_v6_apply, s_shift]
  simp only [Ideal.hostUnary_exp_def]

/-- The student log-probabilities: the plain program's log-softmax of the student logits. -/
theorem s_lp (x0 : (⟨S4096x2048, .f32⟩ : BufTy).Contents (Elt Ideal)) (x3 : (⟨S32000x2048, .f32⟩ : BufTy).Contents (Elt Ideal))
    (r : Fin 4096) (v : Fin 32000) :
    val_main_v8 (F := Ideal) x0 x3 (ix2 r v) = logSoftmax (logit x0 x3) r v := by
  rw [val_main_v8_apply, s_shift, val_main_call0_v10_apply, val_main_call0_v9_apply, val_main_call0_v8_apply]
  have e : idx_main_call0_v8 (idx_main_call0_v10 (ix2 r v)) = ix1 r := funext fun a => Fin.ext (by
    match a with
    | ⟨0, _⟩ => rfl)
  rw [e, s_sumexp]
  simp only [Ideal.subf_def, Ideal.hostUnary_log_def]
  rfl

/-- The largest teacher logit of row r, as the plain program takes it: the row's reduction by the maximum from
    negative infinity, then once more against negative infinity. -/
theorem t_max (x1 : (⟨S4096x4096, .f32⟩ : BufTy).Contents (Elt Ideal)) (x4 : (⟨S32000x4096, .f32⟩ : BufTy).Contents (Elt Ideal)) (r : Fin 4096) :
    val_main_call1_v2 (F := Ideal) x1 x4 (ix1 r) = rowMax (logit x1 x4) r := by
  rw [val_main_call1_v2_apply, val_main_call1_v1_apply, val_main_call1_cst_0_apply]
  unfold val_main_call1_v0
  rw [reduce_row_max (val_main_v7 (F := Ideal) x1 x4) (val_main_call1_cst (F := Ideal)) reducesTo_S4096x32000_S4096_d1
    (by decide) h_S_ (by rw [val_main_call1_cst_apply]; exact ofBits_neg_inf_f32) r]
  simp only [Ideal.maximumf_def, Ideal.ofBits_def, ofBits_neg_inf_f32, t_logits]
  unfold rowMax
  exact max_eq_right bot_le

/-- The shifted teacher logit at (r, v): the logit less the row's largest. -/
theorem t_shift (x1 : (⟨S4096x4096, .f32⟩ : BufTy).Contents (Elt Ideal)) (x4 : (⟨S32000x4096, .f32⟩ : BufTy).Contents (Elt Ideal))
    (r : Fin 4096) (v : Fin 32000) :
    val_main_call1_v5 (F := Ideal) x1 x4 (ix2 r v) = logit x1 x4 r v - rowMax (logit x1 x4) r := by
  rw [val_main_call1_v5_apply, val_main_call1_v4_apply, val_main_call1_v3_apply, t_logits]
  have e : idx_main_call1_v3 (idx_main_call1_v4 (ix2 r v)) = ix1 r := funext fun a => Fin.ext (by
    match a with
    | ⟨0, _⟩ => rfl)
  rw [e, t_max]
  simp only [Ideal.subf_def]

/-- The teacher row's sum of shifted exponentials. -/
theorem t_sumexp (x1 : (⟨S4096x4096, .f32⟩ : BufTy).Contents (Elt Ideal)) (x4 : (⟨S32000x4096, .f32⟩ : BufTy).Contents (Elt Ideal)) (r : Fin 4096) :
    val_main_call1_v7 (F := Ideal) x1 x4 (ix1 r) = rowSumExp (logit x1 x4) r := by
  rw [val_main_call1_v7_apply, val_main_call1_cst_1_apply]
  simp only [Ideal.ofBits_def, Ideal.ofBits_zero_f32, zero_add]
  unfold rowSumExp
  refine Finset.sum_congr rfl fun k _ => ?_
  have e : idx_main_call1_v7 (ix1 r) k = ix2 r k := funext fun a => Fin.ext (by
    match a with
    | ⟨0, _⟩ => rfl
    | ⟨1, _⟩ => rfl)
  rw [e, val_main_call1_v6_apply, t_shift]
  simp only [Ideal.hostUnary_exp_def]

/-- The teacher log-probabilities: the plain program's log-softmax of the teacher logits. -/
theorem t_lp (x1 : (⟨S4096x4096, .f32⟩ : BufTy).Contents (Elt Ideal)) (x4 : (⟨S32000x4096, .f32⟩ : BufTy).Contents (Elt Ideal))
    (r : Fin 4096) (v : Fin 32000) :
    val_main_v9 (F := Ideal) x1 x4 (ix2 r v) = logSoftmax (logit x1 x4) r v := by
  rw [val_main_v9_apply, t_shift, val_main_call1_v10_apply, val_main_call1_v9_apply, val_main_call1_v8_apply]
  have e : idx_main_call1_v8 (idx_main_call1_v10 (ix2 r v)) = ix1 r := funext fun a => Fin.ext (by
    match a with
    | ⟨0, _⟩ => rfl)
  rw [e, t_sumexp]
  simp only [Ideal.subf_def, Ideal.hostUnary_log_def]
  rfl

end Cert.ReferenceIdeal.RefValue

end
-- ==== Proof.RefSoft.lean ====
/-
  The plain program's divergence part. At every row and vocabulary entry it forms the logarithm of the even
  mixture of the two distributions, weighs each distribution's log-ratio against the mixture by the
  distribution itself, sums each of the two products over all rows and entries at once, halves the two sums,
  adds them and divides by the literal 4096.
-/
import proofs.«178291_j71159018160659_2_alg».proof.Proof.RefSoftmax

noncomputable section

open scoped BigOperators

namespace Cert.ReferenceIdeal.RefValue

open Cert.ReferenceIdeal Cert.ReferenceIdeal.Gen Cert.ReferenceIdeal.Read Idealize.ShloMosaic Idealize.ShloMosaic.ValueIdx Cert.JSD

/-- The logarithm of the even mixture at (r, v). -/
theorem log_mix (x0 : (⟨S4096x2048, .f32⟩ : BufTy).Contents (Elt Ideal)) (x1 : (⟨S4096x4096, .f32⟩ : BufTy).Contents (Elt Ideal))
    (x3 : (⟨S32000x2048, .f32⟩ : BufTy).Contents (Elt Ideal)) (x4 : (⟨S32000x4096, .f32⟩ : BufTy).Contents (Elt Ideal))
    (r : Fin 4096) (v : Fin 32000) :
    val_main_v31 (F := Ideal) x0 x1 x3 x4 (ix2 r v) = logMix (logit x0 x3) (logit x1 x4) r v := by
  rw [val_main_v31_apply, val_main_v30_apply, val_main_v27_apply, val_main_v29_apply, val_main_v26_apply, val_main_v28_apply,
    val_main_cst_6_apply, val_main_cst_7_apply, val_main_v24_apply, val_main_v25_apply, t_lp, s_lp]
  simp only [Ideal.subf_def, Ideal.addf_def, Ideal.mulf_def, Ideal.hostUnary_log_def, Ideal.hostUnary_exp_def, Ideal.ofBits_def, Ideal.hostDivf_def]
  rfl

/-- The teacher's sum over all rows and entries: its probability times its log-ratio against the mixture. -/
theorem soft_t (x0 : (⟨S4096x2048, .f32⟩ : BufTy).Contents (Elt Ideal)) (x1 : (⟨S4096x4096, .f32⟩ : BufTy).Contents (Elt Ideal))
    (x3 : (⟨S32000x2048, .f32⟩ : BufTy).Contents (Elt Ideal)) (x4 : (⟨S32000x4096, .f32⟩ : BufTy).Contents (Elt Ideal)) :
    val_main_v34 (F := Ideal) x0 x1 x3 x4 ix0
      = ∑ r : Fin 4096, ∑ v : Fin 32000, Ideal.exp (logSoftmax (logit x1 x4) r v)
          * (logSoftmax (logit x1 x4) r v - logMix (logit x0 x3) (logit x1 x4) r v) := by
  rw [val_main_v34_apply, val_main_cst_8_apply]
  simp only [Ideal.ofBits_def, Ideal.ofBits_zero_f32, zero_add]
  rw [sum_idx2]
  refine Finset.sum_congr rfl fun r _ => Finset.sum_congr rfl fun v _ => ?_
  rw [val_main_v33_apply, val_main_v32_apply, val_main_v24_apply, t_lp, log_mix]
  simp only [Ideal.subf_def, Ideal.addf_def, Ideal.mulf_def, Ideal.hostUnary_log_def, Ideal.hostUnary_exp_def, Ideal.ofBits_def, Ideal.hostDivf_def]

/-- The student's sum over all rows and entries, likewise. -/
theorem soft_s (x0 : (⟨S4096x2048, .f32⟩ : BufTy).Contents (Elt Ideal)) (x1 : (⟨S4096x4096, .f32⟩ : BufTy).Contents (Elt Ideal))
    (x3 : (⟨S32000x2048, .f32⟩ : BufTy).Contents (Elt Ideal)) (x4 : (⟨S32000x4096, .f32⟩ : BufTy).Contents (Elt Ideal)) :
    val_main_v38 (F := Ideal) x0 x1 x3 x4 ix0
      = ∑ r : Fin 4096, ∑ v : Fin 32000, Ideal.exp (logSoftmax (logit x0 x3) r v)
          * (logSoftmax (logit x0 x3) r v - logMix (logit x0 x3) (logit x1 x4) r v) := by
  rw [val_main_v38_apply, val_main_cst_10_apply]
  simp only [Ideal.ofBits_def, Ideal.ofBits_zero_f32, zero_add]
  rw [sum_idx2]
  refine Finset.sum_congr rfl fun r _ => Finset.sum_congr rfl fun v _ => ?_
  rw [val_main_v37_apply, val_main_v36_apply, val_main_v25_apply, s_lp, log_mix]
  simp only [Ideal.subf_def, Ideal.addf_def, Ideal.mulf_def, Ideal.hostUnary_log_def, Ideal.hostUnary_exp_def, Ideal.ofBits_def, Ideal.hostDivf_def]

/-- The divergence part: the two halved sums, added and divided by 4096. -/
theorem soft (x0 : (⟨S4096x2048, .f32⟩ : BufTy).Contents (Elt Ideal)) (x1 : (⟨S4096x4096, .f32⟩ : BufTy).Contents (Elt Ideal))
    (x3 : (⟨S32000x2048, .f32⟩ : BufTy).Contents (Elt Ideal)) (x4 : (⟨S32000x4096, .f32⟩ : BufTy).Contents (Elt Ideal)) :
    val_main_v41 (F := Ideal) x0 x1 x3 x4 ix0
      = Ideal.div
          (half * (∑ r : Fin 4096, ∑ v : Fin 32000, Ideal.exp (logSoftmax (logit x1 x4) r v)
              * (logSoftmax (logit x1 x4) r v - logMix (logit x0 x3) (logit x1 x4) r v))
            + half * (∑ r : Fin 4096, ∑ v : Fin 32000, Ideal.exp (logSoftmax (logit x0 x3) r v)
              * (logSoftmax (logit x0 x3) r v - logMix (logit x0 x3) (logit x1 x4) r v)))
          w4096 := by
  rw [val_main_v41_apply, val_main_v40_apply, val_main_v35_apply, val_main_v39_apply, val_main_cst_9_apply,
    val_main_cst_11_apply, val_main_cst_12_apply, soft_t, soft_s]
  simp only [Ideal.subf_def, Ideal.addf_def, Ideal.mulf_def, Ideal.hostUnary_log_def, Ideal.hostUnary_exp_def, Ideal.ofBits_def, Ideal.hostDivf_def]

end Cert.ReferenceIdeal.RefValue

end
-- ==== Proof.RefHard.lean ====
/-
  The plain program's cross-entropy part. A token takes part unless its label is the ignore value; the
  ignore value is replaced by 0, a negative label counts from the end of the vocabulary, and the student's
  log-probability at that entry of the token's row is taken (by a row-wise take whose in-range mask is set for
  every label between -32000 and 31999), negated, and kept only for the tokens that take part. The kept terms
  are summed and divided by the number of tokens taking part, counted as a 32-bit integer, raised to at
  least one and converted.
-/
import proofs.«178291_j71159018160659_2_alg».proof.Proof.RefSoftmax

noncomputable section

open scoped BigOperators

namespace Cert.ReferenceIdeal.RefValue

open Cert.ReferenceIdeal Cert.ReferenceIdeal.Gen Cert.ReferenceIdeal.Read Idealize.ShloMosaic Idealize.ShloMosaic.ValueIdx Cert.JSD

/-- The validity bit of token r. -/
theorem valid_bit (x2 : (⟨S4096, .i32⟩ : BufTy).Contents (Elt Ideal)) (r : Fin 4096) :
    val_main_v11 (F := Ideal) x2 (ix1 r) = BitVec.ofBool (decide (valid x2 r)) := by
  rw [val_main_v11_apply, val_main_v10_apply, val_main_c_apply, cmpi_ne_eq]
  refine congrArg BitVec.ofBool ?_
  by_cases h : valid x2 r
  · exact (decide_eq_true (show x2 (ix1 r) ≠ 4294967196#32 from h)).trans (decide_eq_true h).symm
  · exact (decide_eq_false (show ¬ x2 (ix1 r) ≠ 4294967196#32 from h)).trans (decide_eq_false h).symm

/-- A selection on the validity bit is the conditional on the token taking part. -/
theorem select_valid {α : Type} (x2 : (⟨S4096, .i32⟩ : BufTy).Contents (Elt Ideal)) (r : Fin 4096) (a b : α) :
    Scalar.select (val_main_v11 (F := Ideal) x2 (ix1 r)) a b = if valid x2 r then a else b := by
  rw [valid_bit, select_ofBool]
  by_cases h : valid x2 r
  · rw [if_pos h, if_pos (decide_eq_true h)]
  · rw [if_neg h, if_neg (by rw [decide_eq_false h]; exact Bool.false_ne_true)]

/-- The label with the ignore value replaced by 0. -/
theorem safe_label (x2 : (⟨S4096, .i32⟩ : BufTy).Contents (Elt Ideal)) (r : Fin 4096) :
    val_main_v12 (F := Ideal) x2 (ix1 r) = safeLabel x2 r := by
  rw [val_main_v12_apply, select_valid, val_main_call2_v1_apply, val_main_call2_v0_apply, val_main_c_1_apply]
  rfl

/-- The take's start index of row r: the label, counted from the end of the vocabulary when negative. -/
theorem norm_label (x2 : (⟨S4096, .i32⟩ : BufTy).Contents (Elt Ideal)) (r : Fin 4096) :
    val_main_call3_v4 (F := Ideal) x2 (ix2 r (0 : Fin 1)) = normLabel x2 r := by
  rw [val_main_call3_v4_apply, val_main_call3_v1_apply, val_main_call3_v3_apply, val_main_v13_apply, val_main_call3_v0_apply,
    val_main_call3_c_apply, val_main_call3_v2_apply, val_main_call3_c_0_apply]
  have e : idx_main_v13 (ix2 r (0 : Fin 1)) = ix1 r := funext fun a => Fin.ext (by
    match a with
    | ⟨0, _⟩ => rfl)
  rw [e, safe_label]
  show Scalar.select (BitVec.ofBool ((safeLabel x2 r).slt 0#32)) (safeLabel x2 r + 32000#32) (safeLabel x2 r) = _
  rw [select_ofBool]
  rfl

/-- The same, after the reshape to [4096, 1, 1]. -/
theorem start_index (x2 : (⟨S4096, .i32⟩ : BufTy).Contents (Elt Ideal)) (r : Fin 4096) :
    val_main_call3_v5 (F := Ideal) x2 (ix3 r (0 : Fin 1) (0 : Fin 1)) = normLabel x2 r := by
  rw [val_main_call3_v5_apply]
  have e : idx_main_call3_v5 (ix3 r (0 : Fin 1) (0 : Fin 1)) = ix2 r (0 : Fin 1) := funext fun a => Fin.ext (by
    match a with
    | ⟨0, _⟩ => show ((r.val * 1 + 0) * 1 + 0) / 1 = r.val; omega
    | ⟨1, _⟩ => rfl)
  rw [e, norm_label]

/-- For a label between -32000 and 31999 the start index lies in the vocabulary. -/
theorem norm_label_range (x2 : (⟨S4096, .i32⟩ : BufTy).Contents (Elt Ideal)) (r : Fin 4096)
    (h : (-32000 : ℤ) ≤ (x2 (ix1 r)).toInt ∧ (x2 (ix1 r)).toInt < 32000) :
    0 ≤ (normLabel x2 r).toInt ∧ (normLabel x2 r).toInt ≤ 31999 := by
  have hs : (-32000 : ℤ) ≤ (safeLabel x2 r).toInt ∧ (safeLabel x2 r).toInt < 32000 := by
    unfold safeLabel
    by_cases hv : valid x2 r
    · rw [if_pos hv]; exact h
    · rw [if_neg hv]; exact ⟨by decide, by decide⟩
  exact norm_range (safeLabel x2 r) hs.1 hs.2

/-- So the take's in-range mask is set. -/
theorem in_range (x2 : (⟨S4096, .i32⟩ : BufTy).Contents (Elt Ideal)) (r : Fin 4096)
    (h : (-32000 : ℤ) ≤ (x2 (ix1 r)).toInt ∧ (x2 (ix1 r)).toInt < 32000) :
    val_main_call3_v12 (F := Ideal) x2 (ix2 r (0 : Fin 1)) = 1#1 := by
  unfold val_main_call3_v12
  rw [reduce_unit_last IntOp.andi (val_main_call3_v11 (F := Ideal) x2) (val_main_call3_c_3 (F := Ideal))
    reducesTo_S4096x1x1_S4096x1_d2 (by decide) h_S_ r]
  rw [val_main_call3_v11_apply, val_main_call3_v7_apply, val_main_call3_v10_apply, val_main_call3_v6_apply,
    val_main_call3_c_2_apply, val_main_call3_v9_apply, val_main_call3_v8_apply, val_main_call3_c_1_apply,
    val_main_call3_c_3_apply, start_index]
  exact mask_one _ (norm_label_range x2 r h).1 (norm_label_range x2 r h).2

/-- The take reads, in row r, the student's log-probability at the label's vocabulary entry. -/
theorem taken (x0 : (⟨S4096x2048, .f32⟩ : BufTy).Contents (Elt Ideal)) (x2 : (⟨S4096, .i32⟩ : BufTy).Contents (Elt Ideal))
    (x3 : (⟨S32000x2048, .f32⟩ : BufTy).Contents (Elt Ideal)) (r : Fin 4096) :
    val_main_call3_v13 (F := Ideal) x0 x2 x3 (ix2 r (0 : Fin 1)) = logSoftmax (logit x0 x3) r (label x2 r) := by
  unfold val_main_call3_v13
  refine (gather_rowTake_apply (by decide) gather_S4096x32000_S4096x1x1_S4096x1_n_1_0_0_1_2_11_wf
    (val_main_v8 (F := Ideal) x0 x3) (val_main_call3_v5 (F := Ideal) x2) r).trans ?_
  refine (congrArg (fun z : Fin 32000 => val_main_v8 (F := Ideal) x0 x3 (ix2 r z)) (Fin.ext ?_)).trans
    (s_lp x0 x3 r (label x2 r))
  show min (val_main_call3_v5 (F := Ideal) x2 (ix3 r (0 : Fin 1) (0 : Fin 1))).toInt.toNat (32000 - 1)
    = min (normLabel x2 r).toInt.toNat 31999
  rw [start_index]

/-- The token's kept cross-entropy term. -/
theorem ce_term (x0 : (⟨S4096x2048, .f32⟩ : BufTy).Contents (Elt Ideal)) (x2 : (⟨S4096, .i32⟩ : BufTy).Contents (Elt Ideal))
    (x3 : (⟨S32000x2048, .f32⟩ : BufTy).Contents (Elt Ideal)) (r : Fin 4096)
    (h : (-32000 : ℤ) ≤ (x2 (ix1 r)).toInt ∧ (x2 (ix1 r)).toInt < 32000) :
    val_main_v20 (F := Ideal) x0 x2 x3 (ix1 r)
      = if valid x2 r then -(logSoftmax (logit x0 x3) r (label x2 r)) else 0 := by
  rw [val_main_v20_apply, select_valid, val_main_v16_apply, val_main_v15_apply, val_main_call4_v1_apply,
    val_main_call4_v0_apply, val_main_cst_4_apply]
  have e : idx_main_v15 (ix1 r) = ix2 r (0 : Fin 1) := funext fun a => Fin.ext (by
    match a with
    | ⟨0, _⟩ => exact Nat.div_one _
    | ⟨1, _⟩ => rfl)
  rw [e, val_main_v14_apply, in_range x2 r h, taken, select_one]
  simp only [Ideal.hostNegf_def, Ideal.negf_def, Ideal.ofBits_def, Ideal.ofBits_zero_f32]

/-- The sum of the kept terms. -/
theorem ce_sum (x0 : (⟨S4096x2048, .f32⟩ : BufTy).Contents (Elt Ideal)) (x2 : (⟨S4096, .i32⟩ : BufTy).Contents (Elt Ideal))
    (x3 : (⟨S32000x2048, .f32⟩ : BufTy).Contents (Elt Ideal))
    (hrange : ∀ r : Fin 4096, (-32000 : ℤ) ≤ (x2 (ix1 r)).toInt ∧ (x2 (ix1 r)).toInt < 32000) :
    val_main_v21 (F := Ideal) x0 x2 x3 ix0
      = ∑ r : Fin 4096, if valid x2 r then -(logSoftmax (logit x0 x3) r (label x2 r)) else 0 := by
  rw [val_main_v21_apply, val_main_cst_5_apply]
  simp only [Ideal.ofBits_def, Ideal.ofBits_zero_f32, zero_add]
  rw [sum_idx1]
  exact Finset.sum_congr rfl fun r _ => ce_term x0 x2 x3 r (hrange r)

/-- The 32-bit count of the tokens taking part does not wrap. -/
theorem count_word (x2 : (⟨S4096, .i32⟩ : BufTy).Contents (Elt Ideal)) :
    (val_main_v18 (F := Ideal) x2 ix0).toInt = (((Finset.univ.filter (valid x2)).card : ℕ) : ℤ) := by
  unfold val_main_v18
  rw [reduce_addi_all (val_main_v17 (F := Ideal) x2) (val_main_c_2 (F := Ideal)) reducesTo_S4096_S_d0 h_S_ ix0,
    val_main_c_2_apply, BitVec.zero_add]
  have e : ∀ k : Fin 4096, val_main_v17 (F := Ideal) x2 (ix1 k) = (BitVec.ofBool (decide (valid x2 k))).setWidth 32 :=
    fun k => by rw [val_main_v17_apply, valid_bit]
  rw [Finset.sum_congr rfl fun k _ => e k]
  exact toInt_sum_bits Finset.univ (valid x2) (by rw [Finset.card_univ, Fintype.card_fin]; norm_num)

/-- The divisor: the number of tokens taking part, or one if there is none. -/
theorem count_val (x2 : (⟨S4096, .i32⟩ : BufTy).Contents (Elt Ideal)) :
    val_main_v22 (F := Ideal) x2 ix0 = max (JSD.count x2) wOne := by
  rw [val_main_v22_apply, val_main_v19_apply, val_main_c_3_apply, sitofp_maxsi_one _ _ (count_word x2)]
  unfold JSD.count wOne
  rw [ofBits_one_f32, sum_ind_eq_card]

/-- The cross-entropy part. -/
theorem hard (x0 : (⟨S4096x2048, .f32⟩ : BufTy).Contents (Elt Ideal)) (x2 : (⟨S4096, .i32⟩ : BufTy).Contents (Elt Ideal))
    (x3 : (⟨S32000x2048, .f32⟩ : BufTy).Contents (Elt Ideal))
    (hrange : ∀ r : Fin 4096, (-32000 : ℤ) ≤ (x2 (ix1 r)).toInt ∧ (x2 (ix1 r)).toInt < 32000) :
    val_main_v23 (F := Ideal) x0 x2 x3 ix0
      = Ideal.div (∑ r : Fin 4096, if valid x2 r then -(logSoftmax (logit x0 x3) r (label x2 r)) else 0)
          (max (JSD.count x2) wOne) := by
  rw [val_main_v23_apply, ce_sum x0 x2 x3 hrange, count_val]
  simp only [Ideal.hostDivf_def]

end Cert.ReferenceIdeal.RefValue

end
-- ==== Proof.RefValue.lean ====
/-
  The plain program's result is the whole-array arrangement of the distillation loss: half the cross-entropy
  part plus half the divergence part, for labels between -32000 and 31999.
-/
import proofs.«178291_j71159018160659_2_alg».proof.Proof.RefSoft
import proofs.«178291_j71159018160659_2_alg».proof.Proof.RefHard

noncomputable section

open scoped BigOperators

namespace Cert.ReferenceIdeal.RefValue

open Cert.ReferenceIdeal Cert.ReferenceIdeal.Gen Cert.ReferenceIdeal.Read Idealize.ShloMosaic Idealize.ShloMosaic.ValueIdx Cert.JSD

/-- The plain program computes the whole-array loss of the two projections and the labels. -/
theorem ref_eq (x0 : (⟨S4096x2048, .f32⟩ : BufTy).Contents (Elt Ideal)) (x1 : (⟨S4096x4096, .f32⟩ : BufTy).Contents (Elt Ideal))
    (x2 : (⟨S4096, .i32⟩ : BufTy).Contents (Elt Ideal)) (x3 : (⟨S32000x2048, .f32⟩ : BufTy).Contents (Elt Ideal))
    (x4 : (⟨S32000x4096, .f32⟩ : BufTy).Contents (Elt Ideal))
    (hrange : ∀ r : Fin 4096, (-32000 : ℤ) ≤ (x2 (ix1 r)).toInt ∧ (x2 (ix1 r)).toInt < 32000) :
    val_main_v44 (F := Ideal) x0 x1 x2 x3 x4 ix0 = wholeLoss (logit x0 x3) (logit x1 x4) x2 := by
  rw [val_main_v44_apply, val_main_v42_apply, val_main_v43_apply, val_main_cst_13_apply, val_main_cst_14_apply,
    hard x0 x2 x3 hrange, soft]
  simp only [Ideal.addf_def, Ideal.mulf_def, Ideal.ofBits_def]
  rfl

end Cert.ReferenceIdeal.RefValue

end
-- ==== Proof.LossAlgebra.lean ====
/-
  The two arrangements of the distillation loss agree on real logits.

  For a row of real logits the largest logit M is real (a largest element of a nonempty finite set of reals) and
  the shifted sum of exponentials S is a positive real, so the row's log-sum-exp M + log S is real and the
  log-softmax of an entry, (x - M) - log S, is the entry less the log-sum-exp.  With that, both arrangements
  compute from the same real log-probabilities a (student) and b (teacher) of each entry and the same logarithm of
  the even mixture, log (e^b / 2 + e^a / 2), whose argument is positive.  The whole-array arrangement halves the
  two Kullback–Leibler sums after summing, the streaming one halves every term before; on real numbers a factor
  moves across a finite sum and products reassociate, so the divergence numerators are equal.  The cross-entropy
  numerators agree row by row: the negated log-softmax at the label is the log-sum-exp less the label's logit,
  and multiplying by a 0/1 label keeps that value or gives zero.
-/
import Mathlib.Tactic
import proofs.«178291_j71159018160659_2_alg».proof.Proof.Spec
import proofs.«178291_j71159018160659_2_alg».proof.Proof.Online
import proofs.«178291_j71159018160659_2_alg».proof.Proof.LibLossAlgebra

noncomputable section

namespace Cert.JSD

open Idealize.ShloMosaic

/-- The literal one half is the real number 1/2. -/
theorem half_eq : half = ((1 / 2 : ℝ) : EReal) := Cert.LossAlgebra.ofBits_half_f32

/-- The exponential of a real number. -/
theorem exp_coe (x : ℝ) : Ideal.exp (x : EReal) = ((Real.exp x : ℝ) : EReal) := rfl

/-- The logarithm of a positive real number. -/
theorem log_coe_pos {x : ℝ} (hx : 0 < x) : Ideal.log (x : EReal) = ((Real.log x : ℝ) : EReal) := by
  show (if x ≤ 0 then (⊥ : EReal) else ((Real.log x : ℝ) : EReal)) = _
  rw [if_neg (not_le.mpr hx)]

/-- The largest logit of a row of real logits is real. -/
theorem rowMax_real (l : Fin 4096 → Fin 32000 → EReal) (hl : ∀ r v, ∃ x : ℝ, l r v = (x : EReal)) (r : Fin 4096) :
    ∃ M : ℝ, rowMax l r = (M : EReal) := by
  have hne : (Finset.univ : Finset (Fin 32000)).Nonempty := ⟨⟨0, by omega⟩, Finset.mem_univ _⟩
  obtain ⟨v, -, hv⟩ := Finset.exists_mem_eq_sup Finset.univ hne (l r)
  obtain ⟨x, hx⟩ := hl r v
  exact ⟨x, by unfold rowMax; rw [hv, hx]⟩

/-- The shifted sum of exponentials of a row of real logits is a positive real. -/
theorem rowSumExp_real (l : Fin 4096 → Fin 32000 → EReal) (hl : ∀ r v, ∃ x : ℝ, l r v = (x : EReal)) (r : Fin 4096) :
    ∃ S : ℝ, 0 < S ∧ rowSumExp l r = (S : EReal) := by
  obtain ⟨M, hM⟩ := rowMax_real l hl r
  choose x hx using hl r
  refine ⟨∑ v, Real.exp (x v - M), Finset.sum_pos (fun v _ => Real.exp_pos _) ⟨⟨0, by omega⟩, Finset.mem_univ _⟩, ?_⟩
  unfold rowSumExp
  rw [hM, coe_sum]
  refine Finset.sum_congr rfl fun v _ => ?_
  rw [hx v, ← EReal.coe_sub]
  rfl

/-- The log-sum-exp of a row of real logits is a real L, and the log-softmax of an entry x is x - L. -/
theorem lse_logSoftmax (l : Fin 4096 → Fin 32000 → EReal) (hl : ∀ r v, ∃ x : ℝ, l r v = (x : EReal)) (r : Fin 4096) :
    ∃ L : ℝ, lse l r = (L : EReal)
      ∧ ∀ (v : Fin 32000) (x : ℝ), l r v = (x : EReal) → logSoftmax l r v = ((x - L : ℝ) : EReal) := by
  obtain ⟨M, hM⟩ := rowMax_real l hl r
  obtain ⟨S, hS, hSe⟩ := rowSumExp_real l hl r
  refine ⟨M + Real.log S, ?_, fun v x hx => ?_⟩
  · unfold lse
    rw [hM, hSe, log_coe_pos hS, ← EReal.coe_add]
  · unfold logSoftmax
    rw [hx, hM, hSe, log_coe_pos hS, ← EReal.coe_sub, ← EReal.coe_sub]
    exact congrArg (fun z : ℝ => (z : EReal)) (by ring)

/-- The even mixture of two exponentials is positive. -/
theorem mix_pos (a b : ℝ) : 0 < 1 / 2 * Real.exp b + 1 / 2 * Real.exp a := by
  have ha := Real.exp_pos a
  have hb := Real.exp_pos b
  positivity

/-- The logarithm of the even mixture at real log-probabilities a and b is a real number. -/
theorem log_mix_coe (a b : ℝ) :
    Ideal.log (half * Ideal.exp (b : EReal) + half * Ideal.exp (a : EReal))
      = ((Real.log (1 / 2 * Real.exp b + 1 / 2 * Real.exp a) : ℝ) : EReal) := by
  rw [half_eq, exp_coe, exp_coe, ← EReal.coe_mul, ← EReal.coe_mul, ← EReal.coe_add, log_coe_pos (mix_pos a b)]

/-- Halving two double sums of real products is summing the halved products: over any two finite index types,
    for real log-probabilities a and b. -/
theorem jsd_num_abs {ι κ : Type} [Fintype ι] [Fintype κ] (a b : ι → κ → ℝ) :
    half * (∑ r : ι, ∑ v : κ, Ideal.exp (b r v : EReal)
        * ((b r v : EReal) - Ideal.log (half * Ideal.exp (b r v : EReal) + half * Ideal.exp (a r v : EReal))))
      + half * (∑ r : ι, ∑ v : κ, Ideal.exp (a r v : EReal)
        * ((a r v : EReal) - Ideal.log (half * Ideal.exp (b r v : EReal) + half * Ideal.exp (a r v : EReal))))
      = ∑ r : ι, ∑ v : κ, contrib (a r v : EReal) (b r v : EReal) := by
  simp only [contrib, log_mix_coe]
  simp only [half_eq, exp_coe, ← EReal.coe_sub, ← EReal.coe_mul, ← EReal.coe_add, ← coe_sum]
  refine congrArg (fun z : ℝ => (z : EReal)) ?_
  simp only [Finset.mul_sum, ← Finset.sum_add_distrib]
  refine Finset.sum_congr rfl fun r _ => Finset.sum_congr rfl fun v _ => ?_
  ring

/-- The divergence numerators of the two arrangements are equal on real logits. -/
theorem jsd_num_eq (ls lt : Fin 4096 → Fin 32000 → EReal) (hls : ∀ r v, ∃ x : ℝ, ls r v = (x : EReal))
    (hlt : ∀ r v, ∃ x : ℝ, lt r v = (x : EReal)) :
    half * (∑ r : Fin 4096, ∑ v : Fin 32000, Ideal.exp (logSoftmax lt r v) * (logSoftmax lt r v - logMix ls lt r v))
      + half * (∑ r : Fin 4096, ∑ v : Fin 32000, Ideal.exp (logSoftmax ls r v) * (logSoftmax ls r v - logMix ls lt r v))
      = ∑ r : Fin 4096, rowJsd ls lt (lse ls) (lse lt) r := by
  have hs := fun r => lse_logSoftmax ls hls r
  have ht := fun r => lse_logSoftmax lt hlt r
  choose Ls hLs hSs using hs
  choose Lt hLt hSt using ht
  choose xs hxs using hls
  choose xt hxt using hlt
  have hA : ∀ r v, logSoftmax ls r v = ((xs r v - Ls r : ℝ) : EReal) := fun r v => hSs r v _ (hxs r v)
  have hB : ∀ r v, logSoftmax lt r v = ((xt r v - Lt r : ℝ) : EReal) := fun r v => hSt r v _ (hxt r v)
  have hA' : ∀ r v, ls r v - lse ls r = ((xs r v - Ls r : ℝ) : EReal) := fun r v => by
    rw [hxs r v, hLs r, ← EReal.coe_sub]
  have hB' : ∀ r v, lt r v - lse lt r = ((xt r v - Lt r : ℝ) : EReal) := fun r v => by
    rw [hxt r v, hLt r, ← EReal.coe_sub]
  simp only [rowJsd, logMix, hA, hB, hA', hB']
  exact jsd_num_abs (fun r v => xs r v - Ls r) (fun r v => xt r v - Lt r)

/-- The cross-entropy numerators of the two arrangements are equal on real logits. -/
theorem ce_num_eq (ls : Fin 4096 → Fin 32000 → EReal) (hls : ∀ r v, ∃ x : ℝ, ls r v = (x : EReal))
    (tg : (⟨1, ![4096]⟩ : Shape).Idx → BitVec 32) :
    (∑ r : Fin 4096, if valid tg r then -(logSoftmax ls r (label tg r)) else 0)
      = ∑ r : Fin 4096, (lse ls r - ls r (label tg r)) * (if valid tg r then (1 : EReal) else 0) := by
  refine Finset.sum_congr rfl fun r _ => ?_
  obtain ⟨L, hL, hS⟩ := lse_logSoftmax ls hls r
  obtain ⟨x, hx⟩ := hls r (label tg r)
  rw [Cert.LossAlgebra.mul_ind, hS _ x hx, hL, hx, ← EReal.coe_sub, ← EReal.coe_neg, neg_sub]

/-- On real logits the whole-array arrangement and the streaming arrangement of the loss are equal. -/
theorem whole_eq_stream (ls lt : Fin 4096 → Fin 32000 → EReal) (hls : ∀ r v, ∃ x : ℝ, ls r v = (x : EReal))
    (hlt : ∀ r v, ∃ x : ℝ, lt r v = (x : EReal)) (tg : (⟨1, ![4096]⟩ : Shape).Idx → BitVec 32) :
    wholeLoss ls lt tg = streamLoss ls lt tg := by
  unfold wholeLoss streamLoss
  rw [ce_num_eq ls hls tg, jsd_num_eq ls lt hls hlt]

end Cert.JSD

end
-- ==== Proof.lean ====
/-
  The certificate.  A distillation loss — half the mean cross-entropy of the student's projection at the labels,
  plus half the mean generalized Jensen–Shannon divergence between the student's and the teacher's softmax over a
  vocabulary of 32000 — is computed once by two streaming kernels (an online softmax over 50 vocabulary stretches
  per row block, the logits kept between the two; then a running sum of the divergence terms) and once by whole
  arrays.  On extended reals, for finite float inputs and labels in [-32000, 32000), both give the same number:
  the streaming run's maximum and rescaled sum are the row's maximum and shifted sum of exponentials, so its
  log-probabilities are the whole-array log-softmax, and the remaining difference is the order of finite sums and
  products of real numbers.  The three programs' runs terminate without a fault and leave their arguments as
  launched; the idealization rewrote no operation.
-/
import proofs.«178291_j71159018160659_2_alg».proof.Defs
import proofs.«178291_j71159018160659_2_alg».proof.Proof.Gen.Kernel
import proofs.«178291_j71159018160659_2_alg».proof.Proof.Gen.Kernel.Frame
import proofs.«178291_j71159018160659_2_alg».proof.Proof.Gen.KernelIdeal
import proofs.«178291_j71159018160659_2_alg».proof.Proof.Gen.KernelIdeal.Frame
import proofs.«178291_j71159018160659_2_alg».proof.Proof.Gen.ReferenceIdeal
import proofs.«178291_j71159018160659_2_alg».proof.Proof.Gen.Pre_finite_inputs
import proofs.«178291_j71159018160659_2_alg».proof.Proof.KRun
import proofs.«178291_j71159018160659_2_alg».proof.Proof.KValue
import proofs.«178291_j71159018160659_2_alg».proof.Proof.PreDecode
import proofs.«178291_j71159018160659_2_alg».proof.Proof.RefRunH
import proofs.«178291_j71159018160659_2_alg».proof.Proof.RefValue
import proofs.«178291_j71159018160659_2_alg».proof.Proof.LossAlgebra
import proofs.«178291_j71159018160659_2_alg».proof.Proof.Online
import Idealize.ShloMosaic.Adequacy
import Idealize.ShloMosaic.Init

noncomputable section

namespace Cert.Proof

open Idealize.ShloMosaic Idealize.ShloMosaic.ValueIdx Idealize.SL.Sem Cert.JSD

/-- The word-level kernel program runs and leaves its arguments as launched. -/
theorem frame_k : Cert.frame_Kernel := fun m ρ _ => Cert.Kernel.Gen.frame m ρ

/-- So does its reading on extended reals. -/
theorem frame_ki : Cert.frame_KernelIdeal := fun m ρ _ => Cert.KernelIdeal.Gen.frame m ρ

/-- So does the whole-array program: its run with the result dropped. -/
theorem frame_ri : Cert.frame_ReferenceIdeal := fun m ρ _ =>
  (θ_run Cert.ReferenceIdeal.defs _ _).mono (fun _ h c => (h c).2) (Cert.ReferenceIdeal.RunH.run (F := Ideal) m ρ)

/-- The idealization rewrote nothing. -/
theorem preserves : Cert.preserves_Kernel_KernelIdeal := trivial

/-- On extended reals the two programs end with the same loss: the streaming arrangement on one side (the regions'
    invariants and the host stretches read back), the whole-array arrangement on the other (the operations read one
    by one), and the two arrangements agree for finite inputs. -/
theorem algebraic : Cert.algebraic_KernelIdeal_ReferenceIdeal := by
  intro m ρ m' ρ' hpre hagree
  refine ⟨fun c => fun _ => streamLoss (Cert.KernelIdeal.KValue.ls m c) (Cert.KernelIdeal.KValue.lt m c)
    (Cert.KernelIdeal.KValue.aTG m c), ?_, ?_⟩
  · refine (θ_run Cert.KernelIdeal.defs _ _).mono (fun r h c => ⟨(h c).1.trans ?_, (h c).2⟩)
      (Cert.KernelIdeal.KRun.run_result m ρ)
    obtain ⟨h0, h1, h3, h4, hr⟩ := Cert.Pre_finite_inputs.Decode.decode _ _ _ _ _ (hpre c)
    exact Cert.KernelIdeal.KValue.result m ρ c h0 h1 h3 h4 hr
  · refine (θ_run Cert.ReferenceIdeal.defs _ _).mono (fun r h c => ⟨(h c).1.trans ?_, (h c).2⟩)
      (Cert.ReferenceIdeal.RunH.run (F := Ideal) m' ρ')
    obtain ⟨h0, h1, h3, h4, hr⟩ := Cert.Pre_finite_inputs.Decode.decode _ _ _ _ _ (hpre c)
    rw [(hagree c).1, (hagree c).2.1, (hagree c).2.2.1, (hagree c).2.2.2.1, (hagree c).2.2.2.2]
    funext j
    obtain rfl : j = ix0 := eq_ix0 j
    refine (Cert.ReferenceIdeal.RefValue.ref_eq _ _ _ _ _ hr).trans ?_
    exact whole_eq_stream _ _ (logit_real _ _ h0 h3) (logit_real _ _ h1 h4) _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
